-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S4096x4096 : Shape := ⟨2, ![4096, 4096]⟩
abbrev S4096 : Shape := ⟨1, ![4096]⟩
abbrev S4096x16 : Shape := ⟨2, ![4096, 16]⟩
abbrev S16x4096 : Shape := ⟨2, ![16, 4096]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S4096x16 : S_.BroadcastsInDim S4096x16 (![] : Fin 0 → Fin S4096x16.rank)
  reducesTo_S4096x16_S_d0_1 : S4096x16.ReducesTo [0, 1] S_
  bcast_S_S16x4096 : S_.BroadcastsInDim S16x4096 (![] : Fin 0 → Fin S16x4096.rank)
  reducesTo_S16x4096_S_d0_1 : S16x4096.ReducesTo [0, 1] S_

variable [Facts]

def fn_part1 {F : FTy → Type} [FloatOps F] (main_arg4 : FVec F S16x4096 .f32) (main_v13 : IVec S_ 1) (main_v16 : IVec S4096x16 1) : IVec S_ 1 :=
  let main_c_5 : IVec S_ 1 := constantI S_ 1 1#1
  let main_v17 : IVec S_ 1 := (fun x v => Host.reduce IntOp.andi x v reducesTo_S4096x16_S_d0_1 h_S_) main_v16 main_c_5
  let main_v18 : IVec S_ 1 := andi main_v13 main_v17
  let main_v19 : FVec F S16x4096 .f32 := Host.absf main_arg4
  let main_cst_6 : FVec F S_ .f32 := constant S_ .f32 0x7F800000#32
  let main_v20 : FVec F S16x4096 .f32 := broadcastInDim S16x4096 ![] bcast_S_S16x4096 main_cst_6
  let main_v21 : IVec S16x4096 1 := cmpf .olt main_v19 main_v20
  let main_c_7 : IVec S_ 1 := constantI S_ 1 1#1
  let main_v22 : IVec S_ 1 := (fun x v => Host.reduce IntOp.andi x v reducesTo_S16x4096_S_d0_1 h_S_) main_v21 main_c_7
  let main_v23 : IVec S_ 1 := andi main_v18 main_v22
  main_v23

def fn {F : FTy → Type} [FloatOps F] (main_arg0 : FVec F S4x4096x4096 .f32) (main_arg1 : FVec F S4096x4096 .f32) (main_arg2 : FVec F S4096 .f32) (main_arg3 : FVec F S4096x16 .f32) (main_arg4 : FVec F S16x4096 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x16 .f32 := Host.absf main_arg3
  let main_cst_4 : FVec F S_ .f32 := constant S_ .f32 0x7F800000#32
  let main_v15 : FVec F S4096x16 .f32 := broadcastInDim S4096x16 ![] bcast_S_S4096x16 main_cst_4
  let main_v16 : IVec S4096x16 1 := cmpf .olt main_v14 main_v15
  fn_part1 (F := F) main_arg4 main_v13 main_v16
-- ==== Kernel.lean ====
abbrev S4x4096x4096 : Shape := ⟨3, ![4, 4096, 4096]⟩
abbrev S4096x4096 : Shape := ⟨2, ![4096, 4096]⟩
abbrev S4096 : Shape := ⟨1, ![4096]⟩
abbrev S4096x16 : Shape := ⟨2, ![4096, 16]⟩
abbrev S16x4096 : Shape := ⟨2, ![16, 4096]⟩
abbrev S1024x1024 : Shape := ⟨2, ![1024, 1024]⟩
abbrev S1024x16 : Shape := ⟨2, ![1024, 16]⟩
abbrev S16x1024 : Shape := ⟨2, ![16, 1024]⟩
abbrev S16384x4096 : Shape := ⟨2, ![16384, 4096]⟩
abbrev S1x4096 : Shape := ⟨2, ![1, 4096]⟩
abbrev S1024x512 : Shape := ⟨2, ![1024, 512]⟩
abbrev S512x2048 : Shape := ⟨2, ![512, 2048]⟩
abbrev S1x2048 : Shape := ⟨2, ![1, 2048]⟩
abbrev S1024x2048 : Shape := ⟨2, ![1024, 2048]⟩

abbrev nBuf : Space → Nat
  | .hbm => 10
  | .vmem => 17
  | .smem => 0
  | _ => 0

abbrev bufTy : (tb : Table) → Fin (tcTables nBuf tb) → BufTy
  | .hbm, ⟨0, _⟩ => ⟨S4x4096x4096, .f32⟩
  | .hbm, ⟨1, _⟩ => ⟨S4096x4096, .f32⟩
  | .hbm, ⟨2, _⟩ => ⟨S4096, .f32⟩
  | .hbm, ⟨3, _⟩ => ⟨S4096x16, .f32⟩
  | .hbm, ⟨4, _⟩ => ⟨S16x4096, .f32⟩
  | .hbm, ⟨5, _⟩ => ⟨S4096x4096, .bf16⟩
  | .hbm, ⟨6, _⟩ => ⟨S16384x4096, .f32⟩
  | .hbm, ⟨7, _⟩ => ⟨S1x4096, .f32⟩
  | .hbm, ⟨8, _⟩ => ⟨S16384x4096, .f32⟩
  | .hbm, ⟨9, _⟩ => ⟨S4x4096x4096, .f32⟩
  | .local _ .vmem, ⟨0, _⟩ => ⟨S1024x1024, .f32⟩
  | .local _ .vmem, ⟨1, _⟩ => ⟨S1024x1024, .f32⟩
  | .local _ .vmem, ⟨2, _⟩ => ⟨S1024x16, .f32⟩
  | .local _ .vmem, ⟨3, _⟩ => ⟨S1024x16, .f32⟩
  | .local _ .vmem, ⟨4, _⟩ => ⟨S16x1024, .f32⟩
  | .local _ .vmem, ⟨5, _⟩ => ⟨S16x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x512, .f32⟩
  | .local _ .vmem, ⟨9, _⟩ => ⟨S1024x512, .f32⟩
  | .local _ .vmem, ⟨10, _⟩ => ⟨S512x2048, .bf16⟩
  | .local _ .vmem, ⟨11, _⟩ => ⟨S512x2048, .bf16⟩
  | .local _ .vmem, ⟨12, _⟩ => ⟨S1x2048, .f32⟩
  | .local _ .vmem, ⟨13, _⟩ => ⟨S1x2048, .f32⟩
  | .local _ .vmem, ⟨14, _⟩ => ⟨S1024x2048, .f32⟩
  | .local _ .vmem, ⟨15, _⟩ => ⟨S1024x2048, .f32⟩
  | .local _ .vmem, ⟨16, _⟩ => ⟨S1024x2048, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨3, ![16, 2, 8], ![false, false, false]⟩

def k1_cond2 (i : grid1.Coords) : BitVec 1 :=
  let arg2 : BitVec 32 := BitVec.ofNat 32 (i 2).val
  let c7_i32 : BitVec 32 := 7#32
  let v14 : BitVec 1 := Scalar.cmpi .eq arg2 c7_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S512x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1024x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  inb_S1024x1024_S1024x1024_0_0 : ∀ a, (![0, 0] : Fin 2 → Nat) a + S1024x1024.size a ≤ S1024x1024.size a
  h_S1024x1024 : 0 < S1024x1024.numel
  inb_S1024x16_S1024x16_0_0 : ∀ a, (![0, 0] : Fin 2 → Nat) a + S1024x16.size a ≤ S1024x16.size a
  h_S1024x16 : 0 < S1024x16.numel
  bitsLt_bf16_f32 : FTy.bits .bf16 < FTy.bits .f32
  inb_S16x1024_S16x1024_0_0 : ∀ a, (![0, 0] : Fin 2 → Nat) a + S16x1024.size a ≤ S16x1024.size a
  h_S16x1024 : 0 < S16x1024.numel
  packedbf16_S1024x1024_S1024x1024_0_0 : (Rect.unit (s := S1024x1024) ![0, 0] S1024x1024.size inb_S1024x1024_S1024x1024_0_0).PackedRows (EltTy.packing .bf16)
  shapeCasts_S4x4096x4096_S16384x4096 : S4x4096x4096.ShapeCasts S16384x4096
  shapeCasts_S4096_S1x4096 : S4096.ShapeCasts S1x4096
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  shapeCasts_S16384x4096_S4x4096x4096 : S16384x4096.ShapeCasts S4x4096x4096
  dot_S1024x16_S16x1024_S1024x1024_1_0_0_1_n_n_wf : DotDims.WF S1024x16 S16x1024 S1024x1024 [1] [0] [0] [1] [] []
  dot_S1024x512_S512x2048_S1024x2048_1_0_0_1_n_n_wf : DotDims.WF S1024x512 S512x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .f32 = 32 ∨ (Rect.block (s := S4096x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x16.size a ≤ S4096x16.size a
  hwx0_1 : ∀ i : grid0.Coords, EltTy.bits .f32 = 32 ∨ (Rect.block (s := S4096x16) S1024x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x1024.size a ≤ S16x4096.size a
  hwx0_2 : ∀ i : grid0.Coords, EltTy.bits .f32 = 32 ∨ (Rect.block (s := S16x4096) S16x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x4096.size a
  hwx0_3 : ∀ i : grid0.Coords, EltTy.bits .bf16 = 32 ∨ (Rect.block (s := S4096x4096) S1024x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S16384x4096.size a
  hwx1_0 : ∀ i : grid1.Coords, EltTy.bits .f32 = 32 ∨ (Rect.block (s := S16384x4096) S1024x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x2048.size a ≤ S4096x4096.size a
  hwx1_1 : ∀ i : grid1.Coords, EltTy.bits .bf16 = 32 ∨ (Rect.block (s := S4096x4096) S512x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x4096.size a
  hwx1_2 : ∀ i : grid1.Coords, EltTy.bits .f32 = 32 ∨ (Rect.block (s := S1x4096) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x2048.size a ≤ S16384x4096.size a
  hwx1_3 : ∀ i : grid1.Coords, EltTy.bits .f32 = 32 ∨ (Rect.block (s := S16384x4096) S1024x2048.size (cc1_transform_3 i) (hinb1_3 i)).WholeWords (EltTy.packing .f32)

variable [Facts₀]

def dot_S1024x16_S16x1024_S1024x1024_1_0_0_1_n_n : DotDims S1024x16 S16x1024 S1024x1024 where
  lhsContracting := [1]
  rhsContracting := [0]
  lhsNonContracting := [0]
  rhsNonContracting := [1]
  lhsBatch := []
  rhsBatch := []
  wf := dot_S1024x16_S16x1024_S1024x1024_1_0_0_1_n_n_wf
def dot_S1024x512_S512x2048_S1024x2048_1_0_0_1_n_n : DotDims S1024x512 S512x2048 S1024x2048 where
  lhsContracting := [1]
  rhsContracting := [0]
  lhsNonContracting := [0]
  rhsNonContracting := [1]
  lhsBatch := []
  rhsBatch := []
  wf := dot_S1024x512_S512x2048_S1024x2048_1_0_0_1_n_n_wf

abbrev win0_0 : Pipeline.Window sig grid0 :=
  Pipeline.Window.ofSpec (Memref.whole main_arg1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1024x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S16x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S512x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1024x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4x4096x4096 : Shape := ⟨3, ![4, 4096, 4096]⟩
abbrev S4096x4096 : Shape := ⟨2, ![4096, 4096]⟩
abbrev S4096 : Shape := ⟨1, ![4096]⟩
abbrev S4096x16 : Shape := ⟨2, ![4096, 16]⟩
abbrev S16x4096 : Shape := ⟨2, ![16, 4096]⟩
abbrev S1x1x4096 : Shape := ⟨3, ![1, 1, 4096]⟩
abbrev S4x4096x16 : Shape := ⟨3, ![4, 4096, 16]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096x4096, .f32⟩
  | .hbm, ⟨2, _⟩ => ⟨S4096, .f32⟩
  | .hbm, ⟨3, _⟩ => ⟨S4096x16, .f32⟩
  | .hbm, ⟨4, _⟩ => ⟨S16x4096, .f32⟩
  | .hbm, ⟨5, _⟩ => ⟨S4x4096x4096, .f32⟩
  | .hbm, ⟨6, _⟩ => ⟨S1x1x4096, .f32⟩
  | .hbm, ⟨7, _⟩ => ⟨S4x4096x4096, .f32⟩
  | .hbm, ⟨8, _⟩ => ⟨S4x4096x4096, .f32⟩
  | .hbm, ⟨9, _⟩ => ⟨S4x4096x16, .f32⟩
  | .hbm, ⟨10, _⟩ => ⟨S4x4096x4096, .f32⟩
  | .hbm, ⟨11, _⟩ => ⟨S_, .f32⟩
  | .hbm, ⟨12, _⟩ => ⟨S4x4096x4096, .f32⟩
  | .hbm, ⟨13, _⟩ => ⟨S4x4096x4096, .f32⟩
  | .hbm, ⟨14, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x4096x4096_0_1_2 : S1x1x4096.BroadcastsInDim S4x4096x4096 (![0, 1, 2] : Fin 3 → Fin S4x4096x4096.rank)
  bcast_S_S4x4096x4096 : S_.BroadcastsInDim S4x4096x4096 (![] : Fin 0 → Fin S4x4096x4096.rank)
  dot_S4x4096x4096_S4096x4096_S4x4096x4096_2_0_01_1_n_n_wf : DotDims.WF S4x4096x4096 S4096x4096 S4x4096x4096 [2] [0] [0, 1] [1] [] []
  dot_S4x4096x4096_S4096x16_S4x4096x16_2_0_01_1_n_n_wf : DotDims.WF S4x4096x4096 S4096x16 S4x4096x16 [2] [0] [0, 1] [1] [] []
  dot_S4x4096x16_S16x4096_S4x4096x4096_2_0_01_1_n_n_wf : DotDims.WF S4x4096x16 S16x4096 S4x4096x4096 [2] [0] [0, 1] [1] [] []

variable [Facts₀]

def dot_S4x4096x4096_S4096x4096_S4x4096x4096_2_0_01_1_n_n : DotDims S4x4096x4096 S4096x4096 S4x4096x4096 where
  lhsContracting := [2]
  rhsContracting := [0]
  lhsNonContracting := [0, 1]
  rhsNonContracting := [1]
  lhsBatch := []
  rhsBatch := []
  wf := dot_S4x4096x4096_S4096x4096_S4x4096x4096_2_0_01_1_n_n_wf
def dot_S4x4096x4096_S4096x16_S4x4096x16_2_0_01_1_n_n : DotDims S4x4096x4096 S4096x16 S4x4096x16 where
  lhsContracting := [2]
  rhsContracting := [0]
  lhsNonContracting := [0, 1]
  rhsNonContracting := [1]
  lhsBatch := []
  rhsBatch := []
  wf := dot_S4x4096x4096_S4096x16_S4x4096x16_2_0_01_1_n_n_wf
def dot_S4x4096x16_S16x4096_S4x4096x4096_2_0_01_1_n_n : DotDims S4x4096x16 S16x4096 S4x4096x4096 where
  lhsContracting := [2]
  rhsContracting := [0]
  lhsNonContracting := [0, 1]
  rhsNonContracting := [1]
  lhsBatch := []
  rhsBatch := []
  wf := dot_S4x4096x16_S16x4096_S4x4096x4096_2_0_01_1_n_n_wf

class Facts : Prop extends Facts₀ where

variable [Facts]
-- ==== Proof.K.Weff.lean ====
import proofs.«164843_j86371792322948_2_alg».proof.Proof.Gen.Kernel.Launch
import proofs.«164843_j86371792322948_2_alg».proof.Proof.Gen.Kernel.Skeleton
import proofs.«164843_j86371792322948_2_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

/-!
# The first pallas_call: the effective weight W + 2·(A·B), rounded to bf16

Region 0 of the program runs the kernel that, at each of the 4×4 grid points, reads a 1024×1024
block of W, the matching 1024×16 row block of A and 16×1024 column block of B, and writes the
bf16 rounding of W + 2·(bf16 A · bf16 B) over the whole output block. This file gives the
pipeline's proof data for that region at an arbitrary entry memory V, and discharges the body
obligation: at every grid point the three input staging buffers hold their blocks of V (whether
the pipeline fetched them at that point or kept them from the point before), the body leaves them
as they were, and it leaves the output staging buffer at the one store's payload over those blocks.
-/

set_option maxRecDepth 16384

noncomputable section

namespace Cert.Kernel.Weff

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows show the body -/

/-- Window w's block at grid point t, read off the window's array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The W window's staging buffer holds its block at every point: it is an input the body only reads,
    so a point at which it was not fetched has the block index of the point before, whose block it still holds. -/
theorem before_W_of {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- The A window's block index moves only with the first grid coordinate, so three points in four keep the
    buffer of the point before; the same argument covers them. -/
theorem before_A_of {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- The B window likewise. -/
theorem before_B_of {c : Dev nD} (dat : Dat τ (Elt F) Unit ℕ (UR sig nD τ) ℕ cfg0 c) (hA : dat.A 2 = V c (Pipeline.arrRef spec0 2))
    (hafter : ∀ t, dat.after 2 t = blk V c 2 t) (t : Fin cfg0.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-! ## What the body reads and writes -/

/-- The whole 1024×1024 buffer, as the rectangle the body's accesses name (zero offsets, the buffer's own sizes). -/
abbrev rW : Rect S1024x1024 := Rect.unit (s := S1024x1024) ![0, 0] S1024x1024.size inb_S1024x1024_S1024x1024_0_0
/-- The whole 1024×16 buffer. -/
abbrev rA : Rect S1024x16 := Rect.unit (s := S1024x16) ![0, 0] S1024x16.size inb_S1024x16_S1024x16_0_0
/-- The whole 16×1024 buffer. -/
abbrev rB : Rect S16x1024 := Rect.unit (s := S16x1024) ![0, 0] S16x1024.size inb_S16x1024_S16x1024_0_0

/-- The output staging buffer after the body, from the three input blocks: its single store, whose payload
    is computed from the three loads. -/
def stored (x0 : Vec F S1024x1024 .f32) (x1 : Vec F S1024x16 .f32) (x2 : Vec F S16x1024 .f32) : Vec F S1024x1024 .bf16 :=
  View.canon [⟨rW, k0_pay1 (View.ld x0 rW) (View.ld x1 rA) (View.ld x2 rB)⟩]

/-- The store is through the whole-buffer rectangle and the loads read whole buffers: what is left is the
    payload of the blocks themselves. -/
theorem stored_eq (x0 : Vec F S1024x1024 .f32) (x1 : Vec F S1024x16 .f32) (x2 : Vec F S16x1024 .f32) :
    stored x0 x1 x2 = k0_pay1 x0 x1 x2 := by
  unfold stored
  rw [View.canon_unit_zero (by funext a; fin_cases a <;> rfl), View.ld_unit_zero (by funext a; fin_cases a <;> rfl),
    View.ld_unit_zero (by funext a; fin_cases a <;> rfl), View.ld_unit_zero (by funext a; fin_cases a <;> rfl)]

/-- The single store covers the output buffer. -/
theorem stored_cover (p : Vec F S1024x1024 .bf16) (y : S1024x1024.Idx) :
    ∃ pc ∈ ([⟨rW, p⟩] : List (View.Piece (Elt F) S1024x1024 .bf16)), y ∈ pc.1.set :=
  ⟨⟨rW, p⟩, List.mem_singleton_self _, View.mem_set_unit_zero (by funext a; fin_cases a <;> rfl) inb_S1024x1024_S1024x1024_0_0 y⟩

/-! ## The body's triple -/

set_option maxHeartbeats 1000000 in
/-- The kernel body on whole staging memrefs, the three inputs' at read contents x0, x1, x2 and the output's at
    anything, runs to the continuation holding the inputs' as they were and the output's at stored x0 x1 x2:
    three loads, a load of the output buffer whose value nothing reads, and the one store. -/
theorem sound_kernel (c : Dev nD) (E : Set ℕ) (i : grid0.Coords)
    (arg2 : Memref sig .tc .vmem S1024x1024 .f32) (harg2 : arg2.IsWhole) (arg3 : Memref sig .tc .vmem S1024x16 .f32) (harg3 : arg3.IsWhole)
    (arg4 : Memref sig .tc .vmem S16x1024 .f32) (harg4 : arg4.IsWhole) (arg5 : Memref sig .tc .vmem S1024x1024 .bf16) (harg5 : arg5.IsWhole)
    (x0 : Vec F S1024x1024 .f32) (x1 : Vec F S1024x16 .f32) (x2 : Vec F S16x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (stored x0 x1 x2)) -∗ K ⟨⟩))
      ⊢ wp frame (wpE (defs₀ (F := F)) Variants.none c none) E (cc0__weff_kernel i arg2 harg2 arg3 harg3 arg4 harg4 arg5 harg5) K := by
  simp only [cc0__weff_kernel_eq_skeleton]; unfold cc0__weff_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (stored_cover _)

/-! ## The pipeline's proof data -/

/-- The proof data of the region's pipeline on core c: the windows' arrays as the region finds them; after the
    body at point t each input's buffer still at its block and the output's at stored of the three blocks; the
    invariant that of a body that touches nothing but its staging buffers; nothing owed; full shares. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => stored (blk V c 0 t) (blk V c 1 t) (blk V c 2 t)
  Φ _ := Pipeline.ΦA spec0 c
  q _ := fullShare
  owed _ := 0

/-- The proof data's arrays are the entry contents. -/
theorem dat_A (c : Dev nD) (w : Fin cfg0.W) : (dat V c).A w = V c (Pipeline.arrRef spec0 w) := by
  dsimp only [dat]

/-- What the body leaves, window by window. -/
theorem dat_after_W (c : Dev nD) (t : Fin cfg0.N) : (dat V c).after 0 t = blk V c 0 t := by dsimp only [dat]
theorem dat_after_A (c : Dev nD) (t : Fin cfg0.N) : (dat V c).after 1 t = blk V c 1 t := by dsimp only [dat]
theorem dat_after_B (c : Dev nD) (t : Fin cfg0.N) : (dat V c).after 2 t = blk V c 2 t := by dsimp only [dat]
theorem dat_after_out (c : Dev nD) (t : Fin cfg0.N) :
    (dat V c).after 3 t = stored (blk V c 0 t) (blk V c 1 t) (blk V c 2 t) := by dsimp only [dat]

/-- Each input's current staging buffer holds its block at every point. -/
theorem before_W (c : Dev nD) (t : Fin cfg0.N) (d) : (dat V c).before 0 t d = blk V c 0 t :=
  before_W_of V (dat V c) (dat_A V c 0) (dat_after_W V c) t d
theorem before_A (c : Dev nD) (t : Fin cfg0.N) (d) : (dat V c).before 1 t d = blk V c 1 t :=
  before_A_of V (dat V c) (dat_A V c 1) (dat_after_A V c) t d
theorem before_B (c : Dev nD) (t : Fin cfg0.N) (d) : (dat V c).before 2 t d = blk V c 2 t :=
  before_B_of V (dat V c) (dat_A V c 2) (dat_after_B V c) t d

/-! ## The body obligation, at a generic point -/

/-- What the body is called with at point t: the invariant, what the core owes, and the four windows' current
    staging buffers, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

/-- The body at any point: the inputs' staging buffers hold their blocks, so the body's triple applies; the
    invariant and what the core owes pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_W, before_A, before_B]
  rw [show (dat V c).Φ t.succ = (dat V c).Φ t.castSucc from rfl,
    show (dat V c).owesAt () t.succ = (dat V c).owesAt () t.castSucc from rfl,
    dat_after_W, dat_after_A, dat_after_B, dat_after_out]
  iintro ⟨HΦ, Ho, ⟨%d0, H0⟩, ⟨%d1, H1⟩, ⟨%d2, H2⟩, ⟨%d3, H3⟩⟩
  iapply (sound_kernel c Set.univ _ _ _ _ _ _ _ _ _ (blk V c 0 t) (blk V c 1 t) (blk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dat (F := F) V c) (defs₀ (F := F)) Variants.none () Set.univ := fun t => by
  rw [bigSep_W0, bigSep_W0]
  exact sound_body V c t

/-- The invariant, the debt and the shares of the proof data, as the run reads them. -/
theorem dat_Φ (c : Dev nD) (t : Fin (cfg0.N + 1)) : (dat V c).Φ t = Pipeline.ΦA spec0 c := rfl
theorem dat_owed (c : Dev nD) (t : Fin (cfg0.N + 1)) : (dat V c).owed t = 0 := rfl
theorem dat_q (c : Dev nD) (w : Fin cfg0.W) : (dat V c).q w = fullShare := rfl

end Cert.Kernel.Weff

end
-- ==== Proof.K.AccBase.lean ====
import proofs.«164843_j86371792322948_2_alg».proof.Proof.Gen.Kernel.Launch
import proofs.«164843_j86371792322948_2_alg».proof.Proof.Gen.Kernel.Skeleton
import proofs.«164843_j86371792322948_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
set_option maxRecDepth 16384
noncomputable section
namespace Cert.Kernel.Acc
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # The accumulating matmul region: what its three control cases share

The second kernel walks a 16 x 2 x 8 grid with the reduction axis innermost: position `n` has
`k = n % 8`. A scratch accumulator is zeroed where `k = 0`, receives `x · w` at every point, and where
`k = 7` the accumulator plus the bias row is stored into the output window; elsewhere the output window is
idle. Everything here is stated at a parameter `V`: the buffer contents when the region is entered. -/

/-! ## The windows' blocks -/

/-- Window `w`'s block at point `t`, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The activations' staging buffer holds the point's block whenever the body runs: the window is refetched at
    every point, and in any case a body that leaves the block in place finds it again. -/
theorem before_x_of {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- The same for the weights' window. -/
theorem before_w_of {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- The bias row's window is fetched only where `k = 0`; its block index does not move along the reduction
    axis, so at the other points the buffer still holds the block of the point. -/
theorem before_b_of {c : Dev nD} (dat : Dat τ (Elt F) Unit ℕ (UR sig nD τ) ℕ cfg1 c) (hA : dat.A 2 = V c (Pipeline.arrRef spec1 2))
    (hafter : ∀ t, dat.after 2 t = blk V c 2 t) (t : Fin cfg1.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-! ## The two conditions on the reduction coordinate -/

/-- `k = 0`: the accumulator is zeroed. -/
abbrev first (i : grid1.Coords) : Prop :=
  (Scalar.cmpi .ne (Scalar.extui (Scalar.cmpi .eq (BitVec.ofNat 32 (i 2).val) 0#32)) 0#32) = 1#1
/-- It holds exactly at the positions ≡ 0 (mod 8). -/
theorem first_iff : ∀ t : Fin cfg1.N, first (grid1.coords t) ↔ t.val % 8 = 0 :=
  (by decide +kernel : ∀ t : Fin grid1.N, first (grid1.coords t) ↔ t.val % 8 = 0)

/-- `k = 7`: the accumulator plus the bias is stored into the output window. -/
abbrev last (i : grid1.Coords) : Prop := k1_cond2 i = 1#1
/-- It holds exactly at the positions ≡ 7 (mod 8). -/
theorem last_iff : ∀ t : Fin cfg1.N, last (grid1.coords t) ↔ t.val % 8 = 7 :=
  (by decide +kernel : ∀ t : Fin grid1.N, last (grid1.coords t) ↔ t.val % 8 = 7)

/-! ## Where the windows are idle -/

theorem live_x : ∀ t : Fin cfg1.N, cfg1.idle 0 (grid1.coords t) = false := fun _ => rfl
theorem live_w : ∀ t : Fin cfg1.N, cfg1.idle 1 (grid1.coords t) = false := fun _ => rfl
theorem live_b : ∀ t : Fin cfg1.N, cfg1.idle 2 (grid1.coords t) = false := fun _ => rfl
/-- Where `k ≠ 7` nothing is stored into the output window: the configuration calls it idle there, -/
theorem idle_out : ∀ t : Fin cfg1.N, ¬last (grid1.coords t) → cfg1.idle 3 (grid1.coords t) = true := by decide +kernel
/-- and the pipeline does not write its block back there. -/
theorem noFlush_out (t : Fin cfg1.N) (h : ¬last (grid1.coords t)) : (cfg1.win 3).flush t = false :=
  Bool.eq_false_iff.mpr fun hf => h ((last_iff t).mpr ((flush1_3 t).mp hf))
/-- Where `k = 7` the output window is live. -/
theorem live_out : ∀ t : Fin cfg1.N, last (grid1.coords t) → cfg1.idle 3 (grid1.coords t) = false := by decide +kernel

/-! ## The memrefs the body is called with -/

/-- One staging buffer of the output window, through which its contents are stated (the choice does not matter). -/
abbrev VO : View sig .tc .vmem S1024x2048 .f32 := (Memref.whole cc1_stg3_0 : Memref sig .tc .vmem S1024x2048 .f32).view
/-- Each window's current staging memref at point `t`, and its wholeness. -/
abbrev ms0 (t : Fin cfg1.N) : Memref sig .tc .vmem S1024x512 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S512x2048 .bf16 := win1_1.stage (cfg1.slots t 1)
abbrev hs1 (t : Fin cfg1.N) : (ms1 t).IsWhole := hstage1_1 ((cfg1.slots t 1).cast nbuf1_1)
abbrev ms2 (t : Fin cfg1.N) : Memref sig .tc .vmem S1x2048 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S1024x2048 .f32 := win1_3.stage (cfg1.slots t 3)
abbrev hs3 (t : Fin cfg1.N) : (ms3 t).IsWhole := hstage1_3 ((cfg1.slots t 3).cast nbuf1_3)
/-- The accumulator: a whole scoped buffer of the kernel's own, passed beside the windows. -/
abbrev scM : Memref sig .tc .vmem S1024x2048 .f32 := Memref.whole cc1_scratch0
/-- The accumulator as a view: what it holds is stated through it. -/
abbrev VS : View sig .tc .vmem S1024x2048 .f32 := scM.view

/-! ## The region invariant, with the accumulator set apart -/

/-- The other kernel's staging buffers, each at some contents: this region never touches them. -/
def others (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f))

/-- The region's scoped rest is the other kernel's staging buffers and the accumulator at some contents; with the
    generator register, the invariant the launch hands over and takes back. -/
theorem PhiA_eq (c : Dev nD) :
    (Pipeline.ΦA spec1 c : sProp 𝕄)
      = iprop(others (F := F) c ∗ (∃ d, owns (c : Thread nD τ) scM fullShare d) ∗ (∃ r, prngReg c r)) := by
  unfold Pipeline.ΦA others; rw [scopedRest1_eq]; simp only [scM, owns_whole]
  refine BI.equiv_iff.mp ⟨?_, ?_⟩
  · show @Idealize.SL.BI.BIBase.Entails (sProp 𝕄) _ _ _
    iintro ⟨⟨A1, A2, A3, A4, A5, A6, A7, A8, HS⟩, Hg⟩
    isplitr [HS Hg]
    · isplitl [A1]; · iexact A1
      isplitl [A2]; · iexact A2
      isplitl [A3]; · iexact A3
      isplitl [A4]; · iexact A4
      isplitl [A5]; · iexact A5
      isplitl [A6]; · iexact A6
      isplitl [A7]; · iexact A7
      iexact A8
    isplitl [HS]; · iexact HS
    iexact Hg
  · show @Idealize.SL.BI.BIBase.Entails (sProp 𝕄) _ _ _
    iintro ⟨⟨A1, A2, A3, A4, A5, A6, A7, A8⟩, HS, Hg⟩
    isplitr [Hg]
    · isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      iexact HS
    iexact Hg

end Cert.Kernel.Acc

end
-- ==== Proof.K.AccFirst.lean ====
import proofs.«164843_j86371792322948_2_alg».proof.Proof.K.AccBase
set_option maxRecDepth 16384
noncomputable section
namespace Cert.Kernel.Acc
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]
local notation "𝕄" => MT nD τ sig Unit (Elt F) ℕ (UR sig nD τ) ℕ

/-! # The case `k = 0`: the accumulator is zeroed, then receives the product -/

set_option maxHeartbeats 1000000 in
/-- What the body's stores leave where `k = 0` (and `k ≠ 7`), as pieces, last first: none in the output window,
    which is handed back untouched at the contents `xi3` it was found at; in the accumulator — found at anything —
    the zero block and over it the sum with the product. With the proof that on whole memrefs, the inputs' at
    `x0`, `x1`, `x2`, the body runs to a continuation holding the inputs as they were and the accumulator with
    those pieces written: the pieces are the witness the symbolic run finds. -/
noncomputable def runFirst (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : first i) (hc1 : ¬last i)
    (x0 : Vec F S1024x512 .f32) (x1 : Vec F S512x2048 .bf16) (x2 : Vec F S1x2048 .f32) :
    Σ' (L3 : List (View.Piece (Elt F) S1024x2048 .f32)), { LS : List (View.Piece (Elt F) S1024x2048 .f32) //
      ∀ (xi3 : Vec F S1024x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc1__lora_matmul_kernel i arg3 harg3 arg4 harg4 arg5 harg5 arg6 harg6 arg7 harg7) K } := by
  refine ⟨[], ?_, fun xi3 E K => ?run⟩
  case run =>
    simp only [cc1__lora_matmul_kernel_eq_skeleton]; unfold cc1__lora_matmul_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.Kernel.Acc

end
-- ==== Proof.K.AccMid.lean ====
import proofs.«164843_j86371792322948_2_alg».proof.Proof.K.AccFirst
set_option maxRecDepth 16384
noncomputable section
namespace Cert.Kernel.Acc
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]
local notation "𝕄" => MT nD τ sig Unit (Elt F) ℕ (UR sig nD τ) ℕ

/-! # The case `0 < k < 7`: the accumulator receives the product -/

set_option maxHeartbeats 1000000 in
/-- What the body's stores leave where `k ≠ 0` and `k ≠ 7`, as pieces, last first: none in the output window,
    handed back untouched at the contents `xi3` it was found at; in the accumulator — found at `xs`, what the
    point before left — its sum with the product. With the proof that the body runs to a continuation holding the
    inputs as they were and the accumulator with that piece written. -/
noncomputable def runMid (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬first i) (hc1 : ¬last i)
    (x0 : Vec F S1024x512 .f32) (x1 : Vec F S512x2048 .bf16) (x2 : Vec F S1x2048 .f32) (xs : Vec F S1024x2048 .f32) :
    Σ' (L3 : List (View.Piece (Elt F) S1024x2048 .f32)), { LS : List (View.Piece (Elt F) S1024x2048 .f32) //
      ∀ (xi3 : Vec F S1024x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc1__lora_matmul_kernel i arg3 harg3 arg4 harg4 arg5 harg5 arg6 harg6 arg7 harg7) K } := by
  refine ⟨[], ?_, fun xi3 E K => ?run⟩
  case run =>
    simp only [cc1__lora_matmul_kernel_eq_skeleton]; unfold cc1__lora_matmul_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.Kernel.Acc

end
-- ==== Proof.K.AccLast.lean ====
import proofs.«164843_j86371792322948_2_alg».proof.Proof.K.AccMid
set_option maxRecDepth 16384
noncomputable section
namespace Cert.Kernel.Acc
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]
local notation "𝕄" => MT nD τ sig Unit (Elt F) ℕ (UR sig nD τ) ℕ

/-! # The case `k = 7`: the accumulator receives the last product and, with the bias, goes to the output window -/

set_option maxHeartbeats 1000000 in
/-- What the body's stores leave where `k = 7` (and `k ≠ 0`), as pieces, last first: in the accumulator — found at
    `xs`, what the point before left — its sum with the product; in the output window — found at anything — that sum
    plus the broadcast bias row. With the proof that the body runs to a continuation holding the inputs as they were
    and the two buffers with those pieces written. -/
noncomputable def runLast (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬first i) (hc1 : last i)
    (x0 : Vec F S1024x512 .f32) (x1 : Vec F S512x2048 .bf16) (x2 : Vec F S1x2048 .f32) (xs : Vec F S1024x2048 .f32) :
    Σ' (L3 : List (View.Piece (Elt F) S1024x2048 .f32)), { LS : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS)) -∗ K ⟨⟩))
          ⊢ wp frame (wpE (defs₀ (F := F)) Variants.none c none) E (cc1__lora_matmul_kernel i arg3 harg3 arg4 harg4 arg5 harg5 arg6 harg6 arg7 harg7) K } := by
  refine ⟨?_, ?_, fun E K => ?run⟩
  case run =>
    simp only [cc1__lora_matmul_kernel_eq_skeleton]; unfold cc1__lora_matmul_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

end Cert.Kernel.Acc

end
-- ==== Proof.K.Acc.lean ====
import proofs.«164843_j86371792322948_2_alg».proof.Proof.K.AccLast
set_option maxRecDepth 16384
noncomputable section
namespace Cert.Kernel.Acc
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # The accumulating matmul region: its proof data and body obligation

Per control case, what the found pieces leave in the output window's staging buffer and in the accumulator; the
two held point by point along the grid; the proof data over them; and the body obligation, case by case. -/

/-! ## Per case: what the pieces cover and leave -/

/-- The case stores nothing into the output window: no pieces; a placeholder nothing consults, the window being idle and not written back at these points. -/
def outFirst (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : first i) (hc1 : ¬last i)
    (x0 : Vec F S1024x512 .f32) (x1 : Vec F S512x2048 .bf16) (x2 : Vec F S1x2048 .f32) : Vec F S1024x2048 .f32 :=
  VO.read (Elt F) (VO.writes (Elt F) VO.junk (runFirst c i arg3 harg3 arg4 harg4 arg5 harg5 arg6 harg6 arg7 harg7 hc0 hc1 x0 x1 x2).1)

/-- Where `k = 0` the accumulator's two pieces — the zero block and the sum over it — cover it. -/
theorem scoverFirst (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : first i) (hc1 : ¬last i)
    (x0 : Vec F S1024x512 .f32) (x1 : Vec F S512x2048 .bf16) (x2 : Vec F S1x2048 .f32) (y : S1024x2048.Idx) :
    ∃ pc ∈ (runFirst c i arg3 harg3 arg4 harg4 arg5 harg5 arg6 harg6 arg7 harg7 hc0 hc1 x0 x1 x2).2.1, y ∈ pc.1.set :=
  View.cover_of_tiledL (runFirst c i arg3 harg3 arg4 harg4 arg5 harg5 arg6 harg6 arg7 harg7 hc0 hc1 x0 x1 x2).2.1 S1024x2048.size (by sl_kernel_rfl) y

/-- What the case leaves in the accumulator: its pieces read back. -/
def soutFirst (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : first i) (hc1 : ¬last i)
    (x0 : Vec F S1024x512 .f32) (x1 : Vec F S512x2048 .bf16) (x2 : Vec F S1x2048 .f32) : Vec F S1024x2048 .f32 :=
  VS.read (Elt F) (VS.writes (Elt F) VS.junk (runFirst c i arg3 harg3 arg4 harg4 arg5 harg5 arg6 harg6 arg7 harg7 hc0 hc1 x0 x1 x2).2.1)

/-- The case stores nothing into the output window: no pieces; a placeholder nothing consults, the window being idle and not written back at these points. -/
def outMid (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬first i) (hc1 : ¬last i)
    (x0 : Vec F S1024x512 .f32) (x1 : Vec F S512x2048 .bf16) (x2 : Vec F S1x2048 .f32) (xs : Vec F S1024x2048 .f32) : Vec F S1024x2048 .f32 :=
  VO.read (Elt F) (VO.writes (Elt F) VO.junk (runMid c i arg3 harg3 arg4 harg4 arg5 harg5 arg6 harg6 arg7 harg7 hc0 hc1 x0 x1 x2 xs).1)

/-- Where `0 < k < 7` the accumulator's one piece covers it. -/
theorem scoverMid (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬first i) (hc1 : ¬last i)
    (x0 : Vec F S1024x512 .f32) (x1 : Vec F S512x2048 .bf16) (x2 : Vec F S1x2048 .f32) (xs : Vec F S1024x2048 .f32) (y : S1024x2048.Idx) :
    ∃ pc ∈ (runMid c i arg3 harg3 arg4 harg4 arg5 harg5 arg6 harg6 arg7 harg7 hc0 hc1 x0 x1 x2 xs).2.1, y ∈ pc.1.set :=
  View.cover_of_tiledL (runMid c i arg3 harg3 arg4 harg4 arg5 harg5 arg6 harg6 arg7 harg7 hc0 hc1 x0 x1 x2 xs).2.1 S1024x2048.size (by sl_kernel_rfl) y

/-- What the case leaves in the accumulator: its pieces read back. -/
def soutMid (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬first i) (hc1 : ¬last i)
    (x0 : Vec F S1024x512 .f32) (x1 : Vec F S512x2048 .bf16) (x2 : Vec F S1x2048 .f32) (xs : Vec F S1024x2048 .f32) : Vec F S1024x2048 .f32 :=
  VS.read (Elt F) (VS.writes (Elt F) VS.junk (runMid c i arg3 harg3 arg4 harg4 arg5 harg5 arg6 harg6 arg7 harg7 hc0 hc1 x0 x1 x2 xs).2.1)

/-- Where `k = 7` the one store into the output window covers its block. -/
theorem coverLast (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬first i) (hc1 : last i)
    (x0 : Vec F S1024x512 .f32) (x1 : Vec F S512x2048 .bf16) (x2 : Vec F S1x2048 .f32) (xs : Vec F S1024x2048 .f32) (y : S1024x2048.Idx) :
    ∃ pc ∈ (runLast c i arg3 harg3 arg4 harg4 arg5 harg5 arg6 harg6 arg7 harg7 hc0 hc1 x0 x1 x2 xs).1, y ∈ pc.1.set :=
  View.cover_of_tiledL (runLast c i arg3 harg3 arg4 harg4 arg5 harg5 arg6 harg6 arg7 harg7 hc0 hc1 x0 x1 x2 xs).1 S1024x2048.size (by sl_kernel_rfl) y

/-- What the case leaves in the output window's staging buffer: its piece read back. -/
def outLast (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬first i) (hc1 : last i)
    (x0 : Vec F S1024x512 .f32) (x1 : Vec F S512x2048 .bf16) (x2 : Vec F S1x2048 .f32) (xs : Vec F S1024x2048 .f32) : Vec F S1024x2048 .f32 :=
  VO.read (Elt F) (VO.writes (Elt F) VO.junk (runLast c i arg3 harg3 arg4 harg4 arg5 harg5 arg6 harg6 arg7 harg7 hc0 hc1 x0 x1 x2 xs).1)

/-- Where `k = 7` the accumulator's one piece covers it. -/
theorem scoverLast (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬first i) (hc1 : last i)
    (x0 : Vec F S1024x512 .f32) (x1 : Vec F S512x2048 .bf16) (x2 : Vec F S1x2048 .f32) (xs : Vec F S1024x2048 .f32) (y : S1024x2048.Idx) :
    ∃ pc ∈ (runLast c i arg3 harg3 arg4 harg4 arg5 harg5 arg6 harg6 arg7 harg7 hc0 hc1 x0 x1 x2 xs).2.1, y ∈ pc.1.set :=
  View.cover_of_tiledL (runLast c i arg3 harg3 arg4 harg4 arg5 harg5 arg6 harg6 arg7 harg7 hc0 hc1 x0 x1 x2 xs).2.1 S1024x2048.size (by sl_kernel_rfl) y

/-- What the case leaves in the accumulator: its pieces read back. -/
def soutLast (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬first i) (hc1 : last i)
    (x0 : Vec F S1024x512 .f32) (x1 : Vec F S512x2048 .bf16) (x2 : Vec F S1x2048 .f32) (xs : Vec F S1024x2048 .f32) : Vec F S1024x2048 .f32 :=
  VS.read (Elt F) (VS.writes (Elt F) VS.junk (runLast c i arg3 harg3 arg4 harg4 arg5 harg5 arg6 harg6 arg7 harg7 hc0 hc1 x0 x1 x2 xs).2.1)

/-! ## What is held after each point -/

/-- THE ACCUMULATION. After the body at position `n`: (.1) what the output window's current staging buffer holds,
    (.2) what the accumulator holds — the case `n % 8` selects, run at the point's memrefs and input blocks; where
    `k ≠ 0` over what the accumulator held after position `n - 1`. No position has `k = 0` and `k = 7` at once. -/
def heldAt (c : Dev nD) : (n : ℕ) → n < cfg1.N → Vec F S1024x2048 .f32 × Vec F S1024x2048 .f32
  | 0, hn => (outFirst c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scM (Memref.isWhole_whole _) ((first_iff ⟨0, hn⟩).mpr (Nat.zero_mod _)) (fun h => (fun h => by (try dsimp only at h); omega) ((last_iff ⟨0, hn⟩).mp h)) (blk V c 0 ⟨0, hn⟩) (blk V c 1 ⟨0, hn⟩) (blk V c 2 ⟨0, hn⟩), soutFirst c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scM (Memref.isWhole_whole _) ((first_iff ⟨0, hn⟩).mpr (Nat.zero_mod _)) (fun h => (fun h => by (try dsimp only at h); omega) ((last_iff ⟨0, hn⟩).mp h)) (blk V c 0 ⟨0, hn⟩) (blk V c 1 ⟨0, hn⟩) (blk V c 2 ⟨0, hn⟩))
  | n + 1, hn =>
    if h0 : (n + 1) % 8 = 0 then
      if h1 : (n + 1) % 8 = 7 then
        False.elim (by omega)
      else
        (outFirst c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) ((first_iff ⟨n + 1, hn⟩).mpr h0) (fun h => h1 ((last_iff ⟨n + 1, hn⟩).mp h)) (blk V c 0 ⟨n + 1, hn⟩) (blk V c 1 ⟨n + 1, hn⟩) (blk V c 2 ⟨n + 1, hn⟩), soutFirst c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) ((first_iff ⟨n + 1, hn⟩).mpr h0) (fun h => h1 ((last_iff ⟨n + 1, hn⟩).mp h)) (blk V c 0 ⟨n + 1, hn⟩) (blk V c 1 ⟨n + 1, hn⟩) (blk V c 2 ⟨n + 1, hn⟩))
    else
      if h1 : (n + 1) % 8 = 7 then
        (outLast c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (fun h => h0 ((first_iff ⟨n + 1, hn⟩).mp h)) ((last_iff ⟨n + 1, hn⟩).mpr h1) (blk V c 0 ⟨n + 1, hn⟩) (blk V c 1 ⟨n + 1, hn⟩) (blk V c 2 ⟨n + 1, hn⟩) (heldAt c n (Nat.lt_of_succ_lt hn)).2, soutLast c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (fun h => h0 ((first_iff ⟨n + 1, hn⟩).mp h)) ((last_iff ⟨n + 1, hn⟩).mpr h1) (blk V c 0 ⟨n + 1, hn⟩) (blk V c 1 ⟨n + 1, hn⟩) (blk V c 2 ⟨n + 1, hn⟩) (heldAt c n (Nat.lt_of_succ_lt hn)).2)
      else
        (outMid c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (fun h => h0 ((first_iff ⟨n + 1, hn⟩).mp h)) (fun h => h1 ((last_iff ⟨n + 1, hn⟩).mp h)) (blk V c 0 ⟨n + 1, hn⟩) (blk V c 1 ⟨n + 1, hn⟩) (blk V c 2 ⟨n + 1, hn⟩) (heldAt c n (Nat.lt_of_succ_lt hn)).2, soutMid c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (fun h => h0 ((first_iff ⟨n + 1, hn⟩).mp h)) (fun h => h1 ((last_iff ⟨n + 1, hn⟩).mp h)) (blk V c 0 ⟨n + 1, hn⟩) (blk V c 1 ⟨n + 1, hn⟩) (blk V c 2 ⟨n + 1, hn⟩) (heldAt c n (Nat.lt_of_succ_lt hn)).2)

/-- `heldAt` where `k = 0`. -/
theorem heldAt_First (c : Dev nD) (t : Fin cfg1.N) (h0 : t.val % 8 = 0) (h1 : ¬t.val % 8 = 7) :
    heldAt V c t.val t.isLt = (outFirst c (grid1.coords t) (ms0 t) (hs0 t) (ms1 t) (hs1 t) (ms2 t) (hs2 t) (ms3 t) (hs3 t) scM (Memref.isWhole_whole _) ((first_iff t).mpr h0) (fun h => h1 ((last_iff t).mp h)) (blk V c 0 t) (blk V c 1 t) (blk V c 2 t), soutFirst c (grid1.coords t) (ms0 t) (hs0 t) (ms1 t) (hs1 t) (ms2 t) (hs2 t) (ms3 t) (hs3 t) scM (Memref.isWhole_whole _) ((first_iff t).mpr h0) (fun h => h1 ((last_iff t).mp h)) (blk V c 0 t) (blk V c 1 t) (blk V c 2 t)) := by
  obtain ⟨n, hn⟩ := t
  cases n with
  | zero => exact rfl
  | succ n => exact (dif_pos h0).trans ((dif_neg h1).trans rfl)

/-- `heldAt` where `0 < k < 7`: over what the point before left. -/
theorem heldAt_Mid (c : Dev nD) (t : Fin cfg1.N) (h0 : ¬t.val % 8 = 0) (h1 : ¬t.val % 8 = 7) :
    heldAt V c t.val t.isLt = (outMid c (grid1.coords t) (ms0 t) (hs0 t) (ms1 t) (hs1 t) (ms2 t) (hs2 t) (ms3 t) (hs3 t) scM (Memref.isWhole_whole _) (fun h => h0 ((first_iff t).mp h)) (fun h => h1 ((last_iff t).mp h)) (blk V c 0 t) (blk V c 1 t) (blk V c 2 t) (heldAt V c (t.val - 1) (Nat.lt_of_le_of_lt (Nat.sub_le _ _) t.isLt)).2, soutMid c (grid1.coords t) (ms0 t) (hs0 t) (ms1 t) (hs1 t) (ms2 t) (hs2 t) (ms3 t) (hs3 t) scM (Memref.isWhole_whole _) (fun h => h0 ((first_iff t).mp h)) (fun h => h1 ((last_iff t).mp h)) (blk V c 0 t) (blk V c 1 t) (blk V c 2 t) (heldAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `heldAt` where `k = 7`: over what the point before left. -/
theorem heldAt_Last (c : Dev nD) (t : Fin cfg1.N) (h0 : ¬t.val % 8 = 0) (h1 : t.val % 8 = 7) :
    heldAt V c t.val t.isLt = (outLast c (grid1.coords t) (ms0 t) (hs0 t) (ms1 t) (hs1 t) (ms2 t) (hs2 t) (ms3 t) (hs3 t) scM (Memref.isWhole_whole _) (fun h => h0 ((first_iff t).mp h)) ((last_iff t).mpr h1) (blk V c 0 t) (blk V c 1 t) (blk V c 2 t) (heldAt V c (t.val - 1) (Nat.lt_of_le_of_lt (Nat.sub_le _ _) t.isLt)).2, soutLast c (grid1.coords t) (ms0 t) (hs0 t) (ms1 t) (hs1 t) (ms2 t) (hs2 t) (ms3 t) (hs3 t) scM (Memref.isWhole_whole _) (fun h => h0 ((first_iff t).mp h)) ((last_iff t).mpr h1) (blk V c 0 t) (blk V c 1 t) (blk V c 2 t) (heldAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point what the launch hands over (the accumulator
    at anything); afterwards the other kernel's staging buffers, the accumulator owned at what the point before
    left in it, and the generator register at some state. -/
def PhiS (c : Dev nD) : (n : ℕ) → n ≤ cfg1.N → sProp 𝕄
  | 0, _ => Pipeline.ΦA spec1 c
  | n + 1, hn => iprop(others (F := F) c ∗ owns (c : Thread nD τ) scM fullShare ((heldAt V c n hn).2) ∗ (∃ r, prngReg c r))

theorem PhiS_zero (c : Dev nD) (n : ℕ) (h : n ≤ cfg1.N) (hz : n = 0) : PhiS V c n h = Pipeline.ΦA spec1 c := by
  subst hz; rfl

/-- After point `n`: the accumulator at that point's contents. -/
theorem PhiS_succ (c : Dev nD) (n : ℕ) (hn : n < cfg1.N) :
    PhiS V c (n + 1) hn = iprop(others (F := F) c ∗ owns (c : Thread nD τ) scM fullShare ((heldAt V c n hn).2) ∗ (∃ r, prngReg c r)) := rfl

/-- Before a point that is not the first: the accumulator at what the point before left. -/
theorem PhiS_pos (c : Dev nD) (n : ℕ) (h : n ≤ cfg1.N) (hz : n ≠ 0) :
    PhiS V c n h = iprop(others (F := F) c ∗ owns (c : Thread nD τ) scM fullShare ((heldAt V c (n - 1) (by omega)).2) ∗ (∃ r, prngReg c r)) := by
  cases n with
  | zero => exact absurd rfl hz
  | succ n => rfl

/-! ## The proof data -/

/-- The region's proof data on core `c`: the arrays as the region finds them; after the body each input's buffer
    still at its block, the output's at `heldAt`'s first component; the invariant `PhiS`; nothing owed; full shares. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => (heldAt V c t.val t.isLt).1
  Φ t := PhiS V c t.val (Nat.le_of_lt_succ t.isLt)
  q _ := fullShare
  owed _ := 0

theorem dat_A (c : Dev nD) (w : Fin cfg1.W) : (dat V c).A w = V c (Pipeline.arrRef spec1 w) := by
  dsimp only [dat]

/-- The invariant at a point's start, restated at `t.val`. -/
theorem PhiS_castSucc (c : Dev nD) (t : Fin cfg1.N) :
    (dat V c).Φ t.castSucc = PhiS V c t.val (Nat.le_of_lt t.isLt) := by
  dsimp only [dat]; simp only [Fin.coe_castSucc]

theorem after_x (c : Dev nD) (t : Fin cfg1.N) : (dat V c).after 0 t = blk V c 0 t := by dsimp only [dat]
theorem after_w (c : Dev nD) (t : Fin cfg1.N) : (dat V c).after 1 t = blk V c 1 t := by dsimp only [dat]
theorem after_b (c : Dev nD) (t : Fin cfg1.N) : (dat V c).after 2 t = blk V c 2 t := by dsimp only [dat]
theorem dat_after_out (c : Dev nD) (t : Fin cfg1.N) : (dat V c).after 3 t = (heldAt V c t.val t.isLt).1 := by dsimp only [dat]

/-- Each input's current staging buffer holds its block whenever the body runs. -/
theorem before_x (c : Dev nD) (t : Fin cfg1.N) (d) : (dat V c).before 0 t d = blk V c 0 t :=
  before_x_of V (dat V c) (dat_A V c 0) (after_x V c) t d
theorem before_w (c : Dev nD) (t : Fin cfg1.N) (d) : (dat V c).before 1 t d = blk V c 1 t :=
  before_w_of V (dat V c) (dat_A V c 1) (after_w V c) t d
theorem before_b (c : Dev nD) (t : Fin cfg1.N) (d) : (dat V c).before 2 t d = blk V c 2 t :=
  before_b_of V (dat V c) (dat_A V c 2) (after_b V c) t d

/-! ## The body obligation -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
/-- The body at any point. The inputs' memrefs hold their blocks; `t % 8` says which case the point is in. The
    invariant hands the body the accumulator — at anything at the very first point, else at what the point before
    left — and takes it back at this point's contents, the found pieces covering it. Where `k ≠ 7` the output
    window is idle and not written back: its buffer goes back as found. Where `k = 7` its one piece covers it. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_x, before_w, before_b]
  rw [show (dat V c).owesAt () t.succ = (dat V c).owesAt () t.castSucc from rfl]
  rw [show (dat V c).Φ t.succ = PhiS V c (t.val + 1) t.isLt from rfl, PhiS_succ]
  have hN : t.val < 256 := lt_of_lt_of_eq t.isLt (show cfg1.N = 256 from N_1)
  by_cases h0 : t.val % 8 = 0
  · by_cases h1 : t.val % 8 = 7
    · exfalso; omega
    · rw [show (dat V c).leavesExact 0 t = owns (c : Thread nD τ) (ms0 t) fullShare ((dat V c).after 0 t) from by
        unfold Dat.leavesExact; rw [live_x t], after_x]
      rw [show (dat V c).leavesExact 1 t = owns (c : Thread nD τ) (ms1 t) fullShare ((dat V c).after 1 t) from by
        unfold Dat.leavesExact; rw [live_w t], after_w]
      rw [show (dat V c).leavesExact 2 t = owns (c : Thread nD τ) (ms2 t) fullShare ((dat V c).after 2 t) from by
        unfold Dat.leavesExact; rw [live_b t], after_b]
      rw [Dat.leavesExact_idle (dat V c) 3 t (idle_out t (fun h => h1 ((last_iff t).mp h))) (noFlush_out t (fun h => h1 ((last_iff t).mp h)))]
      rw [heldAt_First V c t h0 h1]
      unfold soutFirst; (try dsimp only)
      by_cases hz : t.val = 0
      · rw [PhiS_castSucc V c t, PhiS_zero V c _ _ hz, PhiA_eq]
        iintro ⟨⟨Hoth, HS, Hg⟩, Ho, ⟨%d0, H0⟩, ⟨%d1, H1⟩, ⟨%d2, H2⟩, ⟨%d3, H3⟩⟩
        iapply ((runFirst c (grid1.coords t) _ _ _ _ _ _ _ _ _ _ ((first_iff t).mpr h0) (fun h => h1 ((last_iff t).mp h)) (blk V c 0 t) (blk V c 1 t) (blk V c 2 t)).2.2 _ Set.univ _)
        isplitl [H0]; · iexact H0
        isplitl [H1]; · iexact H1
        isplitl [H2]; · iexact H2
        isplitl [H3]; · iexact H3
        isplitl [HS]; · iexact HS
        iintro ⟨H0, H1, H2, H3, ⟨%es, HS⟩⟩
        isplitl [Hoth HS Hg]
        · isplitl [Hoth]; · iexact Hoth
          isplitl [HS]
          · unfold owns; iexists _; isplitr
            swap; · iexact HS
            ipureintro; exact View.read_writes_of_cover _ _ _ _ _ (scoverFirst c _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS_castSucc V c t, PhiS_pos V c _ _ hz]
        iintro ⟨⟨Hoth, HS, Hg⟩, Ho, ⟨%d0, H0⟩, ⟨%d1, H1⟩, ⟨%d2, H2⟩, ⟨%d3, H3⟩⟩
        iapply ((runFirst c (grid1.coords t) _ _ _ _ _ _ _ _ _ _ ((first_iff t).mpr h0) (fun h => h1 ((last_iff t).mp h)) (blk V c 0 t) (blk V c 1 t) (blk V c 2 t)).2.2 _ Set.univ _)
        isplitl [H0]; · iexact H0
        isplitl [H1]; · iexact H1
        isplitl [H2]; · iexact H2
        isplitl [H3]; · iexact H3
        isplitl [HS]; · iexists _; iexact HS
        iintro ⟨H0, H1, H2, H3, ⟨%es, HS⟩⟩
        isplitl [Hoth HS Hg]
        · isplitl [Hoth]; · iexact Hoth
          isplitl [HS]
          · unfold owns; iexists _; isplitr
            swap; · iexact HS
            ipureintro; exact View.read_writes_of_cover _ _ _ _ _ (scoverFirst c _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · by_cases h1 : t.val % 8 = 7
    · rw [show (dat V c).leavesExact 0 t = owns (c : Thread nD τ) (ms0 t) fullShare ((dat V c).after 0 t) from by
        unfold Dat.leavesExact; rw [live_x t], after_x]
      rw [show (dat V c).leavesExact 1 t = owns (c : Thread nD τ) (ms1 t) fullShare ((dat V c).after 1 t) from by
        unfold Dat.leavesExact; rw [live_w t], after_w]
      rw [show (dat V c).leavesExact 2 t = owns (c : Thread nD τ) (ms2 t) fullShare ((dat V c).after 2 t) from by
        unfold Dat.leavesExact; rw [live_b t], after_b]
      rw [show (dat V c).leavesExact 3 t = owns (c : Thread nD τ) (ms3 t) fullShare ((dat V c).after 3 t) from by
        unfold Dat.leavesExact; rw [live_out t ((last_iff t).mpr h1)], dat_after_out]
      rw [heldAt_Last V c t h0 h1]
      unfold outLast soutLast; (try dsimp only)
      have hz : t.val ≠ 0 := fun e => h0 (by rw [e])
      rw [PhiS_castSucc V c t, PhiS_pos V c _ _ hz]
      iintro ⟨⟨Hoth, HS, Hg⟩, Ho, ⟨%d0, H0⟩, ⟨%d1, H1⟩, ⟨%d2, H2⟩, ⟨%d3, H3⟩⟩
      iapply ((runLast c (grid1.coords t) _ _ _ _ _ _ _ _ _ _ (fun h => h0 ((first_iff t).mp h)) ((last_iff t).mpr h1) (blk V c 0 t) (blk V c 1 t) (blk V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [Hoth HS Hg]
      · isplitl [Hoth]; · iexact Hoth
        isplitl [HS]
        · unfold owns; iexists _; isplitr
          swap; · iexact HS
          ipureintro; exact View.read_writes_of_cover _ _ _ _ _ (scoverLast c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverLast c _ _ _ _ _ _ _ _ _ _ _ _ _ _ _ _ _)
    · rw [show (dat V c).leavesExact 0 t = owns (c : Thread nD τ) (ms0 t) fullShare ((dat V c).after 0 t) from by
        unfold Dat.leavesExact; rw [live_x t], after_x]
      rw [show (dat V c).leavesExact 1 t = owns (c : Thread nD τ) (ms1 t) fullShare ((dat V c).after 1 t) from by
        unfold Dat.leavesExact; rw [live_w t], after_w]
      rw [show (dat V c).leavesExact 2 t = owns (c : Thread nD τ) (ms2 t) fullShare ((dat V c).after 2 t) from by
        unfold Dat.leavesExact; rw [live_b t], after_b]
      rw [Dat.leavesExact_idle (dat V c) 3 t (idle_out t (fun h => h1 ((last_iff t).mp h))) (noFlush_out t (fun h => h1 ((last_iff t).mp h)))]
      rw [heldAt_Mid V c t h0 h1]
      unfold soutMid; (try dsimp only)
      have hz : t.val ≠ 0 := fun e => h0 (by rw [e])
      rw [PhiS_castSucc V c t, PhiS_pos V c _ _ hz]
      iintro ⟨⟨Hoth, HS, Hg⟩, Ho, ⟨%d0, H0⟩, ⟨%d1, H1⟩, ⟨%d2, H2⟩, ⟨%d3, H3⟩⟩
      iapply ((runMid c (grid1.coords t) _ _ _ _ _ _ _ _ _ _ (fun h => h0 ((first_iff t).mp h)) (fun h => h1 ((last_iff t).mp h)) (blk V c 0 t) (blk V c 1 t) (blk V c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [Hoth HS Hg]
      · isplitl [Hoth]; · iexact Hoth
        isplitl [HS]
        · unfold owns; iexists _; isplitr
          swap; · iexact HS
          ipureintro; exact View.read_writes_of_cover _ _ _ _ _ (scoverMid c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem inv_in (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After any point the invariant gives back what the launch handed over: the accumulator's named contents are forgotten. -/
theorem inv_back (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA_eq]
  iintro ⟨Hoth, HS, Hg⟩
  isplitl [Hoth]; · iexact Hoth
  isplitl [HS]; · iexists _; iexact HS
  iexact Hg

/-- The same after the last point. -/
theorem inv_out (c : Dev nD) : (dat V c).Φ (Fin.last cfg1.N) ⊢ Pipeline.ΦA spec1 c :=
  inv_back V c _ (by rw [Fin.val_last]; have : cfg1.N = 256 := N_1; omega)

end Cert.Kernel.Acc

end
-- ==== Proof.K.Run.lean ====
/-
  The whole run of the program, at any float instance: @main is four segments in order — the region that forms the
  effective weight, two host reshapes, the region that multiplies and accumulates, one host reshape — and between two
  segments the core holds every unscoped buffer at contents that are named here by a fold from the launch memory:
  a host stretch leaves what its operations compute, a region leaves its arrays at what its write-backs leave and
  every other buffer as it found it.  Every weakly fair execution terminates without a fault, and the final memory
  holds, at every unscoped buffer, the last contents of that fold.  Reading the fold back at an argument array walks
  to the launch memory: no host operation writes an argument, and a region only reads it.
-/
import proofs.«164843_j86371792322948_2_alg».proof.Proof.Gen.Kernel.Launch
import proofs.«164843_j86371792322948_2_alg».proof.Proof.Gen.Kernel.Skeleton
import proofs.«164843_j86371792322948_2_alg».proof.Proof.Gen.Kernel.Points
import proofs.«164843_j86371792322948_2_alg».proof.Proof.Gen.Kernel.Regions
import proofs.«164843_j86371792322948_2_alg».proof.Proof.K.Weff
import proofs.«164843_j86371792322948_2_alg».proof.Proof.K.Acc
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between segments -/

/-- At launch. -/
abbrev W0 : Dev nD → Valuation τ sig (Elt F) := fun c b => m (c, b)
/-- The same at the core's own references: what the first region is entered from. -/
abbrev V0 : (c : Dev nD) → (b : Ref sig .tc) → Buf (Elt F) ((c : Thread nD τ).loc b) := fun c b => W0 m c b

/-- After the first region: its arrays at what its write-backs leave, every other buffer as entered. -/
def W1 (c : Dev nD) : Valuation τ sig (Elt F) :=
  Pipeline.withArrays spec0 c (W0 m c) fun w => (Weff.dat (V0 m) c).arrAt w cfg0.N
theorem W1_arr (c : Dev nD) (w : Fin cfg0.W) :
    W1 m c (Proc.devRef .tc (Pipeline.arrRef spec0 w)) = (Weff.dat (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem left0 (c : Dev nD) (w : Fin cfg0.W) : (Weff.dat (V0 m) c).arrAt w cfg0.N = V1 m c (Pipeline.arrRef spec0 w) :=
  (W1_arr m c w).symm
theorem kept0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the two reshapes: what the second region is entered from. -/
abbrev W2 : Dev nD → Valuation τ sig (Elt F) := fun c => StableHlo.after hostOps1 (W1 m c)
abbrev V2 : (c : Dev nD) → (b : Ref sig .tc) → Buf (Elt F) ((c : Thread nD τ).loc b) := fun c b => W2 m c b

/-- After the second region. -/
def W3 (c : Dev nD) : Valuation τ sig (Elt F) :=
  Pipeline.withArrays spec1 c (W2 m c) fun w => (Acc.dat (V2 m) c).arrAt w cfg1.N
theorem W3_arr (c : Dev nD) (w : Fin cfg1.W) :
    W3 m c (Proc.devRef .tc (Pipeline.arrRef spec1 w)) = (Acc.dat (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem left1 (c : Dev nD) (w : Fin cfg1.W) : (Acc.dat (V2 m) c).arrAt w cfg1.N = V3 m c (Pipeline.arrRef spec1 w) :=
  (W3_arr m c w).symm
theorem kept1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- After the last reshape: the end. -/
abbrev W4 : Dev nD → Valuation τ sig (Elt F) := fun c => StableHlo.after hostOps2 (W3 m c)

/-! ## An argument array ends as launched -/

/-- A buffer no region stages as an output and no host operation writes holds its launch contents at the end. -/
theorem W4_untouched (c : Dev nD) (b : Ref sig .tc) (h2 : b ∉ hostOps2_W) (h3 : ∀ w, Pipeline.arrRef spec1 w ≠ b)
    (h1 : b ∉ hostOps1_W) (h0 : W1 m c (Proc.devRef .tc b) = W0 m c (Proc.devRef .tc b)) :
    W4 m c (Proc.devRef .tc b) = m ((c : Thread nD τ).loc b) :=
  calc W4 m c (Proc.devRef .tc b)
    _ = W3 m c (Proc.devRef .tc b) := StableHlo.after_of_writes_sub hostOps2 _ hostOps2_writes h2
    _ = W2 m c (Proc.devRef .tc b) := W3_of_ne m c b h3
    _ = W1 m c (Proc.devRef .tc b) := StableHlo.after_of_writes_sub hostOps1 _ hostOps1_writes h1
    _ = W0 m c (Proc.devRef .tc b) := h0
    _ = m ((c : Thread nD τ).loc b) := rfl

/-- An input window's array is unchanged by its region. -/
theorem W1_input (c : Dev nD) (w : Fin cfg0.W) (hw : (cfg0.win w).isOut = false) :
    W1 m c (Proc.devRef .tc (Pipeline.arrRef spec0 w)) = W0 m c (Proc.devRef .tc (Pipeline.arrRef spec0 w)) :=
  (W1_arr m c w).trans (((Weff.dat (V0 m) c).arrAt_in w hw _).trans (Weff.dat_A (V0 m) c w))

theorem W4_main_arg0 (c : Dev nD) : W4 m c (Proc.devRef .tc main_arg0) = m ((c : Thread nD τ).loc main_arg0) :=
  W4_untouched m c main_arg0 (by decide) (by decide) (by decide) (W1_of_ne m c main_arg0 (by decide))
theorem W4_main_arg1 (c : Dev nD) : W4 m c (Proc.devRef .tc main_arg1) = m ((c : Thread nD τ).loc main_arg1) :=
  W4_untouched m c main_arg1 (by decide) (by decide) (by decide) (W1_input m c 0 rfl)
theorem W4_main_arg2 (c : Dev nD) : W4 m c (Proc.devRef .tc main_arg2) = m ((c : Thread nD τ).loc main_arg2) :=
  W4_untouched m c main_arg2 (by decide) (by decide) (by decide) (W1_of_ne m c main_arg2 (by decide))
theorem W4_main_arg3 (c : Dev nD) : W4 m c (Proc.devRef .tc main_arg3) = m ((c : Thread nD τ).loc main_arg3) :=
  W4_untouched m c main_arg3 (by decide) (by decide) (by decide) (W1_input m c 1 rfl)
theorem W4_main_arg4 (c : Dev nD) : W4 m c (Proc.devRef .tc main_arg4) = m ((c : Thread nD τ).loc main_arg4) :=
  W4_untouched m c main_arg4 (by decide) (by decide) (by decide) (W1_input m c 2 rfl)

/-! ## The proof data of both pipelines and what rides beside the buffers -/

/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => Weff.dat (V0 m) c
  | ⟨1, _⟩ => fun c => Acc.dat (V2 m) c
abbrev 𝒱₀ : Variants := Variants.none
/-- No core owes another anything. -/
abbrev L : GSem nD τ sig → Finset Unit := fun _ => ∅
abbrev lv : GSem nD τ sig → Unit → ℕ := fun _ _ => 0
/-- Beside the buffers a core carries its generator register at some state, and owes nothing. -/
abbrev R (c : Dev nD) : sProp 𝕄 := iprop((∃ r, prngReg c r) ∗ ∃ W, owes (c : Thread nD τ) (0 : CellTallies nD τ sig Unit) W)
/-- A host stretch from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state without the `owes`. -/
abbrev Tₙ (c : Dev nD) : sProp 𝕄 := iprop(StableHlo.held (c : Thread nD τ) (Pipeline.ucRefs τ sig) (W4 m c) ∗ ∃ r, prngReg c r)

/-! ## The two regions as segments -/

set_option backward.isDefEq.respectTransparency.types false in
/-- The first region: entered with every unscoped buffer at the launch contents, left with them at `W1`.  Its arrays
    are split out of the unscoped buffers and put back at what the write-backs leave; the generator register goes into
    the region's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Weff.body_obligation (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun w => Weff.dat_A (V0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (left0 m c) (kept0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered with every unscoped buffer at `W2`, left with them at `W3`.  Its invariant is entered
    from the scoped rest and the generator register (the accumulator at anything) and gives them back after the last
    point, the accumulator's contents forgotten. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Acc.body_obligation (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun w => Acc.dat_A (V2 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec1 c from ?_).trans (show Pipeline.ΦA spec1 c ⊢ (pdats m 1 c).Φ 0 from Acc.inv_in (V2 m) c)
    unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from Acc.inv_out (V2 m) c).trans (show Pipeline.ΦA spec1 c ⊢ _ from ?_)
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (left1 m c) (kept1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as its segments, and the launch -/

abbrev segs : List (Pipeline.Seg (pcfgs (F := F)) adm (pdats m) () defs₀ 𝒱₀ L lv) :=
  [ .region (reg0 m),
    .host (hseg hostOps1 hostOps1_sub hostOps1_fresh (W1 m)),
    .region (reg1 m),
    .host (hseg hostOps2 hostOps2_sub hostOps2_fresh (W3 m)) ]

/-- @main is the run of these segments. -/
theorem main_run (c : Dev nD) : main (F := F) c = Pipeline.Seg.run (segs m) := (main_chain c).trans (by chain_rfl)

set_option backward.isDefEq.respectTransparency.types false in
/-- THE RUN.  From any memory with zero counters every weakly fair execution of @main terminates, nothing faulting,
    and the final memory holds every unscoped buffer at the fold's last contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (W4 m c) ∗ R c)
        ⊢ iprop(Tₙ m c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- THE FRAME, and the result buffer named: every argument array ends as launched, and the result array ends at the
    fold's last contents. -/
theorem run_named : θ_run defs (onTc (τ := τ) (main (F := F))) ⟨m, fun _ => 0, ρ⟩ (fun r => ∀ c : Dev nD,
      r.2.mem ((c.tc : Thread nD τ).loc main_v4) = W4 m c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨h c _ (mem_uc main_v4 (by decide)),
      (h c _ (mem_uc main_arg0 (by decide))).trans (W4_main_arg0 m c),
      (h c _ (mem_uc main_arg1 (by decide))).trans (W4_main_arg1 m c),
      (h c _ (mem_uc main_arg2 (by decide))).trans (W4_main_arg2 m c),
      (h c _ (mem_uc main_arg3 (by decide))).trans (W4_main_arg3 m c),
      (h c _ (mem_uc main_arg4 (by decide))).trans (W4_main_arg4 m c)⟩) (run_all m ρ)

end Cert.Kernel.Run

end
-- ==== Proof.KI.Weff.lean ====
import proofs.«164843_j86371792322948_2_alg».proof.Proof.Gen.KernelIdeal.Launch
import proofs.«164843_j86371792322948_2_alg».proof.Proof.Gen.KernelIdeal.Skeleton
import proofs.«164843_j86371792322948_2_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

/-!
# The first pallas_call: the effective weight W + 2·(A·B), rounded to bf16

Region 0 of the program runs the kernel that, at each of the 4×4 grid points, reads a 1024×1024
block of W, the matching 1024×16 row block of A and 16×1024 column block of B, and writes the
bf16 rounding of W + 2·(bf16 A · bf16 B) over the whole output block. This file gives the
pipeline's proof data for that region at an arbitrary entry memory V, and discharges the body
obligation: at every grid point the three input staging buffers hold their blocks of V (whether
the pipeline fetched them at that point or kept them from the point before), the body leaves them
as they were, and it leaves the output staging buffer at the one store's payload over those blocks.
-/

set_option maxRecDepth 16384

noncomputable section

namespace Cert.KernelIdeal.Weff

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows show the body -/

/-- Window w's block at grid point t, read off the window's array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The W window's staging buffer holds its block at every point: it is an input the body only reads,
    so a point at which it was not fetched has the block index of the point before, whose block it still holds. -/
theorem before_W_of {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- The A window's block index moves only with the first grid coordinate, so three points in four keep the
    buffer of the point before; the same argument covers them. -/
theorem before_A_of {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- The B window likewise. -/
theorem before_B_of {c : Dev nD} (dat : Dat τ (Elt F) Unit ℕ (UR sig nD τ) ℕ cfg0 c) (hA : dat.A 2 = V c (Pipeline.arrRef spec0 2))
    (hafter : ∀ t, dat.after 2 t = blk V c 2 t) (t : Fin cfg0.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-! ## What the body reads and writes -/

/-- The whole 1024×1024 buffer, as the rectangle the body's accesses name (zero offsets, the buffer's own sizes). -/
abbrev rW : Rect S1024x1024 := Rect.unit (s := S1024x1024) ![0, 0] S1024x1024.size inb_S1024x1024_S1024x1024_0_0
/-- The whole 1024×16 buffer. -/
abbrev rA : Rect S1024x16 := Rect.unit (s := S1024x16) ![0, 0] S1024x16.size inb_S1024x16_S1024x16_0_0
/-- The whole 16×1024 buffer. -/
abbrev rB : Rect S16x1024 := Rect.unit (s := S16x1024) ![0, 0] S16x1024.size inb_S16x1024_S16x1024_0_0

/-- The output staging buffer after the body, from the three input blocks: its single store, whose payload
    is computed from the three loads. -/
def stored (x0 : Vec F S1024x1024 .f32) (x1 : Vec F S1024x16 .f32) (x2 : Vec F S16x1024 .f32) : Vec F S1024x1024 .bf16 :=
  View.canon [⟨rW, k0_pay1 (View.ld x0 rW) (View.ld x1 rA) (View.ld x2 rB)⟩]

/-- The store is through the whole-buffer rectangle and the loads read whole buffers: what is left is the
    payload of the blocks themselves. -/
theorem stored_eq (x0 : Vec F S1024x1024 .f32) (x1 : Vec F S1024x16 .f32) (x2 : Vec F S16x1024 .f32) :
    stored x0 x1 x2 = k0_pay1 x0 x1 x2 := by
  unfold stored
  rw [View.canon_unit_zero (by funext a; fin_cases a <;> rfl), View.ld_unit_zero (by funext a; fin_cases a <;> rfl),
    View.ld_unit_zero (by funext a; fin_cases a <;> rfl), View.ld_unit_zero (by funext a; fin_cases a <;> rfl)]

/-- The single store covers the output buffer. -/
theorem stored_cover (p : Vec F S1024x1024 .bf16) (y : S1024x1024.Idx) :
    ∃ pc ∈ ([⟨rW, p⟩] : List (View.Piece (Elt F) S1024x1024 .bf16)), y ∈ pc.1.set :=
  ⟨⟨rW, p⟩, List.mem_singleton_self _, View.mem_set_unit_zero (by funext a; fin_cases a <;> rfl) inb_S1024x1024_S1024x1024_0_0 y⟩

/-! ## The body's triple -/

set_option maxHeartbeats 1000000 in
/-- The kernel body on whole staging memrefs, the three inputs' at read contents x0, x1, x2 and the output's at
    anything, runs to the continuation holding the inputs' as they were and the output's at stored x0 x1 x2:
    three loads, a load of the output buffer whose value nothing reads, and the one store. -/
theorem sound_kernel (c : Dev nD) (E : Set ℕ) (i : grid0.Coords)
    (arg2 : Memref sig .tc .vmem S1024x1024 .f32) (harg2 : arg2.IsWhole) (arg3 : Memref sig .tc .vmem S1024x16 .f32) (harg3 : arg3.IsWhole)
    (arg4 : Memref sig .tc .vmem S16x1024 .f32) (harg4 : arg4.IsWhole) (arg5 : Memref sig .tc .vmem S1024x1024 .bf16) (harg5 : arg5.IsWhole)
    (x0 : Vec F S1024x1024 .f32) (x1 : Vec F S1024x16 .f32) (x2 : Vec F S16x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (stored x0 x1 x2)) -∗ K ⟨⟩))
      ⊢ wp frame (wpE (defs₀ (F := F)) Variants.none c none) E (cc0__weff_kernel i arg2 harg2 arg3 harg3 arg4 harg4 arg5 harg5) K := by
  simp only [cc0__weff_kernel_eq_skeleton]; unfold cc0__weff_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (stored_cover _)

/-! ## The pipeline's proof data -/

/-- The proof data of the region's pipeline on core c: the windows' arrays as the region finds them; after the
    body at point t each input's buffer still at its block and the output's at stored of the three blocks; the
    invariant that of a body that touches nothing but its staging buffers; nothing owed; full shares. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => stored (blk V c 0 t) (blk V c 1 t) (blk V c 2 t)
  Φ _ := Pipeline.ΦA spec0 c
  q _ := fullShare
  owed _ := 0

/-- The proof data's arrays are the entry contents. -/
theorem dat_A (c : Dev nD) (w : Fin cfg0.W) : (dat V c).A w = V c (Pipeline.arrRef spec0 w) := by
  dsimp only [dat]

/-- What the body leaves, window by window. -/
theorem dat_after_W (c : Dev nD) (t : Fin cfg0.N) : (dat V c).after 0 t = blk V c 0 t := by dsimp only [dat]
theorem dat_after_A (c : Dev nD) (t : Fin cfg0.N) : (dat V c).after 1 t = blk V c 1 t := by dsimp only [dat]
theorem dat_after_B (c : Dev nD) (t : Fin cfg0.N) : (dat V c).after 2 t = blk V c 2 t := by dsimp only [dat]
theorem dat_after_out (c : Dev nD) (t : Fin cfg0.N) :
    (dat V c).after 3 t = stored (blk V c 0 t) (blk V c 1 t) (blk V c 2 t) := by dsimp only [dat]

/-- Each input's current staging buffer holds its block at every point. -/
theorem before_W (c : Dev nD) (t : Fin cfg0.N) (d) : (dat V c).before 0 t d = blk V c 0 t :=
  before_W_of V (dat V c) (dat_A V c 0) (dat_after_W V c) t d
theorem before_A (c : Dev nD) (t : Fin cfg0.N) (d) : (dat V c).before 1 t d = blk V c 1 t :=
  before_A_of V (dat V c) (dat_A V c 1) (dat_after_A V c) t d
theorem before_B (c : Dev nD) (t : Fin cfg0.N) (d) : (dat V c).before 2 t d = blk V c 2 t :=
  before_B_of V (dat V c) (dat_A V c 2) (dat_after_B V c) t d

/-! ## The body obligation, at a generic point -/

/-- What the body is called with at point t: the invariant, what the core owes, and the four windows' current
    staging buffers, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

/-- The body at any point: the inputs' staging buffers hold their blocks, so the body's triple applies; the
    invariant and what the core owes pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_W, before_A, before_B]
  rw [show (dat V c).Φ t.succ = (dat V c).Φ t.castSucc from rfl,
    show (dat V c).owesAt () t.succ = (dat V c).owesAt () t.castSucc from rfl,
    dat_after_W, dat_after_A, dat_after_B, dat_after_out]
  iintro ⟨HΦ, Ho, ⟨%d0, H0⟩, ⟨%d1, H1⟩, ⟨%d2, H2⟩, ⟨%d3, H3⟩⟩
  iapply (sound_kernel c Set.univ _ _ _ _ _ _ _ _ _ (blk V c 0 t) (blk V c 1 t) (blk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dat (F := F) V c) (defs₀ (F := F)) Variants.none () Set.univ := fun t => by
  rw [bigSep_W0, bigSep_W0]
  exact sound_body V c t

/-- The invariant, the debt and the shares of the proof data, as the run reads them. -/
theorem dat_Φ (c : Dev nD) (t : Fin (cfg0.N + 1)) : (dat V c).Φ t = Pipeline.ΦA spec0 c := rfl
theorem dat_owed (c : Dev nD) (t : Fin (cfg0.N + 1)) : (dat V c).owed t = 0 := rfl
theorem dat_q (c : Dev nD) (w : Fin cfg0.W) : (dat V c).q w = fullShare := rfl

end Cert.KernelIdeal.Weff

end
-- ==== Proof.KI.AccBase.lean ====
import proofs.«164843_j86371792322948_2_alg».proof.Proof.Gen.KernelIdeal.Launch
import proofs.«164843_j86371792322948_2_alg».proof.Proof.Gen.KernelIdeal.Skeleton
import proofs.«164843_j86371792322948_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
set_option maxRecDepth 16384
noncomputable section
namespace Cert.KernelIdeal.Acc
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # The accumulating matmul region: what its three control cases share

The second kernel walks a 16 x 2 x 8 grid with the reduction axis innermost: position `n` has
`k = n % 8`. A scratch accumulator is zeroed where `k = 0`, receives `x · w` at every point, and where
`k = 7` the accumulator plus the bias row is stored into the output window; elsewhere the output window is
idle. Everything here is stated at a parameter `V`: the buffer contents when the region is entered. -/

/-! ## The windows' blocks -/

/-- Window `w`'s block at point `t`, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The activations' staging buffer holds the point's block whenever the body runs: the window is refetched at
    every point, and in any case a body that leaves the block in place finds it again. -/
theorem before_x_of {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- The same for the weights' window. -/
theorem before_w_of {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- The bias row's window is fetched only where `k = 0`; its block index does not move along the reduction
    axis, so at the other points the buffer still holds the block of the point. -/
theorem before_b_of {c : Dev nD} (dat : Dat τ (Elt F) Unit ℕ (UR sig nD τ) ℕ cfg1 c) (hA : dat.A 2 = V c (Pipeline.arrRef spec1 2))
    (hafter : ∀ t, dat.after 2 t = blk V c 2 t) (t : Fin cfg1.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-! ## The two conditions on the reduction coordinate -/

/-- `k = 0`: the accumulator is zeroed. -/
abbrev first (i : grid1.Coords) : Prop :=
  (Scalar.cmpi .ne (Scalar.extui (Scalar.cmpi .eq (BitVec.ofNat 32 (i 2).val) 0#32)) 0#32) = 1#1
/-- It holds exactly at the positions ≡ 0 (mod 8). -/
theorem first_iff : ∀ t : Fin cfg1.N, first (grid1.coords t) ↔ t.val % 8 = 0 :=
  (by decide +kernel : ∀ t : Fin grid1.N, first (grid1.coords t) ↔ t.val % 8 = 0)

/-- `k = 7`: the accumulator plus the bias is stored into the output window. -/
abbrev last (i : grid1.Coords) : Prop := k1_cond2 i = 1#1
/-- It holds exactly at the positions ≡ 7 (mod 8). -/
theorem last_iff : ∀ t : Fin cfg1.N, last (grid1.coords t) ↔ t.val % 8 = 7 :=
  (by decide +kernel : ∀ t : Fin grid1.N, last (grid1.coords t) ↔ t.val % 8 = 7)

/-! ## Where the windows are idle -/

theorem live_x : ∀ t : Fin cfg1.N, cfg1.idle 0 (grid1.coords t) = false := fun _ => rfl
theorem live_w : ∀ t : Fin cfg1.N, cfg1.idle 1 (grid1.coords t) = false := fun _ => rfl
theorem live_b : ∀ t : Fin cfg1.N, cfg1.idle 2 (grid1.coords t) = false := fun _ => rfl
/-- Where `k ≠ 7` nothing is stored into the output window: the configuration calls it idle there, -/
theorem idle_out : ∀ t : Fin cfg1.N, ¬last (grid1.coords t) → cfg1.idle 3 (grid1.coords t) = true := by decide +kernel
/-- and the pipeline does not write its block back there. -/
theorem noFlush_out (t : Fin cfg1.N) (h : ¬last (grid1.coords t)) : (cfg1.win 3).flush t = false :=
  Bool.eq_false_iff.mpr fun hf => h ((last_iff t).mpr ((flush1_3 t).mp hf))
/-- Where `k = 7` the output window is live. -/
theorem live_out : ∀ t : Fin cfg1.N, last (grid1.coords t) → cfg1.idle 3 (grid1.coords t) = false := by decide +kernel

/-! ## The memrefs the body is called with -/

/-- One staging buffer of the output window, through which its contents are stated (the choice does not matter). -/
abbrev VO : View sig .tc .vmem S1024x2048 .f32 := (Memref.whole cc1_stg3_0 : Memref sig .tc .vmem S1024x2048 .f32).view
/-- Each window's current staging memref at point `t`, and its wholeness. -/
abbrev ms0 (t : Fin cfg1.N) : Memref sig .tc .vmem S1024x512 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S512x2048 .bf16 := win1_1.stage (cfg1.slots t 1)
abbrev hs1 (t : Fin cfg1.N) : (ms1 t).IsWhole := hstage1_1 ((cfg1.slots t 1).cast nbuf1_1)
abbrev ms2 (t : Fin cfg1.N) : Memref sig .tc .vmem S1x2048 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S1024x2048 .f32 := win1_3.stage (cfg1.slots t 3)
abbrev hs3 (t : Fin cfg1.N) : (ms3 t).IsWhole := hstage1_3 ((cfg1.slots t 3).cast nbuf1_3)
/-- The accumulator: a whole scoped buffer of the kernel's own, passed beside the windows. -/
abbrev scM : Memref sig .tc .vmem S1024x2048 .f32 := Memref.whole cc1_scratch0
/-- The accumulator as a view: what it holds is stated through it. -/
abbrev VS : View sig .tc .vmem S1024x2048 .f32 := scM.view

/-! ## The region invariant, with the accumulator set apart -/

/-- The other kernel's staging buffers, each at some contents: this region never touches them. -/
def others (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f))

/-- The region's scoped rest is the other kernel's staging buffers and the accumulator at some contents; with the
    generator register, the invariant the launch hands over and takes back. -/
theorem PhiA_eq (c : Dev nD) :
    (Pipeline.ΦA spec1 c : sProp 𝕄)
      = iprop(others (F := F) c ∗ (∃ d, owns (c : Thread nD τ) scM fullShare d) ∗ (∃ r, prngReg c r)) := by
  unfold Pipeline.ΦA others; rw [scopedRest1_eq]; simp only [scM, owns_whole]
  refine BI.equiv_iff.mp ⟨?_, ?_⟩
  · show @Idealize.SL.BI.BIBase.Entails (sProp 𝕄) _ _ _
    iintro ⟨⟨A1, A2, A3, A4, A5, A6, A7, A8, HS⟩, Hg⟩
    isplitr [HS Hg]
    · isplitl [A1]; · iexact A1
      isplitl [A2]; · iexact A2
      isplitl [A3]; · iexact A3
      isplitl [A4]; · iexact A4
      isplitl [A5]; · iexact A5
      isplitl [A6]; · iexact A6
      isplitl [A7]; · iexact A7
      iexact A8
    isplitl [HS]; · iexact HS
    iexact Hg
  · show @Idealize.SL.BI.BIBase.Entails (sProp 𝕄) _ _ _
    iintro ⟨⟨A1, A2, A3, A4, A5, A6, A7, A8⟩, HS, Hg⟩
    isplitr [Hg]
    · isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      iexact HS
    iexact Hg

end Cert.KernelIdeal.Acc

end
-- ==== Proof.KI.AccFirst.lean ====
import proofs.«164843_j86371792322948_2_alg».proof.Proof.KI.AccBase
set_option maxRecDepth 16384
noncomputable section
namespace Cert.KernelIdeal.Acc
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]
local notation "𝕄" => MT nD τ sig Unit (Elt F) ℕ (UR sig nD τ) ℕ

/-! # The case `k = 0`: the accumulator is zeroed, then receives the product -/

set_option maxHeartbeats 1000000 in
/-- What the body's stores leave where `k = 0` (and `k ≠ 7`), as pieces, last first: none in the output window,
    which is handed back untouched at the contents `xi3` it was found at; in the accumulator — found at anything —
    the zero block and over it the sum with the product. With the proof that on whole memrefs, the inputs' at
    `x0`, `x1`, `x2`, the body runs to a continuation holding the inputs as they were and the accumulator with
    those pieces written: the pieces are the witness the symbolic run finds. -/
noncomputable def runFirst (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : first i) (hc1 : ¬last i)
    (x0 : Vec F S1024x512 .f32) (x1 : Vec F S512x2048 .bf16) (x2 : Vec F S1x2048 .f32) :
    Σ' (L3 : List (View.Piece (Elt F) S1024x2048 .f32)), { LS : List (View.Piece (Elt F) S1024x2048 .f32) //
      ∀ (xi3 : Vec F S1024x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc1__lora_matmul_kernel i arg3 harg3 arg4 harg4 arg5 harg5 arg6 harg6 arg7 harg7) K } := by
  refine ⟨[], ?_, fun xi3 E K => ?run⟩
  case run =>
    simp only [cc1__lora_matmul_kernel_eq_skeleton]; unfold cc1__lora_matmul_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.KernelIdeal.Acc

end
-- ==== Proof.KI.AccMid.lean ====
import proofs.«164843_j86371792322948_2_alg».proof.Proof.KI.AccFirst
set_option maxRecDepth 16384
noncomputable section
namespace Cert.KernelIdeal.Acc
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]
local notation "𝕄" => MT nD τ sig Unit (Elt F) ℕ (UR sig nD τ) ℕ

/-! # The case `0 < k < 7`: the accumulator receives the product -/

set_option maxHeartbeats 1000000 in
/-- What the body's stores leave where `k ≠ 0` and `k ≠ 7`, as pieces, last first: none in the output window,
    handed back untouched at the contents `xi3` it was found at; in the accumulator — found at `xs`, what the
    point before left — its sum with the product. With the proof that the body runs to a continuation holding the
    inputs as they were and the accumulator with that piece written. -/
noncomputable def runMid (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬first i) (hc1 : ¬last i)
    (x0 : Vec F S1024x512 .f32) (x1 : Vec F S512x2048 .bf16) (x2 : Vec F S1x2048 .f32) (xs : Vec F S1024x2048 .f32) :
    Σ' (L3 : List (View.Piece (Elt F) S1024x2048 .f32)), { LS : List (View.Piece (Elt F) S1024x2048 .f32) //
      ∀ (xi3 : Vec F S1024x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc1__lora_matmul_kernel i arg3 harg3 arg4 harg4 arg5 harg5 arg6 harg6 arg7 harg7) K } := by
  refine ⟨[], ?_, fun xi3 E K => ?run⟩
  case run =>
    simp only [cc1__lora_matmul_kernel_eq_skeleton]; unfold cc1__lora_matmul_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.KernelIdeal.Acc

end
-- ==== Proof.KI.AccLast.lean ====
import proofs.«164843_j86371792322948_2_alg».proof.Proof.KI.AccMid
set_option maxRecDepth 16384
noncomputable section
namespace Cert.KernelIdeal.Acc
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]
local notation "𝕄" => MT nD τ sig Unit (Elt F) ℕ (UR sig nD τ) ℕ

/-! # The case `k = 7`: the accumulator receives the last product and, with the bias, goes to the output window -/

set_option maxHeartbeats 1000000 in
/-- What the body's stores leave where `k = 7` (and `k ≠ 0`), as pieces, last first: in the accumulator — found at
    `xs`, what the point before left — its sum with the product; in the output window — found at anything — that sum
    plus the broadcast bias row. With the proof that the body runs to a continuation holding the inputs as they were
    and the two buffers with those pieces written. -/
noncomputable def runLast (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬first i) (hc1 : last i)
    (x0 : Vec F S1024x512 .f32) (x1 : Vec F S512x2048 .bf16) (x2 : Vec F S1x2048 .f32) (xs : Vec F S1024x2048 .f32) :
    Σ' (L3 : List (View.Piece (Elt F) S1024x2048 .f32)), { LS : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS)) -∗ K ⟨⟩))
          ⊢ wp frame (wpE (defs₀ (F := F)) Variants.none c none) E (cc1__lora_matmul_kernel i arg3 harg3 arg4 harg4 arg5 harg5 arg6 harg6 arg7 harg7) K } := by
  refine ⟨?_, ?_, fun E K => ?run⟩
  case run =>
    simp only [cc1__lora_matmul_kernel_eq_skeleton]; unfold cc1__lora_matmul_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

end Cert.KernelIdeal.Acc

end
-- ==== Proof.KI.Acc.lean ====
import proofs.«164843_j86371792322948_2_alg».proof.Proof.KI.AccLast
set_option maxRecDepth 16384
noncomputable section
namespace Cert.KernelIdeal.Acc
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # The accumulating matmul region: its proof data and body obligation

Per control case, what the found pieces leave in the output window's staging buffer and in the accumulator; the
two held point by point along the grid; the proof data over them; and the body obligation, case by case. -/

/-! ## Per case: what the pieces cover and leave -/

/-- The case stores nothing into the output window: no pieces; a placeholder nothing consults, the window being idle and not written back at these points. -/
def outFirst (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : first i) (hc1 : ¬last i)
    (x0 : Vec F S1024x512 .f32) (x1 : Vec F S512x2048 .bf16) (x2 : Vec F S1x2048 .f32) : Vec F S1024x2048 .f32 :=
  VO.read (Elt F) (VO.writes (Elt F) VO.junk (runFirst c i arg3 harg3 arg4 harg4 arg5 harg5 arg6 harg6 arg7 harg7 hc0 hc1 x0 x1 x2).1)

/-- Where `k = 0` the accumulator's two pieces — the zero block and the sum over it — cover it. -/
theorem scoverFirst (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : first i) (hc1 : ¬last i)
    (x0 : Vec F S1024x512 .f32) (x1 : Vec F S512x2048 .bf16) (x2 : Vec F S1x2048 .f32) (y : S1024x2048.Idx) :
    ∃ pc ∈ (runFirst c i arg3 harg3 arg4 harg4 arg5 harg5 arg6 harg6 arg7 harg7 hc0 hc1 x0 x1 x2).2.1, y ∈ pc.1.set :=
  View.cover_of_tiledL (runFirst c i arg3 harg3 arg4 harg4 arg5 harg5 arg6 harg6 arg7 harg7 hc0 hc1 x0 x1 x2).2.1 S1024x2048.size (by sl_kernel_rfl) y

/-- What the case leaves in the accumulator: its pieces read back. -/
def soutFirst (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : first i) (hc1 : ¬last i)
    (x0 : Vec F S1024x512 .f32) (x1 : Vec F S512x2048 .bf16) (x2 : Vec F S1x2048 .f32) : Vec F S1024x2048 .f32 :=
  VS.read (Elt F) (VS.writes (Elt F) VS.junk (runFirst c i arg3 harg3 arg4 harg4 arg5 harg5 arg6 harg6 arg7 harg7 hc0 hc1 x0 x1 x2).2.1)

/-- The case stores nothing into the output window: no pieces; a placeholder nothing consults, the window being idle and not written back at these points. -/
def outMid (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬first i) (hc1 : ¬last i)
    (x0 : Vec F S1024x512 .f32) (x1 : Vec F S512x2048 .bf16) (x2 : Vec F S1x2048 .f32) (xs : Vec F S1024x2048 .f32) : Vec F S1024x2048 .f32 :=
  VO.read (Elt F) (VO.writes (Elt F) VO.junk (runMid c i arg3 harg3 arg4 harg4 arg5 harg5 arg6 harg6 arg7 harg7 hc0 hc1 x0 x1 x2 xs).1)

/-- Where `0 < k < 7` the accumulator's one piece covers it. -/
theorem scoverMid (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬first i) (hc1 : ¬last i)
    (x0 : Vec F S1024x512 .f32) (x1 : Vec F S512x2048 .bf16) (x2 : Vec F S1x2048 .f32) (xs : Vec F S1024x2048 .f32) (y : S1024x2048.Idx) :
    ∃ pc ∈ (runMid c i arg3 harg3 arg4 harg4 arg5 harg5 arg6 harg6 arg7 harg7 hc0 hc1 x0 x1 x2 xs).2.1, y ∈ pc.1.set :=
  View.cover_of_tiledL (runMid c i arg3 harg3 arg4 harg4 arg5 harg5 arg6 harg6 arg7 harg7 hc0 hc1 x0 x1 x2 xs).2.1 S1024x2048.size (by sl_kernel_rfl) y

/-- What the case leaves in the accumulator: its pieces read back. -/
def soutMid (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬first i) (hc1 : ¬last i)
    (x0 : Vec F S1024x512 .f32) (x1 : Vec F S512x2048 .bf16) (x2 : Vec F S1x2048 .f32) (xs : Vec F S1024x2048 .f32) : Vec F S1024x2048 .f32 :=
  VS.read (Elt F) (VS.writes (Elt F) VS.junk (runMid c i arg3 harg3 arg4 harg4 arg5 harg5 arg6 harg6 arg7 harg7 hc0 hc1 x0 x1 x2 xs).2.1)

/-- Where `k = 7` the one store into the output window covers its block. -/
theorem coverLast (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬first i) (hc1 : last i)
    (x0 : Vec F S1024x512 .f32) (x1 : Vec F S512x2048 .bf16) (x2 : Vec F S1x2048 .f32) (xs : Vec F S1024x2048 .f32) (y : S1024x2048.Idx) :
    ∃ pc ∈ (runLast c i arg3 harg3 arg4 harg4 arg5 harg5 arg6 harg6 arg7 harg7 hc0 hc1 x0 x1 x2 xs).1, y ∈ pc.1.set :=
  View.cover_of_tiledL (runLast c i arg3 harg3 arg4 harg4 arg5 harg5 arg6 harg6 arg7 harg7 hc0 hc1 x0 x1 x2 xs).1 S1024x2048.size (by sl_kernel_rfl) y

/-- What the case leaves in the output window's staging buffer: its piece read back. -/
def outLast (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬first i) (hc1 : last i)
    (x0 : Vec F S1024x512 .f32) (x1 : Vec F S512x2048 .bf16) (x2 : Vec F S1x2048 .f32) (xs : Vec F S1024x2048 .f32) : Vec F S1024x2048 .f32 :=
  VO.read (Elt F) (VO.writes (Elt F) VO.junk (runLast c i arg3 harg3 arg4 harg4 arg5 harg5 arg6 harg6 arg7 harg7 hc0 hc1 x0 x1 x2 xs).1)

/-- Where `k = 7` the accumulator's one piece covers it. -/
theorem scoverLast (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬first i) (hc1 : last i)
    (x0 : Vec F S1024x512 .f32) (x1 : Vec F S512x2048 .bf16) (x2 : Vec F S1x2048 .f32) (xs : Vec F S1024x2048 .f32) (y : S1024x2048.Idx) :
    ∃ pc ∈ (runLast c i arg3 harg3 arg4 harg4 arg5 harg5 arg6 harg6 arg7 harg7 hc0 hc1 x0 x1 x2 xs).2.1, y ∈ pc.1.set :=
  View.cover_of_tiledL (runLast c i arg3 harg3 arg4 harg4 arg5 harg5 arg6 harg6 arg7 harg7 hc0 hc1 x0 x1 x2 xs).2.1 S1024x2048.size (by sl_kernel_rfl) y

/-- What the case leaves in the accumulator: its pieces read back. -/
def soutLast (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬first i) (hc1 : last i)
    (x0 : Vec F S1024x512 .f32) (x1 : Vec F S512x2048 .bf16) (x2 : Vec F S1x2048 .f32) (xs : Vec F S1024x2048 .f32) : Vec F S1024x2048 .f32 :=
  VS.read (Elt F) (VS.writes (Elt F) VS.junk (runLast c i arg3 harg3 arg4 harg4 arg5 harg5 arg6 harg6 arg7 harg7 hc0 hc1 x0 x1 x2 xs).2.1)

/-! ## What is held after each point -/

/-- THE ACCUMULATION. After the body at position `n`: (.1) what the output window's current staging buffer holds,
    (.2) what the accumulator holds — the case `n % 8` selects, run at the point's memrefs and input blocks; where
    `k ≠ 0` over what the accumulator held after position `n - 1`. No position has `k = 0` and `k = 7` at once. -/
def heldAt (c : Dev nD) : (n : ℕ) → n < cfg1.N → Vec F S1024x2048 .f32 × Vec F S1024x2048 .f32
  | 0, hn => (outFirst c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scM (Memref.isWhole_whole _) ((first_iff ⟨0, hn⟩).mpr (Nat.zero_mod _)) (fun h => (fun h => by (try dsimp only at h); omega) ((last_iff ⟨0, hn⟩).mp h)) (blk V c 0 ⟨0, hn⟩) (blk V c 1 ⟨0, hn⟩) (blk V c 2 ⟨0, hn⟩), soutFirst c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scM (Memref.isWhole_whole _) ((first_iff ⟨0, hn⟩).mpr (Nat.zero_mod _)) (fun h => (fun h => by (try dsimp only at h); omega) ((last_iff ⟨0, hn⟩).mp h)) (blk V c 0 ⟨0, hn⟩) (blk V c 1 ⟨0, hn⟩) (blk V c 2 ⟨0, hn⟩))
  | n + 1, hn =>
    if h0 : (n + 1) % 8 = 0 then
      if h1 : (n + 1) % 8 = 7 then
        False.elim (by omega)
      else
        (outFirst c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) ((first_iff ⟨n + 1, hn⟩).mpr h0) (fun h => h1 ((last_iff ⟨n + 1, hn⟩).mp h)) (blk V c 0 ⟨n + 1, hn⟩) (blk V c 1 ⟨n + 1, hn⟩) (blk V c 2 ⟨n + 1, hn⟩), soutFirst c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) ((first_iff ⟨n + 1, hn⟩).mpr h0) (fun h => h1 ((last_iff ⟨n + 1, hn⟩).mp h)) (blk V c 0 ⟨n + 1, hn⟩) (blk V c 1 ⟨n + 1, hn⟩) (blk V c 2 ⟨n + 1, hn⟩))
    else
      if h1 : (n + 1) % 8 = 7 then
        (outLast c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (fun h => h0 ((first_iff ⟨n + 1, hn⟩).mp h)) ((last_iff ⟨n + 1, hn⟩).mpr h1) (blk V c 0 ⟨n + 1, hn⟩) (blk V c 1 ⟨n + 1, hn⟩) (blk V c 2 ⟨n + 1, hn⟩) (heldAt c n (Nat.lt_of_succ_lt hn)).2, soutLast c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (fun h => h0 ((first_iff ⟨n + 1, hn⟩).mp h)) ((last_iff ⟨n + 1, hn⟩).mpr h1) (blk V c 0 ⟨n + 1, hn⟩) (blk V c 1 ⟨n + 1, hn⟩) (blk V c 2 ⟨n + 1, hn⟩) (heldAt c n (Nat.lt_of_succ_lt hn)).2)
      else
        (outMid c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (fun h => h0 ((first_iff ⟨n + 1, hn⟩).mp h)) (fun h => h1 ((last_iff ⟨n + 1, hn⟩).mp h)) (blk V c 0 ⟨n + 1, hn⟩) (blk V c 1 ⟨n + 1, hn⟩) (blk V c 2 ⟨n + 1, hn⟩) (heldAt c n (Nat.lt_of_succ_lt hn)).2, soutMid c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (fun h => h0 ((first_iff ⟨n + 1, hn⟩).mp h)) (fun h => h1 ((last_iff ⟨n + 1, hn⟩).mp h)) (blk V c 0 ⟨n + 1, hn⟩) (blk V c 1 ⟨n + 1, hn⟩) (blk V c 2 ⟨n + 1, hn⟩) (heldAt c n (Nat.lt_of_succ_lt hn)).2)

/-- `heldAt` where `k = 0`. -/
theorem heldAt_First (c : Dev nD) (t : Fin cfg1.N) (h0 : t.val % 8 = 0) (h1 : ¬t.val % 8 = 7) :
    heldAt V c t.val t.isLt = (outFirst c (grid1.coords t) (ms0 t) (hs0 t) (ms1 t) (hs1 t) (ms2 t) (hs2 t) (ms3 t) (hs3 t) scM (Memref.isWhole_whole _) ((first_iff t).mpr h0) (fun h => h1 ((last_iff t).mp h)) (blk V c 0 t) (blk V c 1 t) (blk V c 2 t), soutFirst c (grid1.coords t) (ms0 t) (hs0 t) (ms1 t) (hs1 t) (ms2 t) (hs2 t) (ms3 t) (hs3 t) scM (Memref.isWhole_whole _) ((first_iff t).mpr h0) (fun h => h1 ((last_iff t).mp h)) (blk V c 0 t) (blk V c 1 t) (blk V c 2 t)) := by
  obtain ⟨n, hn⟩ := t
  cases n with
  | zero => exact rfl
  | succ n => exact (dif_pos h0).trans ((dif_neg h1).trans rfl)

/-- `heldAt` where `0 < k < 7`: over what the point before left. -/
theorem heldAt_Mid (c : Dev nD) (t : Fin cfg1.N) (h0 : ¬t.val % 8 = 0) (h1 : ¬t.val % 8 = 7) :
    heldAt V c t.val t.isLt = (outMid c (grid1.coords t) (ms0 t) (hs0 t) (ms1 t) (hs1 t) (ms2 t) (hs2 t) (ms3 t) (hs3 t) scM (Memref.isWhole_whole _) (fun h => h0 ((first_iff t).mp h)) (fun h => h1 ((last_iff t).mp h)) (blk V c 0 t) (blk V c 1 t) (blk V c 2 t) (heldAt V c (t.val - 1) (Nat.lt_of_le_of_lt (Nat.sub_le _ _) t.isLt)).2, soutMid c (grid1.coords t) (ms0 t) (hs0 t) (ms1 t) (hs1 t) (ms2 t) (hs2 t) (ms3 t) (hs3 t) scM (Memref.isWhole_whole _) (fun h => h0 ((first_iff t).mp h)) (fun h => h1 ((last_iff t).mp h)) (blk V c 0 t) (blk V c 1 t) (blk V c 2 t) (heldAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `heldAt` where `k = 7`: over what the point before left. -/
theorem heldAt_Last (c : Dev nD) (t : Fin cfg1.N) (h0 : ¬t.val % 8 = 0) (h1 : t.val % 8 = 7) :
    heldAt V c t.val t.isLt = (outLast c (grid1.coords t) (ms0 t) (hs0 t) (ms1 t) (hs1 t) (ms2 t) (hs2 t) (ms3 t) (hs3 t) scM (Memref.isWhole_whole _) (fun h => h0 ((first_iff t).mp h)) ((last_iff t).mpr h1) (blk V c 0 t) (blk V c 1 t) (blk V c 2 t) (heldAt V c (t.val - 1) (Nat.lt_of_le_of_lt (Nat.sub_le _ _) t.isLt)).2, soutLast c (grid1.coords t) (ms0 t) (hs0 t) (ms1 t) (hs1 t) (ms2 t) (hs2 t) (ms3 t) (hs3 t) scM (Memref.isWhole_whole _) (fun h => h0 ((first_iff t).mp h)) ((last_iff t).mpr h1) (blk V c 0 t) (blk V c 1 t) (blk V c 2 t) (heldAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point what the launch hands over (the accumulator
    at anything); afterwards the other kernel's staging buffers, the accumulator owned at what the point before
    left in it, and the generator register at some state. -/
def PhiS (c : Dev nD) : (n : ℕ) → n ≤ cfg1.N → sProp 𝕄
  | 0, _ => Pipeline.ΦA spec1 c
  | n + 1, hn => iprop(others (F := F) c ∗ owns (c : Thread nD τ) scM fullShare ((heldAt V c n hn).2) ∗ (∃ r, prngReg c r))

theorem PhiS_zero (c : Dev nD) (n : ℕ) (h : n ≤ cfg1.N) (hz : n = 0) : PhiS V c n h = Pipeline.ΦA spec1 c := by
  subst hz; rfl

/-- After point `n`: the accumulator at that point's contents. -/
theorem PhiS_succ (c : Dev nD) (n : ℕ) (hn : n < cfg1.N) :
    PhiS V c (n + 1) hn = iprop(others (F := F) c ∗ owns (c : Thread nD τ) scM fullShare ((heldAt V c n hn).2) ∗ (∃ r, prngReg c r)) := rfl

/-- Before a point that is not the first: the accumulator at what the point before left. -/
theorem PhiS_pos (c : Dev nD) (n : ℕ) (h : n ≤ cfg1.N) (hz : n ≠ 0) :
    PhiS V c n h = iprop(others (F := F) c ∗ owns (c : Thread nD τ) scM fullShare ((heldAt V c (n - 1) (by omega)).2) ∗ (∃ r, prngReg c r)) := by
  cases n with
  | zero => exact absurd rfl hz
  | succ n => rfl

/-! ## The proof data -/

/-- The region's proof data on core `c`: the arrays as the region finds them; after the body each input's buffer
    still at its block, the output's at `heldAt`'s first component; the invariant `PhiS`; nothing owed; full shares. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => (heldAt V c t.val t.isLt).1
  Φ t := PhiS V c t.val (Nat.le_of_lt_succ t.isLt)
  q _ := fullShare
  owed _ := 0

theorem dat_A (c : Dev nD) (w : Fin cfg1.W) : (dat V c).A w = V c (Pipeline.arrRef spec1 w) := by
  dsimp only [dat]

/-- The invariant at a point's start, restated at `t.val`. -/
theorem PhiS_castSucc (c : Dev nD) (t : Fin cfg1.N) :
    (dat V c).Φ t.castSucc = PhiS V c t.val (Nat.le_of_lt t.isLt) := by
  dsimp only [dat]; simp only [Fin.coe_castSucc]

theorem after_x (c : Dev nD) (t : Fin cfg1.N) : (dat V c).after 0 t = blk V c 0 t := by dsimp only [dat]
theorem after_w (c : Dev nD) (t : Fin cfg1.N) : (dat V c).after 1 t = blk V c 1 t := by dsimp only [dat]
theorem after_b (c : Dev nD) (t : Fin cfg1.N) : (dat V c).after 2 t = blk V c 2 t := by dsimp only [dat]
theorem dat_after_out (c : Dev nD) (t : Fin cfg1.N) : (dat V c).after 3 t = (heldAt V c t.val t.isLt).1 := by dsimp only [dat]

/-- Each input's current staging buffer holds its block whenever the body runs. -/
theorem before_x (c : Dev nD) (t : Fin cfg1.N) (d) : (dat V c).before 0 t d = blk V c 0 t :=
  before_x_of V (dat V c) (dat_A V c 0) (after_x V c) t d
theorem before_w (c : Dev nD) (t : Fin cfg1.N) (d) : (dat V c).before 1 t d = blk V c 1 t :=
  before_w_of V (dat V c) (dat_A V c 1) (after_w V c) t d
theorem before_b (c : Dev nD) (t : Fin cfg1.N) (d) : (dat V c).before 2 t d = blk V c 2 t :=
  before_b_of V (dat V c) (dat_A V c 2) (after_b V c) t d

/-! ## The body obligation -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
/-- The body at any point. The inputs' memrefs hold their blocks; `t % 8` says which case the point is in. The
    invariant hands the body the accumulator — at anything at the very first point, else at what the point before
    left — and takes it back at this point's contents, the found pieces covering it. Where `k ≠ 7` the output
    window is idle and not written back: its buffer goes back as found. Where `k = 7` its one piece covers it. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_x, before_w, before_b]
  rw [show (dat V c).owesAt () t.succ = (dat V c).owesAt () t.castSucc from rfl]
  rw [show (dat V c).Φ t.succ = PhiS V c (t.val + 1) t.isLt from rfl, PhiS_succ]
  have hN : t.val < 256 := lt_of_lt_of_eq t.isLt (show cfg1.N = 256 from N_1)
  by_cases h0 : t.val % 8 = 0
  · by_cases h1 : t.val % 8 = 7
    · exfalso; omega
    · rw [show (dat V c).leavesExact 0 t = owns (c : Thread nD τ) (ms0 t) fullShare ((dat V c).after 0 t) from by
        unfold Dat.leavesExact; rw [live_x t], after_x]
      rw [show (dat V c).leavesExact 1 t = owns (c : Thread nD τ) (ms1 t) fullShare ((dat V c).after 1 t) from by
        unfold Dat.leavesExact; rw [live_w t], after_w]
      rw [show (dat V c).leavesExact 2 t = owns (c : Thread nD τ) (ms2 t) fullShare ((dat V c).after 2 t) from by
        unfold Dat.leavesExact; rw [live_b t], after_b]
      rw [Dat.leavesExact_idle (dat V c) 3 t (idle_out t (fun h => h1 ((last_iff t).mp h))) (noFlush_out t (fun h => h1 ((last_iff t).mp h)))]
      rw [heldAt_First V c t h0 h1]
      unfold soutFirst; (try dsimp only)
      by_cases hz : t.val = 0
      · rw [PhiS_castSucc V c t, PhiS_zero V c _ _ hz, PhiA_eq]
        iintro ⟨⟨Hoth, HS, Hg⟩, Ho, ⟨%d0, H0⟩, ⟨%d1, H1⟩, ⟨%d2, H2⟩, ⟨%d3, H3⟩⟩
        iapply ((runFirst c (grid1.coords t) _ _ _ _ _ _ _ _ _ _ ((first_iff t).mpr h0) (fun h => h1 ((last_iff t).mp h)) (blk V c 0 t) (blk V c 1 t) (blk V c 2 t)).2.2 _ Set.univ _)
        isplitl [H0]; · iexact H0
        isplitl [H1]; · iexact H1
        isplitl [H2]; · iexact H2
        isplitl [H3]; · iexact H3
        isplitl [HS]; · iexact HS
        iintro ⟨H0, H1, H2, H3, ⟨%es, HS⟩⟩
        isplitl [Hoth HS Hg]
        · isplitl [Hoth]; · iexact Hoth
          isplitl [HS]
          · unfold owns; iexists _; isplitr
            swap; · iexact HS
            ipureintro; exact View.read_writes_of_cover _ _ _ _ _ (scoverFirst c _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS_castSucc V c t, PhiS_pos V c _ _ hz]
        iintro ⟨⟨Hoth, HS, Hg⟩, Ho, ⟨%d0, H0⟩, ⟨%d1, H1⟩, ⟨%d2, H2⟩, ⟨%d3, H3⟩⟩
        iapply ((runFirst c (grid1.coords t) _ _ _ _ _ _ _ _ _ _ ((first_iff t).mpr h0) (fun h => h1 ((last_iff t).mp h)) (blk V c 0 t) (blk V c 1 t) (blk V c 2 t)).2.2 _ Set.univ _)
        isplitl [H0]; · iexact H0
        isplitl [H1]; · iexact H1
        isplitl [H2]; · iexact H2
        isplitl [H3]; · iexact H3
        isplitl [HS]; · iexists _; iexact HS
        iintro ⟨H0, H1, H2, H3, ⟨%es, HS⟩⟩
        isplitl [Hoth HS Hg]
        · isplitl [Hoth]; · iexact Hoth
          isplitl [HS]
          · unfold owns; iexists _; isplitr
            swap; · iexact HS
            ipureintro; exact View.read_writes_of_cover _ _ _ _ _ (scoverFirst c _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · by_cases h1 : t.val % 8 = 7
    · rw [show (dat V c).leavesExact 0 t = owns (c : Thread nD τ) (ms0 t) fullShare ((dat V c).after 0 t) from by
        unfold Dat.leavesExact; rw [live_x t], after_x]
      rw [show (dat V c).leavesExact 1 t = owns (c : Thread nD τ) (ms1 t) fullShare ((dat V c).after 1 t) from by
        unfold Dat.leavesExact; rw [live_w t], after_w]
      rw [show (dat V c).leavesExact 2 t = owns (c : Thread nD τ) (ms2 t) fullShare ((dat V c).after 2 t) from by
        unfold Dat.leavesExact; rw [live_b t], after_b]
      rw [show (dat V c).leavesExact 3 t = owns (c : Thread nD τ) (ms3 t) fullShare ((dat V c).after 3 t) from by
        unfold Dat.leavesExact; rw [live_out t ((last_iff t).mpr h1)], dat_after_out]
      rw [heldAt_Last V c t h0 h1]
      unfold outLast soutLast; (try dsimp only)
      have hz : t.val ≠ 0 := fun e => h0 (by rw [e])
      rw [PhiS_castSucc V c t, PhiS_pos V c _ _ hz]
      iintro ⟨⟨Hoth, HS, Hg⟩, Ho, ⟨%d0, H0⟩, ⟨%d1, H1⟩, ⟨%d2, H2⟩, ⟨%d3, H3⟩⟩
      iapply ((runLast c (grid1.coords t) _ _ _ _ _ _ _ _ _ _ (fun h => h0 ((first_iff t).mp h)) ((last_iff t).mpr h1) (blk V c 0 t) (blk V c 1 t) (blk V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [Hoth HS Hg]
      · isplitl [Hoth]; · iexact Hoth
        isplitl [HS]
        · unfold owns; iexists _; isplitr
          swap; · iexact HS
          ipureintro; exact View.read_writes_of_cover _ _ _ _ _ (scoverLast c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverLast c _ _ _ _ _ _ _ _ _ _ _ _ _ _ _ _ _)
    · rw [show (dat V c).leavesExact 0 t = owns (c : Thread nD τ) (ms0 t) fullShare ((dat V c).after 0 t) from by
        unfold Dat.leavesExact; rw [live_x t], after_x]
      rw [show (dat V c).leavesExact 1 t = owns (c : Thread nD τ) (ms1 t) fullShare ((dat V c).after 1 t) from by
        unfold Dat.leavesExact; rw [live_w t], after_w]
      rw [show (dat V c).leavesExact 2 t = owns (c : Thread nD τ) (ms2 t) fullShare ((dat V c).after 2 t) from by
        unfold Dat.leavesExact; rw [live_b t], after_b]
      rw [Dat.leavesExact_idle (dat V c) 3 t (idle_out t (fun h => h1 ((last_iff t).mp h))) (noFlush_out t (fun h => h1 ((last_iff t).mp h)))]
      rw [heldAt_Mid V c t h0 h1]
      unfold soutMid; (try dsimp only)
      have hz : t.val ≠ 0 := fun e => h0 (by rw [e])
      rw [PhiS_castSucc V c t, PhiS_pos V c _ _ hz]
      iintro ⟨⟨Hoth, HS, Hg⟩, Ho, ⟨%d0, H0⟩, ⟨%d1, H1⟩, ⟨%d2, H2⟩, ⟨%d3, H3⟩⟩
      iapply ((runMid c (grid1.coords t) _ _ _ _ _ _ _ _ _ _ (fun h => h0 ((first_iff t).mp h)) (fun h => h1 ((last_iff t).mp h)) (blk V c 0 t) (blk V c 1 t) (blk V c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [Hoth HS Hg]
      · isplitl [Hoth]; · iexact Hoth
        isplitl [HS]
        · unfold owns; iexists _; isplitr
          swap; · iexact HS
          ipureintro; exact View.read_writes_of_cover _ _ _ _ _ (scoverMid c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem inv_in (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After any point the invariant gives back what the launch handed over: the accumulator's named contents are forgotten. -/
theorem inv_back (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA_eq]
  iintro ⟨Hoth, HS, Hg⟩
  isplitl [Hoth]; · iexact Hoth
  isplitl [HS]; · iexists _; iexact HS
  iexact Hg

/-- The same after the last point. -/
theorem inv_out (c : Dev nD) : (dat V c).Φ (Fin.last cfg1.N) ⊢ Pipeline.ΦA spec1 c :=
  inv_back V c _ (by rw [Fin.val_last]; have : cfg1.N = 256 := N_1; omega)

end Cert.KernelIdeal.Acc

end
-- ==== Proof.KI.Run.lean ====
/-
  The whole run of the program, at any float instance: @main is four segments in order — the region that forms the
  effective weight, two host reshapes, the region that multiplies and accumulates, one host reshape — and between two
  segments the core holds every unscoped buffer at contents that are named here by a fold from the launch memory:
  a host stretch leaves what its operations compute, a region leaves its arrays at what its write-backs leave and
  every other buffer as it found it.  Every weakly fair execution terminates without a fault, and the final memory
  holds, at every unscoped buffer, the last contents of that fold.  Reading the fold back at an argument array walks
  to the launch memory: no host operation writes an argument, and a region only reads it.
-/
import proofs.«164843_j86371792322948_2_alg».proof.Proof.Gen.KernelIdeal.Launch
import proofs.«164843_j86371792322948_2_alg».proof.Proof.Gen.KernelIdeal.Skeleton
import proofs.«164843_j86371792322948_2_alg».proof.Proof.Gen.KernelIdeal.Points
import proofs.«164843_j86371792322948_2_alg».proof.Proof.Gen.KernelIdeal.Regions
import proofs.«164843_j86371792322948_2_alg».proof.Proof.KI.Weff
import proofs.«164843_j86371792322948_2_alg».proof.Proof.KI.Acc
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between segments -/

/-- At launch. -/
abbrev W0 : Dev nD → Valuation τ sig (Elt F) := fun c b => m (c, b)
/-- The same at the core's own references: what the first region is entered from. -/
abbrev V0 : (c : Dev nD) → (b : Ref sig .tc) → Buf (Elt F) ((c : Thread nD τ).loc b) := fun c b => W0 m c b

/-- After the first region: its arrays at what its write-backs leave, every other buffer as entered. -/
def W1 (c : Dev nD) : Valuation τ sig (Elt F) :=
  Pipeline.withArrays spec0 c (W0 m c) fun w => (Weff.dat (V0 m) c).arrAt w cfg0.N
theorem W1_arr (c : Dev nD) (w : Fin cfg0.W) :
    W1 m c (Proc.devRef .tc (Pipeline.arrRef spec0 w)) = (Weff.dat (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem left0 (c : Dev nD) (w : Fin cfg0.W) : (Weff.dat (V0 m) c).arrAt w cfg0.N = V1 m c (Pipeline.arrRef spec0 w) :=
  (W1_arr m c w).symm
theorem kept0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the two reshapes: what the second region is entered from. -/
abbrev W2 : Dev nD → Valuation τ sig (Elt F) := fun c => StableHlo.after hostOps1 (W1 m c)
abbrev V2 : (c : Dev nD) → (b : Ref sig .tc) → Buf (Elt F) ((c : Thread nD τ).loc b) := fun c b => W2 m c b

/-- After the second region. -/
def W3 (c : Dev nD) : Valuation τ sig (Elt F) :=
  Pipeline.withArrays spec1 c (W2 m c) fun w => (Acc.dat (V2 m) c).arrAt w cfg1.N
theorem W3_arr (c : Dev nD) (w : Fin cfg1.W) :
    W3 m c (Proc.devRef .tc (Pipeline.arrRef spec1 w)) = (Acc.dat (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem left1 (c : Dev nD) (w : Fin cfg1.W) : (Acc.dat (V2 m) c).arrAt w cfg1.N = V3 m c (Pipeline.arrRef spec1 w) :=
  (W3_arr m c w).symm
theorem kept1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- After the last reshape: the end. -/
abbrev W4 : Dev nD → Valuation τ sig (Elt F) := fun c => StableHlo.after hostOps2 (W3 m c)

/-! ## An argument array ends as launched -/

/-- A buffer no region stages as an output and no host operation writes holds its launch contents at the end. -/
theorem W4_untouched (c : Dev nD) (b : Ref sig .tc) (h2 : b ∉ hostOps2_W) (h3 : ∀ w, Pipeline.arrRef spec1 w ≠ b)
    (h1 : b ∉ hostOps1_W) (h0 : W1 m c (Proc.devRef .tc b) = W0 m c (Proc.devRef .tc b)) :
    W4 m c (Proc.devRef .tc b) = m ((c : Thread nD τ).loc b) :=
  calc W4 m c (Proc.devRef .tc b)
    _ = W3 m c (Proc.devRef .tc b) := StableHlo.after_of_writes_sub hostOps2 _ hostOps2_writes h2
    _ = W2 m c (Proc.devRef .tc b) := W3_of_ne m c b h3
    _ = W1 m c (Proc.devRef .tc b) := StableHlo.after_of_writes_sub hostOps1 _ hostOps1_writes h1
    _ = W0 m c (Proc.devRef .tc b) := h0
    _ = m ((c : Thread nD τ).loc b) := rfl

/-- An input window's array is unchanged by its region. -/
theorem W1_input (c : Dev nD) (w : Fin cfg0.W) (hw : (cfg0.win w).isOut = false) :
    W1 m c (Proc.devRef .tc (Pipeline.arrRef spec0 w)) = W0 m c (Proc.devRef .tc (Pipeline.arrRef spec0 w)) :=
  (W1_arr m c w).trans (((Weff.dat (V0 m) c).arrAt_in w hw _).trans (Weff.dat_A (V0 m) c w))

theorem W4_main_arg0 (c : Dev nD) : W4 m c (Proc.devRef .tc main_arg0) = m ((c : Thread nD τ).loc main_arg0) :=
  W4_untouched m c main_arg0 (by decide) (by decide) (by decide) (W1_of_ne m c main_arg0 (by decide))
theorem W4_main_arg1 (c : Dev nD) : W4 m c (Proc.devRef .tc main_arg1) = m ((c : Thread nD τ).loc main_arg1) :=
  W4_untouched m c main_arg1 (by decide) (by decide) (by decide) (W1_input m c 0 rfl)
theorem W4_main_arg2 (c : Dev nD) : W4 m c (Proc.devRef .tc main_arg2) = m ((c : Thread nD τ).loc main_arg2) :=
  W4_untouched m c main_arg2 (by decide) (by decide) (by decide) (W1_of_ne m c main_arg2 (by decide))
theorem W4_main_arg3 (c : Dev nD) : W4 m c (Proc.devRef .tc main_arg3) = m ((c : Thread nD τ).loc main_arg3) :=
  W4_untouched m c main_arg3 (by decide) (by decide) (by decide) (W1_input m c 1 rfl)
theorem W4_main_arg4 (c : Dev nD) : W4 m c (Proc.devRef .tc main_arg4) = m ((c : Thread nD τ).loc main_arg4) :=
  W4_untouched m c main_arg4 (by decide) (by decide) (by decide) (W1_input m c 2 rfl)

/-! ## The proof data of both pipelines and what rides beside the buffers -/

/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => Weff.dat (V0 m) c
  | ⟨1, _⟩ => fun c => Acc.dat (V2 m) c
abbrev 𝒱₀ : Variants := Variants.none
/-- No core owes another anything. -/
abbrev L : GSem nD τ sig → Finset Unit := fun _ => ∅
abbrev lv : GSem nD τ sig → Unit → ℕ := fun _ _ => 0
/-- Beside the buffers a core carries its generator register at some state, and owes nothing. -/
abbrev R (c : Dev nD) : sProp 𝕄 := iprop((∃ r, prngReg c r) ∗ ∃ W, owes (c : Thread nD τ) (0 : CellTallies nD τ sig Unit) W)
/-- A host stretch from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state without the `owes`. -/
abbrev Tₙ (c : Dev nD) : sProp 𝕄 := iprop(StableHlo.held (c : Thread nD τ) (Pipeline.ucRefs τ sig) (W4 m c) ∗ ∃ r, prngReg c r)

/-! ## The two regions as segments -/

set_option backward.isDefEq.respectTransparency.types false in
/-- The first region: entered with every unscoped buffer at the launch contents, left with them at `W1`.  Its arrays
    are split out of the unscoped buffers and put back at what the write-backs leave; the generator register goes into
    the region's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Weff.body_obligation (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun w => Weff.dat_A (V0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (left0 m c) (kept0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered with every unscoped buffer at `W2`, left with them at `W3`.  Its invariant is entered
    from the scoped rest and the generator register (the accumulator at anything) and gives them back after the last
    point, the accumulator's contents forgotten. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Acc.body_obligation (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun w => Acc.dat_A (V2 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec1 c from ?_).trans (show Pipeline.ΦA spec1 c ⊢ (pdats m 1 c).Φ 0 from Acc.inv_in (V2 m) c)
    unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from Acc.inv_out (V2 m) c).trans (show Pipeline.ΦA spec1 c ⊢ _ from ?_)
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (left1 m c) (kept1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as its segments, and the launch -/

abbrev segs : List (Pipeline.Seg (pcfgs (F := F)) adm (pdats m) () defs₀ 𝒱₀ L lv) :=
  [ .region (reg0 m),
    .host (hseg hostOps1 hostOps1_sub hostOps1_fresh (W1 m)),
    .region (reg1 m),
    .host (hseg hostOps2 hostOps2_sub hostOps2_fresh (W3 m)) ]

/-- @main is the run of these segments. -/
theorem main_run (c : Dev nD) : main (F := F) c = Pipeline.Seg.run (segs m) := (main_chain c).trans (by chain_rfl)

set_option backward.isDefEq.respectTransparency.types false in
/-- THE RUN.  From any memory with zero counters every weakly fair execution of @main terminates, nothing faulting,
    and the final memory holds every unscoped buffer at the fold's last contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (W4 m c) ∗ R c)
        ⊢ iprop(Tₙ m c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- THE FRAME, and the result buffer named: every argument array ends as launched, and the result array ends at the
    fold's last contents. -/
theorem run_named : θ_run defs (onTc (τ := τ) (main (F := F))) ⟨m, fun _ => 0, ρ⟩ (fun r => ∀ c : Dev nD,
      r.2.mem ((c.tc : Thread nD τ).loc main_v4) = W4 m c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨h c _ (mem_uc main_v4 (by decide)),
      (h c _ (mem_uc main_arg0 (by decide))).trans (W4_main_arg0 m c),
      (h c _ (mem_uc main_arg1 (by decide))).trans (W4_main_arg1 m c),
      (h c _ (mem_uc main_arg2 (by decide))).trans (W4_main_arg2 m c),
      (h c _ (mem_uc main_arg3 (by decide))).trans (W4_main_arg3 m c),
      (h c _ (mem_uc main_arg4 (by decide))).trans (W4_main_arg4 m c)⟩) (run_all m ρ)

end Cert.KernelIdeal.Run

end
-- ==== Proof.Spec.lean ====
/-
  The arithmetic that joins the two programs, with no program in sight.

  Arrays are read at NATURAL coordinates (zero outside their extents), so that a block's element, a reshaped
  element and a contraction index are all plain arithmetic on naturals.  The kernel forms the effective weight
  Weff (d, e) = W (d, e) + 2 · Σ_r A (d, r) · B (r, e), then Σ_d x (m, d) · Weff (d, e) in eight consecutive
  blocks of 512 terms added in order from 0, and finally adds the bias.  The reference forms
  (Σ_d x · W + bias) + (Σ_r (Σ_d x · A) · B) · 2.  On real numbers the two agree: the sum of eight blocks is the
  whole sum, a product distributes over a finite sum, and two finite sums exchange.  On the extended reals this
  needs every entry to be a real number, which is what the precondition provides.
-/
import Idealize.ShloMosaic.PureOps.Ideal.Laws
import Idealize.ShloMosaic.Lib.ValueIdx

noncomputable section

open scoped BigOperators

namespace Cert.Spec

open Idealize.ShloMosaic Idealize.ShloMosaic.ValueIdx

/-! ## Arrays at natural coordinates -/

/-- A vector read at a natural position: 0 past its end. -/
def at1 {a : ℕ} (f : (⟨1, ![a]⟩ : Shape).Idx → EReal) (p : ℕ) : EReal :=
  if h : p < a then f (ix1 ⟨p, h⟩) else 0

/-- A matrix read at natural coordinates: 0 outside it. -/
def at2 {a b : ℕ} (f : (⟨2, ![a, b]⟩ : Shape).Idx → EReal) (p q : ℕ) : EReal :=
  if h : p < a ∧ q < b then f (ix2 ⟨p, h.1⟩ ⟨q, h.2⟩) else 0

/-- A rank-3 array read at natural coordinates: 0 outside it. -/
def at3 {a b c : ℕ} (f : (⟨3, ![a, b, c]⟩ : Shape).Idx → EReal) (p q r : ℕ) : EReal :=
  if h : p < a ∧ q < b ∧ r < c then f (ix3 ⟨p, h.1⟩ ⟨q, h.2.1⟩ ⟨r, h.2.2⟩) else 0

theorem at1_idx {a : ℕ} (f : (⟨1, ![a]⟩ : Shape).Idx → EReal) (i : (⟨1, ![a]⟩ : Shape).Idx) :
    at1 f (i 0).val = f i := by
  unfold at1
  rw [dif_pos (show (i 0).val < a from (i 0).isLt)]
  exact congrArg f (eq_ix1 i).symm

theorem at2_idx {a b : ℕ} (f : (⟨2, ![a, b]⟩ : Shape).Idx → EReal) (i : (⟨2, ![a, b]⟩ : Shape).Idx) :
    at2 f (i 0).val (i 1).val = f i := by
  unfold at2
  rw [dif_pos (show (i 0).val < a ∧ (i 1).val < b from ⟨(i 0).isLt, (i 1).isLt⟩)]
  exact congrArg f (eq_ix2 i).symm

theorem at3_idx {a b c : ℕ} (f : (⟨3, ![a, b, c]⟩ : Shape).Idx → EReal) (i : (⟨3, ![a, b, c]⟩ : Shape).Idx) :
    at3 f (i 0).val (i 1).val (i 2).val = f i := by
  unfold at3
  rw [dif_pos (show (i 0).val < a ∧ (i 1).val < b ∧ (i 2).val < c from ⟨(i 0).isLt, (i 1).isLt, (i 2).isLt⟩)]
  exact congrArg f (eq_ix3 i).symm

/-- Every entry of an array is a real number. -/
def IsReal {α : Type} (f : α → EReal) : Prop := ∀ i, ∃ r : ℝ, f i = (r : EReal)

theorem at1_real {a : ℕ} {f : (⟨1, ![a]⟩ : Shape).Idx → EReal} (hf : IsReal f) (p : ℕ) : ∃ r : ℝ, at1 f p = (r : EReal) := by
  unfold at1; split
  · exact hf _
  · exact ⟨0, rfl⟩

theorem at2_real {a b : ℕ} {f : (⟨2, ![a, b]⟩ : Shape).Idx → EReal} (hf : IsReal f) (p q : ℕ) :
    ∃ r : ℝ, at2 f p q = (r : EReal) := by
  unfold at2; split
  · exact hf _
  · exact ⟨0, rfl⟩

theorem at3_real {a b c : ℕ} {f : (⟨3, ![a, b, c]⟩ : Shape).Idx → EReal} (hf : IsReal f) (p q r : ℕ) :
    ∃ s : ℝ, at3 f p q r = (s : EReal) := by
  unfold at3; split
  · exact hf _
  · exact ⟨0, rfl⟩

/-! ## The scaling constant -/

/-- The word the kernel and the reference both scale the low-rank product by. -/
def two : EReal := Ideal.ofBits .f32 0x40000000#32

/-- It denotes the real number 2. -/
theorem two_eq : two = ((2 : ℝ) : EReal) := by
  unfold two
  simp [Ideal.ofBits, Ideal.ieee, -EReal.coe_mul]; norm_num

/-! ## Finite sums of real numbers inside the extended reals -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over `n` consecutive blocks of `K` terms is the sum over all `K · n` terms. -/
theorem sum_blocks {M : Type} [AddCommMonoid M] (K : ℕ) (f : ℕ → M) (n : ℕ) :
    ∑ s ∈ Finset.range n, ∑ j ∈ Finset.range K, f (K * s + j) = ∑ d ∈ Finset.range (K * n), f d := by
  induction n with
  | zero => simp
  | succ n ih =>
    rw [Finset.sum_range_succ, ih, Nat.mul_succ, ← Finset.sum_range_add_sum_Ico f (Nat.le_add_right (K * n) K),
      Finset.sum_Ico_eq_sum_range, Nat.add_sub_cancel_left]

/-! ## The two results -/

/-- The effective weight, from the base weight and the two low-rank factors. -/
def weff (W : ℕ → ℕ → EReal) (A : ℕ → ℕ → EReal) (B : ℕ → ℕ → EReal) (d e : ℕ) : EReal :=
  W d e + two * ∑ r ∈ Finset.range 16, A d r * B r e

/-- What the kernel computes at one output entry: eight blocks of 512 products accumulated from 0, then the bias. -/
def kern (x : ℕ → EReal) (wf : ℕ → EReal) (β : EReal) : EReal :=
  (0 + ∑ s ∈ Finset.range 8, ∑ j ∈ Finset.range 512, x (512 * s + j) * wf (512 * s + j)) + β

/-- What the reference computes at one output entry. -/
def refr (x : ℕ → EReal) (w : ℕ → EReal) (A : ℕ → ℕ → EReal) (B : ℕ → EReal) (β : EReal) : EReal :=
  ((∑ d ∈ Finset.range 4096, x d * w d) + β)
    + (∑ r ∈ Finset.range 16, (∑ d ∈ Finset.range 4096, x d * A d r) * B r) * two

/-- The law that joins them, for real entries: a row of x against the effective weight's column is the row
    against the base column plus twice the row pushed through the two low-rank factors. -/
theorem kern_eq_refr (x w : ℕ → EReal) (A : ℕ → ℕ → EReal) (B : ℕ → EReal) (β : EReal)
    (hx : ∀ d, ∃ r : ℝ, x d = r) (hw : ∀ d, ∃ r : ℝ, w d = r) (hA : ∀ d r, ∃ s : ℝ, A d r = s)
    (hB : ∀ r, ∃ s : ℝ, B r = s) (hβ : ∃ s : ℝ, β = s) :
    kern x (fun d => w d + two * ∑ r ∈ Finset.range 16, A d r * B r) β = refr x w A B β := by
  choose xr hxr using hx
  choose wr hwr using hw
  choose Ar hAr using hA
  choose Br hBr using hB
  obtain ⟨βr, rfl⟩ := hβ
  unfold kern refr
  rw [sum_blocks 512 (fun d => x d * (w d + two * ∑ r ∈ Finset.range 16, A d r * B r)) 8, two_eq]
  simp only [hxr, hwr, hAr, hBr]
  simp only [← EReal.coe_mul, ← coe_sum, ← EReal.coe_add, ← EReal.coe_zero]
  refine congrArg _ ?_
  have e1 : ∀ d, xr d * (wr d + 2 * ∑ r ∈ Finset.range 16, Ar d r * Br r)
      = xr d * wr d + 2 * ∑ r ∈ Finset.range 16, (xr d * Ar d r) * Br r := fun d => by
    rw [mul_add, ← mul_assoc, mul_comm (xr d) 2, mul_assoc, Finset.mul_sum]
    refine congrArg _ (congrArg _ (Finset.sum_congr rfl fun r _ => ?_))
    ring
  have e2 : (∑ r ∈ Finset.range 16, (∑ d ∈ Finset.range 4096, xr d * Ar d r) * Br r) * 2
      = 2 * ∑ r ∈ Finset.range 16, ∑ d ∈ Finset.range 4096, xr d * Ar d r * Br r := by
    rw [mul_comm]
    exact congrArg _ (Finset.sum_congr rfl fun r _ => Finset.sum_mul _ _ _)
  simp only [e1]
  rw [Finset.sum_add_distrib, ← Finset.mul_sum, Finset.sum_comm, e2]
  ring

end Cert.Spec

end
-- ==== Proof.LibPlainDot.lean ====
/-
  A matrix product with the plain dimension numbers, read at one entry of its result on the extended reals.

  The left operand is [M, K], contracted on its second axis against the first axis of the right operand [K, N];
  there is no batch axis. Entry (p, q) of the product is the sum over k of lhs (p, k) · rhs (k, q). This holds for
  the vector unit's product into a zero accumulator (the zero word denotes 0, and 0 + s = s) and for the host's
  `dot_general`, for all extents M, K, N. A record of dimension numbers is determined by its six lists of axes
  (its remaining field is a proof), so the statements are about `DotDims.plain M K N` and apply to every record
  that lists the same axes.
-/
import Idealize.ShloMosaic.PureOps.Ideal.Laws
import Idealize.ShloMosaic.Lib.ValueIdx

noncomputable section

open scoped BigOperators

namespace Cert.LibPlainDot

open Idealize.ShloMosaic Idealize.ShloMosaic.ValueIdx

variable {M K N : Nat}

/-- The contraction index of the plain product is its one coordinate, k < K. -/
abbrev kEquiv (M K N : Nat) : (DotDims.plain M K N).contr.Idx ≃ Fin K :=
  contrEquiv1 (DotDims.plain M K N) K rfl rfl

/-- The left operand's row axis is the result's first axis: it reads the result entry's row. -/
theorem lhs_row (j : (⟨2, ![M, N]⟩ : Shape).Idx) (κ : (DotDims.plain M K N).contr.Idx) :
    ((DotDims.plain M K N).lhsIdx j κ 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's column axis is the contracted one: it reads the contraction coordinate. -/
theorem lhs_col (j : (⟨2, ![M, N]⟩ : Shape).Idx) (k : Fin K) :
    ((DotDims.plain M K N).lhsIdx j ((kEquiv M K N).symm k) 1).val = k.val :=
  ((DotDims.plain M K N).lhsIdx_val_of_single rfl j _).trans (contrEquiv1_symm_val (DotDims.plain M K N) K rfl rfl k)

/-- The right operand's row axis is the contracted one. -/
theorem rhs_row (j : (⟨2, ![M, N]⟩ : Shape).Idx) (k : Fin K) :
    ((DotDims.plain M K N).rhsIdx j ((kEquiv M K N).symm k) 0).val = k.val :=
  ((DotDims.plain M K N).rhsIdx_val_of_single rfl j _).trans (contrEquiv1_symm_val (DotDims.plain M K N) K rfl rfl k)

/-- The right operand's column axis is the result's second axis: it reads the result entry's column. -/
theorem rhs_col (j : (⟨2, ![M, N]⟩ : Shape).Idx) (κ : (DotDims.plain M K N).contr.Idx) :
    ((DotDims.plain M K N).rhsIdx j κ 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- At result entry (p, q) and contraction coordinate k the left operand is read at (p, k) -/
theorem lhsIdx_plain (p : Fin M) (q : Fin N) (k : Fin K) :
    (DotDims.plain M K N).lhsIdx (ix2 p q) ((kEquiv M K N).symm k) = ix2 p k :=
  funext fun a => Fin.ext (by
    match a with
    | ⟨0, _⟩ => exact lhs_row (ix2 p q) _
    | ⟨1, _⟩ => exact lhs_col (ix2 p q) k)

/-- and the right operand at (k, q). -/
theorem rhsIdx_plain (p : Fin M) (q : Fin N) (k : Fin K) :
    (DotDims.plain M K N).rhsIdx (ix2 p q) ((kEquiv M K N).symm k) = ix2 k q :=
  funext fun a => Fin.ext (by
    match a with
    | ⟨0, _⟩ => exact rhs_row (ix2 p q) k
    | ⟨1, _⟩ => exact rhs_col (ix2 p q) _)

/-- The sum over the contraction index of the two operands' entries is the sum over k < K of lhs (p, k) · rhs (k, q). -/
theorem sum_contr {φ₁ φ₂ : FTy} (lhs : FVec Ideal ⟨2, ![M, K]⟩ φ₁) (rhs : FVec Ideal ⟨2, ![K, N]⟩ φ₂)
    (p : Fin M) (q : Fin N) :
    (∑ κ : (DotDims.plain M K N).contr.Idx,
        lhs ((DotDims.plain M K N).lhsIdx (ix2 p q) κ) * rhs ((DotDims.plain M K N).rhsIdx (ix2 p q) κ) : EReal)
      = ∑ k : Fin K, lhs (ix2 p k) * rhs (ix2 k q) := by
  rw [← Equiv.sum_comp (kEquiv M K N).symm]
  exact Finset.sum_congr rfl fun k _ =>
    congrArg₂ (fun a b => (lhs a * rhs b : EReal)) (lhsIdx_plain p q k) (rhsIdx_plain p q k)

/-- The vector unit's product into the zero accumulator, at entry (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant (F := Ideal) ⟨2, ![M, N]⟩ .f32 0x00000000#32) (ix2 p q)
      = ∑ k : Fin K, lhs (ix2 p k) * rhs (ix2 k q) := by
  rw [Ideal.matmul_constant_zero_apply]
  exact sum_contr lhs rhs p q

/-- The host's `dot_general`, at entry (p, q). -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact sum_contr lhs rhs p q

end Cert.LibPlainDot

end
-- ==== Proof.KI.WeffValue.lean ====
import proofs.«164843_j86371792322948_2_alg».proof.Proof.Spec
import proofs.«164843_j86371792322948_2_alg».proof.Proof.LibPlainDot
import proofs.«164843_j86371792322948_2_alg».proof.Proof.KI.Weff
import Idealize.ShloMosaic.Lib.Pipeline.Value
import Idealize.ShloMosaic.Lib.ValueIdx
import Idealize.ShloMosaic.PureOps.Ideal.Laws

/-!
# What the first pallas_call leaves in its result array

On the extended reals a change of float format is the identity, so the body's payload at entry (p, q) of its
block is x0 (p, q) + 2 · Σ_r x1 (p, r) · x2 (r, q) over the three loaded blocks. At grid point t the W block and the
output block sit at the same block coordinates (i, j), the A block at (i, 0) and the B block at (0, j); so block
entry (p, q) is entry (1024 i + p, 1024 j + q) of the effective weight W + 2 · A · B of the whole arrays. Every point
writes its block back and the sixteen blocks tile the [4096, 4096] result, which therefore ends holding the effective
weight at every entry.
-/

set_option maxRecDepth 16384

noncomputable section

open scoped BigOperators

namespace Cert.KernelIdeal.WeffValue

open Idealize.ShloMosaic Idealize.ShloMosaic.TcCoe Idealize.SL.Sem
open Idealize.ShloMosaic.Pipeline (Dat)
open Idealize.ShloMosaic.ValueIdx
open Cert.KernelIdeal Cert.KernelIdeal.Gen

variable (V : (c : Dev nD) → (b : Ref sig .tc) → Buf (Elt Ideal) ((c : Thread nD τ).loc b))

/-! ## The specification, on the arrays -/

/-- The effective weight as ONE function of the three argument arrays: entry (d, e) is W (d, e) + 2 · Σ_r A (d, r) · B (r, e). -/
def weffArr (W : S4096x4096.Idx → EReal) (A : S4096x16.Idx → EReal) (B : S16x4096.Idx → EReal) : S4096x4096.Idx → EReal :=
  fun i => Cert.Spec.weff (Cert.Spec.at2 W) (Cert.Spec.at2 A) (Cert.Spec.at2 B) (i 0).val (i 1).val

/-! ## Where the four windows' blocks sit at a grid point -/

/-- The W block and the output block have the same block coordinates; the A block shares the row coordinate and is
    in column block 0; the B block is in row block 0 and shares the column coordinate. Decided over the 16 points. -/
theorem block_coords : ∀ t : Fin cfg0.N,
    win0_0.index t (0 : Fin 2) = win0_3.index t (0 : Fin 2) ∧ win0_0.index t (1 : Fin 2) = win0_3.index t (1 : Fin 2)
    ∧ win0_1.index t (0 : Fin 2) = win0_3.index t (0 : Fin 2) ∧ win0_1.index t (1 : Fin 2) = 0
    ∧ win0_2.index t (0 : Fin 2) = 0 ∧ win0_2.index t (1 : Fin 2) = win0_3.index t (1 : Fin 2)
    ∧ win0_3.index t (0 : Fin 2) ≤ 3 ∧ win0_3.index t (1 : Fin 2) ≤ 3 :=
  (by decide +kernel : ∀ t : Fin grid0.N, _)

/-- Every one of the 4 × 4 output blocks is some point's. -/
theorem block_onto : ∀ (i j : Fin 4), ∃ t : Fin cfg0.N, win0_3.index t = ![i.val, j.val] :=
  (by decide +kernel : ∀ (i j : Fin 4), ∃ t : Fin grid0.N, win0_3.index t = ![i.val, j.val])

/-! ## The payload at an entry -/

/-- Entry (p, q) of what the body stores, from the three loaded blocks. -/
theorem stored_apply (x0 : Vec Ideal S1024x1024 .f32) (x1 : Vec Ideal S1024x16 .f32) (x2 : Vec Ideal S16x1024 .f32)
    (p q : Fin 1024) :
    Weff.stored x0 x1 x2 (ix2 p q) = x0 (ix2 p q) + Cert.Spec.two * ∑ r : Fin 16, x1 (ix2 p r) * x2 (ix2 r q) := by
  rw [Weff.stored_eq]
  unfold k0_pay1
  refine congrArg (fun z => x0 (ix2 p q) + Cert.Spec.two * z) ?_
  exact Cert.LibPlainDot.matmul_zero_apply (M := 1024) (K := 16) (N := 1024) none _ _ p q

/-! ## The input blocks, read at natural coordinates -/

/-- Entry (p, q) of the W block at point t is W at row 1024 · (its row block) + p, column 1024 · (its column block) + q. -/
theorem blk_W_apply (c : Dev nD) (t : Fin cfg0.N) (p q : Fin 1024) :
    (Weff.blk V c 0 t : Vec Ideal S1024x1024 .f32) (ix2 p q)
      = Cert.Spec.at2 (V c main_arg1 : S4096x4096.Idx → EReal)
          (win0_0.index t (0 : Fin 2) * 1024 + p.val) (win0_0.index t (1 : Fin 2) * 1024 + q.val) := by
  unfold Weff.blk
  rw [View.read_apply]
  show (V c main_arg1 : S4096x4096.Idx → EReal) (((cfg0.win 0).blk t).view.emb (ix2 p q)) = _
  refine (Cert.Spec.at2_idx _ _).symm.trans ?_
  refine congrArg₂ (Cert.Spec.at2 _) ?_ ?_
  · show win0_0.index t (0 : Fin 2) * 1024 + 1 * p.val = _; omega
  · show win0_0.index t (1 : Fin 2) * 1024 + 1 * q.val = _; omega

/-- Entry (p, r) of the A block. -/
theorem blk_A_apply (c : Dev nD) (t : Fin cfg0.N) (p : Fin 1024) (r : Fin 16) :
    (Weff.blk V c 1 t : Vec Ideal S1024x16 .f32) (ix2 p r)
      = Cert.Spec.at2 (V c main_arg3 : S4096x16.Idx → EReal)
          (win0_1.index t (0 : Fin 2) * 1024 + p.val) (win0_1.index t (1 : Fin 2) * 16 + r.val) := by
  unfold Weff.blk
  rw [View.read_apply]
  show (V c main_arg3 : S4096x16.Idx → EReal) (((cfg0.win 1).blk t).view.emb (ix2 p r)) = _
  refine (Cert.Spec.at2_idx _ _).symm.trans ?_
  refine congrArg₂ (Cert.Spec.at2 _) ?_ ?_
  · show win0_1.index t (0 : Fin 2) * 1024 + 1 * p.val = _; omega
  · show win0_1.index t (1 : Fin 2) * 16 + 1 * r.val = _; omega

/-- Entry (r, q) of the B block. -/
theorem blk_B_apply (c : Dev nD) (t : Fin cfg0.N) (r : Fin 16) (q : Fin 1024) :
    (Weff.blk V c 2 t : Vec Ideal S16x1024 .f32) (ix2 r q)
      = Cert.Spec.at2 (V c main_arg4 : S16x4096.Idx → EReal)
          (win0_2.index t (0 : Fin 2) * 16 + r.val) (win0_2.index t (1 : Fin 2) * 1024 + q.val) := by
  unfold Weff.blk
  rw [View.read_apply]
  show (V c main_arg4 : S16x4096.Idx → EReal) (((cfg0.win 2).blk t).view.emb (ix2 r q)) = _
  refine (Cert.Spec.at2_idx _ _).symm.trans ?_
  refine congrArg₂ (Cert.Spec.at2 _) ?_ ?_
  · show win0_2.index t (0 : Fin 2) * 16 + 1 * r.val = _; omega
  · show win0_2.index t (1 : Fin 2) * 1024 + 1 * q.val = _; omega

/-! ## What a point writes back -/

/-- Entry (p, q) of what the body leaves at point t is the effective weight at the entry of the whole array that
    the output block's (p, q) is. -/
theorem stored_blocks (c : Dev nD) (t : Fin cfg0.N) (p q : Fin 1024) :
    Weff.stored (Weff.blk V c 0 t) (Weff.blk V c 1 t) (Weff.blk V c 2 t) (ix2 p q)
      = Cert.Spec.weff (Cert.Spec.at2 (V c main_arg1 : S4096x4096.Idx → EReal)) (Cert.Spec.at2 (V c main_arg3 : S4096x16.Idx → EReal))
          (Cert.Spec.at2 (V c main_arg4 : S16x4096.Idx → EReal))
          (win0_3.index t (0 : Fin 2) * 1024 + p.val) (win0_3.index t (1 : Fin 2) * 1024 + q.val) := by
  obtain ⟨e0, e1, e2, e3, e4, e5, -, -⟩ := block_coords t
  refine (stored_apply (Weff.blk V c 0 t) (Weff.blk V c 1 t) (Weff.blk V c 2 t) p q).trans ?_
  unfold Cert.Spec.weff
  refine congrArg₂ (fun a s => a + Cert.Spec.two * s) ?_ ?_
  · rw [blk_W_apply V c t p q, e0, e1]
  · rw [← Fin.sum_univ_eq_sum_range (fun r => Cert.Spec.at2 (V c main_arg3 : S4096x16.Idx → EReal) (win0_3.index t (0 : Fin 2) * 1024 + p.val) r
        * Cert.Spec.at2 (V c main_arg4 : S16x4096.Idx → EReal) r (win0_3.index t (1 : Fin 2) * 1024 + q.val)) 16]
    refine Finset.sum_congr rfl fun r _ => ?_
    rw [blk_A_apply V c t p r, blk_B_apply V c t r q, e2, e3, e4, e5, Nat.zero_mul, Nat.zero_add]

/-- The same at an index of the block, against the index of the array under it. -/
theorem stored_at (c : Dev nD) (t : Fin cfg0.N) (y : S1024x1024.Idx) :
    Weff.stored (Weff.blk V c 0 t) (Weff.blk V c 1 t) (Weff.blk V c 2 t) y
      = weffArr (V c main_arg1) (V c main_arg3) (V c main_arg4) (((cfg0.win 3).blk t).view.emb y) := by
  obtain ⟨p, q, rfl⟩ : ∃ (p q : Fin 1024), y = ix2 p q := ⟨y 0, y 1, eq_ix2 y⟩
  refine (stored_blocks V c t p q).trans ?_
  unfold weffArr
  refine congrArg₂ (Cert.Spec.weff _ _ _) ?_ ?_
  · show _ = win0_3.index t (0 : Fin 2) * 1024 + 1 * p.val; omega
  · show _ = win0_3.index t (1 : Fin 2) * 1024 + 1 * q.val; omega

/-- What point t writes back is block t of the effective weight of the arrays as the region finds them. -/
theorem flushed_eq (c : Dev nD) (t : Fin cfg0.N) :
    (Weff.dat V c).flushed 3 t
      = ((cfg0.win 3).blk t).view.read (Elt Ideal) (weffArr (V c main_arg1) (V c main_arg3) (V c main_arg4)) := by
  show (cfg0.win 3).cut (grid0.coords t) ((Weff.dat V c).after 3 t) = _
  rw [Weff.dat_after_out]
  funext y
  exact stored_at V c t y

/-! ## The result array -/

/-- Every point writes its block back and the blocks tile the array: entry (d, e) is in the block of the point whose
    output block coordinates are (d / 1024, e / 1024). So the array ends holding the effective weight everywhere. -/
theorem final_weff (c : Dev nD) :
    (Weff.dat V c).arrAt 3 cfg0.N = weffArr (V c main_arg1) (V c main_arg3) (V c main_arg4) :=
  (Weff.dat V c).arrAt_eq_of_cover 3 (weffArr (V c main_arg1) (V c main_arg3) (V c main_arg4)) (fun t _ => flushed_eq V c t) fun i => by
    have hi0 : (i 0 : Nat) < 4096 := (i 0).isLt
    have hi1 : (i 1 : Nat) < 4096 := (i 1).isLt
    obtain ⟨t, ht⟩ := block_onto ⟨(i 0 : Nat) / 1024, by omega⟩ ⟨(i 1 : Nat) / 1024, by omega⟩
    have q0 : win0_3.index t (0 : Fin 2) = (i 0 : Nat) / 1024 := congrFun ht 0
    have q1 : win0_3.index t (1 : Fin 2) = (i 1 : Nat) / 1024 := congrFun ht 1
    refine ⟨t, flush0_3 t, ?_⟩
    show i ∈ ((View.whole main_v0).slice (win0_3.rect t)).set
    rw [View.set_slice_whole, Rect.mem_set_unit]
    intro a
    match a with
    | ⟨0, _⟩ =>
      show win0_3.index t (0 : Fin 2) * 1024 ≤ (i 0 : Nat) ∧ (i 0 : Nat) < win0_3.index t (0 : Fin 2) * 1024 + 1024
      omega
    | ⟨1, _⟩ =>
      show win0_3.index t (1 : Fin 2) * 1024 ≤ (i 1 : Nat) ∧ (i 1 : Nat) < win0_3.index t (1 : Fin 2) * 1024 + 1024
      omega

end Cert.KernelIdeal.WeffValue

end
-- ==== Proof.KI.AccValue.lean ====
import proofs.«164843_j86371792322948_2_alg».proof.Proof.KI.Acc
import Idealize.ShloMosaic.Lib.Pipeline.Value
set_option maxRecDepth 16384
noncomputable section
namespace Cert.KernelIdeal.Acc
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # The accumulating matmul region: the values of the found pieces

Every store of the body writes a whole buffer through the rectangle at offset zero, and every load reads one
through the same rectangle. So the pieces a case's run found read back as the payloads themselves, over the
buffers' contents: where `k = 0` the accumulator ends at the zero block plus the product; elsewhere at what it
held plus the product; and where `k = 7` the output window ends at that sum plus the broadcast bias row. -/

/-- The offsets of every access of the body. -/
theorem hz : (![0, 0] : Fin 2 → Nat) = fun _ => 0 := funext fun a => by fin_cases a <;> rfl

/-! ## Case by case -/

/-- Where `k = 0`: the zero block is stored, read back, and the sum with the product stored over it. -/
theorem soutFirst_eq (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : first i) (hc1 : ¬last i)
    (x0 : Vec F S1024x512 .f32) (x1 : Vec F S512x2048 .bf16) (x2 : Vec F S1x2048 .f32) :
    soutFirst c i arg3 harg3 arg4 harg4 arg5 harg5 arg6 harg6 arg7 harg7 hc0 hc1 x0 x1 x2 = k1_pay2 x0 (k1_pay1 (F := F)) x1 := by
  unfold soutFirst
  rw [View.read_writes_eq_canon _ _ _ (scoverFirst c i arg3 harg3 arg4 harg4 arg5 harg5 arg6 harg6 arg7 harg7 hc0 hc1 x0 x1 x2)]
  unfold runFirst
  dsimp only
  sl_unfold_words
  rw [View.canon_cons_unit_zero (S := S1024x2048) hz, View.readCov_unit_zero (S := S1024x2048) _ hz]
  simp only [View.readAt_eq_ld, harg3.read_unread, harg4.read_unread, View.ld_unit_zero (S := S1024x512) hz, View.ld_unit_zero (S := S512x2048) hz, View.ld_unit_zero (S := S1x2048) hz, View.ld_unit_zero (S := S1024x2048) hz]

/-- Where `0 < k < 7`: the accumulator's contents are loaded and their sum with the product stored. -/
theorem soutMid_eq (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬first i) (hc1 : ¬last i)
    (x0 : Vec F S1024x512 .f32) (x1 : Vec F S512x2048 .bf16) (x2 : Vec F S1x2048 .f32) (xs : Vec F S1024x2048 .f32) :
    soutMid c i arg3 harg3 arg4 harg4 arg5 harg5 arg6 harg6 arg7 harg7 hc0 hc1 x0 x1 x2 xs = k1_pay2 x0 xs x1 := by
  unfold soutMid
  rw [View.read_writes_eq_canon _ _ _ (scoverMid c i arg3 harg3 arg4 harg4 arg5 harg5 arg6 harg6 arg7 harg7 hc0 hc1 x0 x1 x2 xs)]
  unfold runMid
  dsimp only
  sl_unfold_words
  rw [View.canon_unit_zero (S := S1024x2048) hz]
  simp only [View.readAt_eq_ld, harg3.read_unread, harg4.read_unread, harg7.read_unread, View.ld_unit_zero (S := S1024x512) hz, View.ld_unit_zero (S := S512x2048) hz, View.ld_unit_zero (S := S1x2048) hz, View.ld_unit_zero (S := S1024x2048) hz]

/-- Where `k = 7` the accumulator is updated the same way, -/
theorem soutLast_eq (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬first i) (hc1 : last i)
    (x0 : Vec F S1024x512 .f32) (x1 : Vec F S512x2048 .bf16) (x2 : Vec F S1x2048 .f32) (xs : Vec F S1024x2048 .f32) :
    soutLast c i arg3 harg3 arg4 harg4 arg5 harg5 arg6 harg6 arg7 harg7 hc0 hc1 x0 x1 x2 xs = k1_pay2 x0 xs x1 := by
  unfold soutLast
  rw [View.read_writes_eq_canon _ _ _ (scoverLast c i arg3 harg3 arg4 harg4 arg5 harg5 arg6 harg6 arg7 harg7 hc0 hc1 x0 x1 x2 xs)]
  unfold runLast
  dsimp only
  sl_unfold_words
  rw [View.canon_unit_zero (S := S1024x2048) hz]
  simp only [View.readAt_eq_ld, harg3.read_unread, harg4.read_unread, harg7.read_unread, View.ld_unit_zero (S := S1024x512) hz, View.ld_unit_zero (S := S512x2048) hz, View.ld_unit_zero (S := S1x2048) hz, View.ld_unit_zero (S := S1024x2048) hz]

/-- and the output window receives the updated accumulator, read back, plus the broadcast bias row. -/
theorem outLast_eq (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬first i) (hc1 : last i)
    (x0 : Vec F S1024x512 .f32) (x1 : Vec F S512x2048 .bf16) (x2 : Vec F S1x2048 .f32) (xs : Vec F S1024x2048 .f32) :
    outLast c i arg3 harg3 arg4 harg4 arg5 harg5 arg6 harg6 arg7 harg7 hc0 hc1 x0 x1 x2 xs = k1_pay3 (k1_pay2 x0 xs x1) x2 := by
  unfold outLast
  rw [View.read_writes_eq_canon _ _ _ (coverLast c i arg3 harg3 arg4 harg4 arg5 harg5 arg6 harg6 arg7 harg7 hc0 hc1 x0 x1 x2 xs)]
  unfold runLast
  dsimp only
  sl_unfold_words
  rw [View.canon_unit_zero (S := S1024x2048) hz, View.readCov_unit_zero (S := S1024x2048) _ hz]
  simp only [View.readAt_eq_ld, harg3.read_unread, harg4.read_unread, harg5.read_unread, harg7.read_unread, View.ld_unit_zero (S := S1024x512) hz, View.ld_unit_zero (S := S512x2048) hz, View.ld_unit_zero (S := S1x2048) hz, View.ld_unit_zero (S := S1024x2048) hz]

/-! ## Along the grid -/

/-- Where `k = 0` the accumulator ends at the zero block plus the product of the point's blocks. -/
theorem heldAt_first (c : Dev nD) (t : Fin cfg1.N) (h : t.val % 8 = 0) :
    (heldAt V c t.val t.isLt).2 = Gen.k1_pay2 (blk V c 0 t) (Gen.k1_pay1 (F := F)) (blk V c 1 t) := by
  rw [heldAt_First V c t h (by omega)]
  dsimp only
  rw [soutFirst_eq]

/-- Where `k ≠ 0` it ends at what the point before left plus the product of the point's blocks. -/
theorem heldAt_next (c : Dev nD) (t : Fin cfg1.N) (h : t.val % 8 ≠ 0) :
    (heldAt V c t.val t.isLt).2 = Gen.k1_pay2 (blk V c 0 t) (heldAt V c (t.val - 1) (Nat.lt_of_le_of_lt (Nat.sub_le _ _) t.isLt)).2 (blk V c 1 t) := by
  by_cases h7 : t.val % 8 = 7
  · rw [heldAt_Last V c t h h7]
    dsimp only
    rw [soutLast_eq]
  · rw [heldAt_Mid V c t h h7]
    dsimp only
    rw [soutMid_eq]

/-- Where `k = 7` the output window's buffer ends at the accumulator's final contents plus the broadcast bias row. -/
theorem heldAt_last (c : Dev nD) (t : Fin cfg1.N) (h : t.val % 8 = 7) :
    (heldAt V c t.val t.isLt).1 = Gen.k1_pay3 (heldAt V c t.val t.isLt).2 (blk V c 2 t) := by
  rw [heldAt_Last V c t (by omega) h]
  dsimp only
  rw [outLast_eq, soutLast_eq]

end Cert.KernelIdeal.Acc

end
-- ==== Proof.KI.AccPay.lean ====
/-
  The three payloads of the accumulating kernel read at one entry, on the extended reals, and its index maps over
  the grid.

  At a grid point the body adds to the accumulator the product of a [1024, 512] block of x (rounded to bf16, which
  on the extended reals changes nothing) with a [512, 2048] block of the effective weight: entry (p, q) of the new
  accumulator is the old entry plus Σ_j x (p, j) · w (j, q).  The block stored at the first point of a run is all
  zeros, and at the last point the result block is the accumulator plus the bias row broadcast over the rows.
  Point t of the 16 × 2 × 8 grid is (t / 16, t / 8 mod 2, t mod 8); the x block is (t / 16, t mod 8), the weight
  block (t mod 8, t / 8 mod 2), the bias block (0, t / 8 mod 2) and the result block (t / 16, t / 8 mod 2).
-/
import proofs.«164843_j86371792322948_2_alg».proof.Proof.Gen.KernelIdeal.Skeleton
import proofs.«164843_j86371792322948_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.AccPay

open Idealize.ShloMosaic Idealize.ShloMosaic.ValueIdx
open Cert.KernelIdeal Cert.KernelIdeal.Gen

/-- The block the first point of a run stores into the accumulator is zero everywhere. -/
theorem zero_apply (p : Fin 1024) (q : Fin 2048) : (k1_pay1 (F := Ideal)) (ix2 p q) = 0 := by
  unfold k1_pay1
  simp only [shapeCast_self]
  exact Ideal.ofBits_zero_f32

/-- One accumulation step at entry (p, q): the old entry plus the row of the x block against the column of the
    weight block. -/
theorem step_apply (x : Vec Ideal S1024x512 .f32) (acc : Vec Ideal S1024x2048 .f32) (w : Vec Ideal S512x2048 .bf16)
    (p : Fin 1024) (q : Fin 2048) :
    k1_pay2 x acc w (ix2 p q) = acc (ix2 p q) + ∑ j : Fin 512, x (ix2 p j) * w (ix2 j q) := by
  unfold k1_pay2
  simp only [shapeCast_self]
  refine congrArg (fun s : EReal => acc (ix2 p q) + s) ?_
  exact Cert.LibPlainDot.matmul_zero_apply (M := 1024) (K := 512) (N := 2048) none
    (truncf .bf16 x bitsLt_bf16_f32) w p q

/-- The last point's result block at entry (p, q): the accumulator's entry plus the bias row's entry q. -/
theorem last_apply (acc : Vec Ideal S1024x2048 .f32) (b : Vec Ideal S1x2048 .f32) (p : Fin 1024) (q : Fin 2048) :
    k1_pay3 acc b (ix2 p q) = acc (ix2 p q) + b (ix2 (0 : Fin 1) q) := by
  unfold k1_pay3
  simp only [shapeCast_self]
  exact congrArg (fun s : EReal => acc (ix2 p q) + s)
    (broadcastTo_1b_ab_apply (a := 1024) (b := 2048) b broadcasts_S1x2048_S1024x2048 p q)

/-- The four windows' block indices at every point of the grid. -/
theorem idx_facts : ∀ t : Fin cfg1.N,
    win1_0.index t (0 : Fin 2) = t.val / 16 ∧ win1_0.index t (1 : Fin 2) = t.val % 8
    ∧ win1_1.index t (0 : Fin 2) = t.val % 8 ∧ win1_1.index t (1 : Fin 2) = t.val / 8 % 2
    ∧ win1_2.index t (0 : Fin 2) = 0 ∧ win1_2.index t (1 : Fin 2) = t.val / 8 % 2
    ∧ win1_3.index t (0 : Fin 2) = t.val / 16 ∧ win1_3.index t (1 : Fin 2) = t.val / 8 % 2 :=
  (by decide +kernel : ∀ t : Fin grid1.N,
    win1_0.index t (0 : Fin 2) = t.val / 16 ∧ win1_0.index t (1 : Fin 2) = t.val % 8
    ∧ win1_1.index t (0 : Fin 2) = t.val % 8 ∧ win1_1.index t (1 : Fin 2) = t.val / 8 % 2
    ∧ win1_2.index t (0 : Fin 2) = 0 ∧ win1_2.index t (1 : Fin 2) = t.val / 8 % 2
    ∧ win1_3.index t (0 : Fin 2) = t.val / 16 ∧ win1_3.index t (1 : Fin 2) = t.val / 8 % 2)

end Cert.KernelIdeal.AccPay

end
-- ==== Proof.KI.AccFold.lean ====
/-
  What the result array of the accumulating region holds after the region, index by index, on the extended reals.

  The grid runs the contraction axis innermost, eight points to a run.  Over one run the accumulator starts from the
  zero block and takes, at the run's s-th point, the product of the x block (row block, s) with the weight block
  (s, column block); the run's last point writes the accumulator plus the bias row into the result block, and only
  that point writes the block back.  So entry (I, J) of the result array is
  (0 + Σ_{s<8} Σ_{j<512} x (I, 512 s + j) · w (512 s + j, J)) + bias (0, J): the accumulator after the last point is
  the fold over its run, a fold of additions is the zero plus the sum of the addends, and the last points' blocks tile
  the array.
-/
import proofs.«164843_j86371792322948_2_alg».proof.Proof.KI.AccValue
import proofs.«164843_j86371792322948_2_alg».proof.Proof.KI.AccPay
import proofs.«164843_j86371792322948_2_alg».proof.Proof.Spec

noncomputable section

open scoped BigOperators

namespace Cert.KernelIdeal.AccFold

open Idealize.ShloMosaic Idealize.ShloMosaic.TcCoe Idealize.ShloMosaic.ValueIdx Idealize.SL.Sem
open Idealize.ShloMosaic.Pipeline (Dat)
open Cert.KernelIdeal Cert.KernelIdeal.Gen Cert.Spec Cert.KernelIdeal.AccPay

variable (V : (c : Dev nD) → (b : Ref sig .tc) → Buf (Elt Ideal) ((c : Thread nD τ).loc b))

/-- The three arrays the region reads, as it finds them. -/
abbrev xArr (c : Dev nD) : S16384x4096.Idx → EReal := V c main_v1
abbrev wArr (c : Dev nD) : S4096x4096.Idx → EReal := V c main_v0
abbrev bArr (c : Dev nD) : S1x4096.Idx → EReal := V c main_v2

/-! ## The windows' blocks at natural coordinates -/

theorem x_blk (c : Dev nD) (t : Fin cfg1.N) (p : Fin 1024) (j : Fin 512) :
    (Acc.blk V c 0 t : Vec Ideal S1024x512 .f32) (ix2 p j)
      = at2 (xArr V c) (t.val / 16 * 1024 + p.val) (t.val % 8 * 512 + j.val) := by
  obtain ⟨e0, e1, -⟩ := idx_facts t
  unfold Acc.blk
  rw [View.read_apply]
  show xArr V c (((cfg1.win 0).blk t).view.emb (ix2 p j)) = _
  rw [← at2_idx (xArr V c) (((cfg1.win 0).blk t).view.emb (ix2 p j))]
  have h0 : ((((cfg1.win 0).blk t).view.emb (ix2 p j)) 0).val = t.val / 16 * 1024 + p.val := by
    show win1_0.index t (0 : Fin 2) * 1024 + 1 * p.val = _; rw [e0]; omega
  have h1 : ((((cfg1.win 0).blk t).view.emb (ix2 p j)) 1).val = t.val % 8 * 512 + j.val := by
    show win1_0.index t (1 : Fin 2) * 512 + 1 * j.val = _; rw [e1]; omega
  rw [h0, h1]

theorem w_blk (c : Dev nD) (t : Fin cfg1.N) (j : Fin 512) (q : Fin 2048) :
    (Acc.blk V c 1 t : Vec Ideal S512x2048 .bf16) (ix2 j q)
      = at2 (wArr V c) (t.val % 8 * 512 + j.val) (t.val / 8 % 2 * 2048 + q.val) := by
  obtain ⟨-, -, e2, e3, -⟩ := idx_facts t
  unfold Acc.blk
  rw [View.read_apply]
  show wArr V c (((cfg1.win 1).blk t).view.emb (ix2 j q)) = _
  rw [← at2_idx (wArr V c) (((cfg1.win 1).blk t).view.emb (ix2 j q))]
  have h0 : ((((cfg1.win 1).blk t).view.emb (ix2 j q)) 0).val = t.val % 8 * 512 + j.val := by
    show win1_1.index t (0 : Fin 2) * 512 + 1 * j.val = _; rw [e2]; omega
  have h1 : ((((cfg1.win 1).blk t).view.emb (ix2 j q)) 1).val = t.val / 8 % 2 * 2048 + q.val := by
    show win1_1.index t (1 : Fin 2) * 2048 + 1 * q.val = _; rw [e3]; omega
  rw [h0, h1]

theorem b_blk (c : Dev nD) (t : Fin cfg1.N) (q : Fin 2048) :
    (Acc.blk V c 2 t : Vec Ideal S1x2048 .f32) (ix2 (0 : Fin 1) q)
      = at2 (bArr V c) 0 (t.val / 8 % 2 * 2048 + q.val) := by
  obtain ⟨-, -, -, -, e4, e5, -⟩ := idx_facts t
  unfold Acc.blk
  rw [View.read_apply]
  show bArr V c (((cfg1.win 2).blk t).view.emb (ix2 (0 : Fin 1) q)) = _
  rw [← at2_idx (bArr V c) (((cfg1.win 2).blk t).view.emb (ix2 (0 : Fin 1) q))]
  have h0 : ((((cfg1.win 2).blk t).view.emb (ix2 (0 : Fin 1) q)) 0).val = 0 := by
    show win1_2.index t (0 : Fin 2) * 1 + 1 * 0 = _; rw [e4]
  have h1 : ((((cfg1.win 2).blk t).view.emb (ix2 (0 : Fin 1) q)) 1).val = t.val / 8 % 2 * 2048 + q.val := by
    show win1_2.index t (1 : Fin 2) * 2048 + 1 * q.val = _; rw [e5]; omega
  rw [h0, h1]

/-! ## The accumulator over a run -/

/-- What point `n` adds to entry `y` of the accumulator block. -/
def addend (c : Dev nD) (n : ℕ) (y : S1024x2048.Idx) : EReal :=
  ∑ j ∈ Finset.range 512, at2 (xArr V c) (n / 16 * 1024 + (y 0).val) (n % 8 * 512 + j)
    * at2 (wArr V c) (n % 8 * 512 + j) (n / 8 % 2 * 2048 + (y 1).val)

/-- One step at point `t`, whatever the accumulator holds. -/
theorem step_blk (c : Dev nD) (t : Fin cfg1.N) (acc : Vec Ideal S1024x2048 .f32) (y : S1024x2048.Idx) :
    k1_pay2 (Acc.blk V c 0 t) acc (Acc.blk V c 1 t) y = acc y + addend V c t.val y := by
  obtain ⟨p, q, rfl⟩ : ∃ (p : Fin 1024) (q : Fin 2048), y = ix2 p q := ⟨y 0, y 1, eq_ix2 y⟩
  rw [step_apply]
  refine congrArg (fun s : EReal => acc (ix2 p q) + s) ?_
  rw [Finset.sum_congr rfl (fun j _ => congrArg₂ (fun a b : EReal => a * b) (x_blk V c t p j) (w_blk V c t j q))]
  exact Fin.sum_univ_eq_sum_range (fun j => at2 (xArr V c) (t.val / 16 * 1024 + p.val) (t.val % 8 * 512 + j)
    * at2 (wArr V c) (t.val % 8 * 512 + j) (t.val / 8 % 2 * 2048 + q.val)) 512

/-- The accumulator does not depend on how its position is written. -/
theorem held_congr (c : Dev nD) {n n' : ℕ} (e : n = n') (h : n < cfg1.N) (h' : n' < cfg1.N) :
    Acc.heldAt V c n h = Acc.heldAt V c n' h' := by subst e; rfl

/-- After the last point of run `r` the accumulator is the zero block plus the eight addends of the run. -/
theorem acc_run (c : Dev nD) (r : ℕ) (h : 8 * r + 7 < cfg1.N) (y : S1024x2048.Idx) :
    (Acc.heldAt V c (8 * r + 7) h).2 y = 0 + ∑ s ∈ Finset.range (7 + 1), addend V c (8 * r + s) y := by
  have hfold := Pipeline.eq_accAt (N := cfg1.N) (fun n hn => (Acc.heldAt V c n hn).2) 8
    (fun n hn => k1_pay2 (Acc.blk V c 0 ⟨n, hn⟩) (k1_pay1 (F := Ideal)) (Acc.blk V c 1 ⟨n, hn⟩))
    (fun n hn acc => k1_pay2 (Acc.blk V c 0 ⟨n, hn⟩) acc (Acc.blk V c 1 ⟨n, hn⟩))
    (fun n hn hm => Acc.heldAt_first V c ⟨n, hn⟩ hm)
    (fun n hn hm => Acc.heldAt_next V c ⟨n + 1, hn⟩ hm) r 7 (by decide) h
  refine (congrFun hfold y).trans ?_
  exact Pipeline.accAt_add_apply
    (fun n hn => k1_pay2 (Acc.blk V c 0 ⟨n, hn⟩) (k1_pay1 (F := Ideal)) (Acc.blk V c 1 ⟨n, hn⟩))
    (fun n hn acc => k1_pay2 (Acc.blk V c 0 ⟨n, hn⟩) acc (Acc.blk V c 1 ⟨n, hn⟩))
    (fun _ => (0 : EReal)) (addend V c) (8 * r) 7
    (fun hb i => by
      obtain ⟨p, q, rfl⟩ : ∃ (p : Fin 1024) (q : Fin 2048), i = ix2 p q := ⟨i 0, i 1, eq_ix2 i⟩
      exact (step_blk V c ⟨8 * r, hb⟩ (k1_pay1 (F := Ideal)) (ix2 p q)).trans
        (congrArg (fun s : EReal => s + addend V c (8 * r) (ix2 p q)) (zero_apply p q)))
    (fun n hn acc i _ _ => step_blk V c ⟨n, hn⟩ acc i) 7 le_rfl h y

/-! ## The result array -/

/-- The result array as ONE function of the three arrays the region reads. -/
def linArr (X : S16384x4096.Idx → EReal) (Wf : S4096x4096.Idx → EReal) (b2 : S1x4096.Idx → EReal) :
    S16384x4096.Idx → EReal :=
  fun i => kern (fun d => at2 X (i 0).val d) (fun d => at2 Wf d (i 1).val) (at2 b2 0 (i 1).val)

/-- What a last point writes back is its block of that function. -/
theorem flushed_eq (c : Dev nD) (t : Fin cfg1.N) (hf : (cfg1.win 3).flush t = true) :
    (Acc.dat V c).flushed 3 t
      = ((cfg1.win 3).blk t).view.read (Elt Ideal) (linArr (xArr V c) (wArr V c) (bArr V c)) := by
  have h7 : t.val % 8 = 7 := (flush1_3 t).mp hf
  have hN : t.val < 256 := lt_of_lt_of_eq t.isLt N_1
  show (cfg1.win 3).cut (grid1.coords t) ((Acc.dat V c).after 3 t) = _
  rw [Acc.dat_after_out, Acc.heldAt_last V c t h7]
  obtain ⟨-, -, -, -, -, -, e6, e7⟩ := idx_facts t
  funext y
  obtain ⟨p, q, rfl⟩ : ∃ (p : Fin 1024) (q : Fin 2048), y = ix2 p q := ⟨y 0, y 1, eq_ix2 y⟩
  rw [View.read_apply]
  show k1_pay3 (Acc.heldAt V c t.val t.isLt).2 (Acc.blk V c 2 t) (ix2 p q)
    = linArr (xArr V c) (wArr V c) (bArr V c) (((cfg1.win 3).blk t).view.emb (ix2 p q))
  have hq : t.val = 8 * (t.val / 8) + 7 := by omega
  have h0 : ((((cfg1.win 3).blk t).view.emb (ix2 p q)) 0).val = t.val / 16 * 1024 + p.val := by
    show win1_3.index t (0 : Fin 2) * 1024 + 1 * p.val = _; rw [e6]; omega
  have h1 : ((((cfg1.win 3).blk t).view.emb (ix2 p q)) 1).val = t.val / 8 % 2 * 2048 + q.val := by
    show win1_3.index t (1 : Fin 2) * 2048 + 1 * q.val = _; rw [e7]; omega
  rw [last_apply, b_blk V c t q, held_congr V c hq t.isLt (by omega), acc_run V c (t.val / 8) (by omega) (ix2 p q)]
  unfold linArr kern
  rw [h0, h1]
  refine congrArg (fun s : EReal => (0 + s) + at2 (bArr V c) 0 (t.val / 8 % 2 * 2048 + q.val)) ?_
  refine Finset.sum_congr rfl fun s hs => ?_
  have hs8 : s < 8 := Finset.mem_range.mp hs
  unfold addend
  refine Finset.sum_congr rfl fun j _ => ?_
  show at2 (xArr V c) ((8 * (t.val / 8) + s) / 16 * 1024 + p.val) ((8 * (t.val / 8) + s) % 8 * 512 + j)
      * at2 (wArr V c) ((8 * (t.val / 8) + s) % 8 * 512 + j) ((8 * (t.val / 8) + s) / 8 % 2 * 2048 + q.val)
    = at2 (xArr V c) (t.val / 16 * 1024 + p.val) (512 * s + j) * at2 (wArr V c) (512 * s + j) (t.val / 8 % 2 * 2048 + q.val)
  rw [show (8 * (t.val / 8) + s) / 16 = t.val / 16 from by omega, show (8 * (t.val / 8) + s) % 8 * 512 + j = 512 * s + j from by omega,
    show (8 * (t.val / 8) + s) / 8 % 2 = t.val / 8 % 2 from by omega]

/-- An index of the array lies in point `t`'s block iff each coordinate is in the block's range. -/
theorem mem_blk (t : Fin cfg1.N) (i : S16384x4096.Idx) :
    i ∈ ((cfg1.win 3).blk t).view.set ↔ ∀ a : Fin 2, win1_3.index t a * S1024x2048.size a ≤ (i a).val
      ∧ (i a).val < win1_3.index t a * S1024x2048.size a + S1024x2048.size a := by
  show i ∈ ((View.whole main_v3).slice (win1_3.rect t)).set ↔ _
  rw [View.set_slice_whole, Rect.mem_set_unit]
  exact Iff.rfl

/-- THE RESULT ARRAY after the region. -/
theorem final_lin (c : Dev nD) :
    (Acc.dat V c).arrAt 3 cfg1.N = linArr (xArr V c) (wArr V c) (bArr V c) :=
  (Acc.dat V c).arrAt_eq_of_cover 3 _ (flushed_eq V c) fun i => by
    have hi0 : (i 0).val < 16384 := (i 0).isLt
    have hi1 : (i 1).val < 4096 := (i 1).isLt
    have hN : cfg1.N = 256 := N_1
    refine ⟨⟨16 * ((i 0).val / 1024) + 8 * ((i 1).val / 2048) + 7, by omega⟩, (flush1_3 _).mpr (by show (16 * ((i 0).val / 1024) + 8 * ((i 1).val / 2048) + 7) % 8 = 7; omega), ?_⟩
    rw [mem_blk]
    obtain ⟨-, -, -, -, -, -, e6, e7⟩ := idx_facts ⟨16 * ((i 0).val / 1024) + 8 * ((i 1).val / 2048) + 7, by omega⟩
    intro a
    match a with
    | ⟨0, _⟩ =>
      show win1_3.index _ (0 : Fin 2) * 1024 ≤ (i 0).val ∧ (i 0).val < win1_3.index _ (0 : Fin 2) * 1024 + 1024
      rw [e6]; show (16 * ((i 0).val / 1024) + 8 * ((i 1).val / 2048) + 7) / 16 * 1024 ≤ (i 0).val ∧ (i 0).val < (16 * ((i 0).val / 1024) + 8 * ((i 1).val / 2048) + 7) / 16 * 1024 + 1024
      omega
    | ⟨1, _⟩ =>
      show win1_3.index _ (1 : Fin 2) * 2048 ≤ (i 1).val ∧ (i 1).val < win1_3.index _ (1 : Fin 2) * 2048 + 2048
      rw [e7]; show (16 * ((i 0).val / 1024) + 8 * ((i 1).val / 2048) + 7) / 8 % 2 * 2048 ≤ (i 1).val ∧ (i 1).val < (16 * ((i 0).val / 1024) + 8 * ((i 1).val / 2048) + 7) / 8 % 2 * 2048 + 2048
      omega

end Cert.KernelIdeal.AccFold

end
-- ==== Proof.KI.Result.lean ====
import proofs.«164843_j86371792322948_2_alg».proof.Proof.Spec
import proofs.«164843_j86371792322948_2_alg».proof.Proof.KI.WeffValue
import proofs.«164843_j86371792322948_2_alg».proof.Proof.KI.Run
import proofs.«164843_j86371792322948_2_alg».proof.Proof.KI.AccFold
import Idealize.ShloMosaic.Lib.Pipeline.Value
import Idealize.ShloMosaic.Lib.ValueIdx
import Idealize.ShloMosaic.Lib.ValueLayout
import Idealize.ShloMosaic.Lib.StableHlo.Run

/-!
# The program's result, entry by entry

The result buffer is the last reshape of the second region's result array. Walking back through the segments:
the second region's array holds, at row I and column J, the eight-block accumulation of row I of the reshaped x
against column J of the first region's array, plus the bias row at J; the first region's array holds the effective
weight; the reshapes only renumber rows: row p · 4096 + q of the [16384, 4096] array is row (p, q) of the
[4, 4096, 4096] one, and the bias row is the bias vector. So entry (p, q, e) of the result is the accumulation
of x (p, q, ·) against the effective weight's column e, plus bias e.
-/

set_option maxRecDepth 16384

noncomputable section

open scoped BigOperators

namespace Cert.KernelIdeal.Result

open Idealize.ShloMosaic Idealize.ShloMosaic.TcCoe Idealize.SL.Sem
open Idealize.ShloMosaic.Pipeline (Dat)
open Idealize.ShloMosaic.ValueIdx
open Cert.KernelIdeal Cert.KernelIdeal.Gen

/-! ## The three reshapes at natural coordinates -/

/-- Row p · 4096 + q of the [16384, 4096] reshape of a [4, 4096, 4096] array is its row (p, q). -/
theorem at2_rows (x : S4x4096x4096.Idx → EReal) (h : S4x4096x4096.ShapeCasts S16384x4096) (p q d : ℕ)
    (hp : p < 4) (hq : q < 4096) :
    Cert.Spec.at2 (shapeCast S16384x4096 x h) (p * 4096 + q) d = Cert.Spec.at3 x p q d := by
  unfold Cert.Spec.at2 Cert.Spec.at3
  by_cases hd : d < 4096
  · rw [dif_pos (show p * 4096 + q < 16384 ∧ d < 4096 from ⟨by omega, hd⟩), dif_pos (show p < 4 ∧ q < 4096 ∧ d < 4096 from ⟨hp, hq, hd⟩)]
    exact shapeCast_apply x h _ _ (by rw [Shape.rowMajor_val_three, Shape.rowMajor_val_two]; rfl)
  · rw [dif_neg (fun h' => hd h'.2), dif_neg (fun h' => hd h'.2.2)]

/-- The one row of the [1, 4096] reshape of a vector is the vector. -/
theorem at2_biasrow (b : S4096.Idx → EReal) (h : S4096.ShapeCasts S1x4096) (e : ℕ) :
    Cert.Spec.at2 (shapeCast S1x4096 b h) 0 e = Cert.Spec.at1 b e := by
  unfold Cert.Spec.at2 Cert.Spec.at1
  by_cases he : e < 4096
  · rw [dif_pos (show 0 < 1 ∧ e < 4096 from ⟨by omega, he⟩), dif_pos he]
    exact shapeCast_a_1a_apply b h _ _
  · rw [dif_neg (fun h' => he h'.2), dif_neg he]

/-- Entry (p, q, e) of the [4, 4096, 4096] reshape of a [16384, 4096] array is its entry (p · 4096 + q, e). -/
theorem unrows (G : S16384x4096.Idx → EReal) (h : S16384x4096.ShapeCasts S4x4096x4096) (i : S4x4096x4096.Idx) :
    shapeCast S4x4096x4096 G h i = Cert.Spec.at2 G ((i 0).val * 4096 + (i 1).val) (i 2).val := by
  have h0 : (i 0).val < 4 := (i 0).isLt
  have h1 : (i 1).val < 4096 := (i 1).isLt
  have h2 : (i 2).val < 4096 := (i 2).isLt
  unfold Cert.Spec.at2
  rw [dif_pos (show (i 0).val * 4096 + (i 1).val < 16384 ∧ (i 2).val < 4096 from ⟨by omega, h2⟩)]
  exact shapeCast_apply G h i _ (by rw [Shape.rowMajor_val_three, Shape.rowMajor_val_two]; rfl)

/-! ## The effective weight at natural coordinates -/

/-- Inside the array, reading the effective-weight array at (d, e) is the effective weight at (d, e). -/
theorem weffArr_at (W : S4096x4096.Idx → EReal) (A : S4096x16.Idx → EReal) (B : S16x4096.Idx → EReal) (d e : ℕ)
    (hd : d < 4096) (he : e < 4096) :
    Cert.Spec.at2 (WeffValue.weffArr W A B) d e
      = Cert.Spec.weff (Cert.Spec.at2 W) (Cert.Spec.at2 A) (Cert.Spec.at2 B) d e :=
  Cert.Spec.at2_idx (WeffValue.weffArr W A B) (ix2 ⟨d, hd⟩ ⟨e, he⟩)

/-! ## The buffers between the segments, read -/

variable (m : (ℓ : Loc nD τ sig) → Buf (Elt Ideal) ℓ)

/-- The second region finds x as the [16384, 4096] reshape of the argument: the first region does not touch it. -/
theorem V2_x (c : Dev nD) :
    Run.V2 m c main_v1
      = shapeCast S16384x4096 (m ((c : Thread nD τ).loc main_arg0)) shapeCasts_S4x4096x4096_S16384x4096 := by
  show StableHlo.after hostOps1 (Run.W1 m c) (Proc.devRef .tc main_v1) = _
  after_results
  rw [Run.W1_of_ne m c main_arg0 (by decide)]
  rfl

/-- It finds the bias as the one-row reshape of the argument. -/
theorem V2_b (c : Dev nD) :
    Run.V2 m c main_v2 = shapeCast S1x4096 (m ((c : Thread nD τ).loc main_arg2)) shapeCasts_S4096_S1x4096 := by
  show StableHlo.after hostOps1 (Run.W1 m c) (Proc.devRef .tc main_v2) = _
  after_results
  rw [Run.W1_of_ne m c main_arg2 (by decide)]
  rfl

/-- It finds the first region's result array, which no reshape writes, at the effective weight of the arguments. -/
theorem V2_w (c : Dev nD) :
    Run.V2 m c main_v0
      = WeffValue.weffArr (m ((c : Thread nD τ).loc main_arg1)) (m ((c : Thread nD τ).loc main_arg3)) (m ((c : Thread nD τ).loc main_arg4)) := by
  show StableHlo.after hostOps1 (Run.W1 m c) (Proc.devRef .tc main_v0) = _
  rw [StableHlo.after_of_writes_sub hostOps1 _ hostOps1_writes (by decide)]
  exact (Run.W1_arr m c 3).trans (WeffValue.final_weff (Run.V0 m) c)

/-- The result buffer is the [4, 4096, 4096] reshape of the second region's result array. -/
theorem W4_out (c : Dev nD) :
    Run.W4 m c (Proc.devRef .tc main_v4)
      = shapeCast S4x4096x4096 (AccFold.linArr (Run.V2 m c main_v1) (Run.V2 m c main_v0) (Run.V2 m c main_v2))
          shapeCasts_S16384x4096_S4x4096x4096 := by
  show StableHlo.after hostOps2 (Run.W3 m c) (Proc.devRef .tc main_v4) = _
  after_results
  rw [show Run.W3 m c (Proc.devRef .tc main_v3) = AccFold.linArr (Run.V2 m c main_v1) (Run.V2 m c main_v0) (Run.V2 m c main_v2)
    from (Run.W3_arr m c 3).trans (AccFold.final_lin (Run.V2 m) c)]
  rfl

/-! ## The result at an entry -/

/-- Inside the array, reading the second region's result array at (P, e) is the accumulation of row P against
    column e plus the bias row at e. -/
theorem linArr_at (X : S16384x4096.Idx → EReal) (Wf : S4096x4096.Idx → EReal) (b2 : S1x4096.Idx → EReal) (P e : ℕ)
    (hP : P < 16384) (he : e < 4096) :
    Cert.Spec.at2 (AccFold.linArr X Wf b2) P e
      = Cert.Spec.kern (fun d => Cert.Spec.at2 X P d) (fun d => Cert.Spec.at2 Wf d e) (Cert.Spec.at2 b2 0 e) :=
  Cert.Spec.at2_idx (AccFold.linArr X Wf b2) (ix2 ⟨P, hP⟩ ⟨e, he⟩)

/-- Entry (p, q, e) of the result buffer: row (p, q) of x accumulated in eight blocks against column e of the
    effective weight of the arguments, plus bias e. -/
theorem out_apply (c : Dev nD) (i : S4x4096x4096.Idx) :
    Run.W4 m c (Proc.devRef .tc main_v4) i
      = Cert.Spec.kern (fun d => Cert.Spec.at3 (m ((c : Thread nD τ).loc main_arg0)) (i 0).val (i 1).val d)
          (fun d => Cert.Spec.weff (Cert.Spec.at2 (m ((c : Thread nD τ).loc main_arg1))) (Cert.Spec.at2 (m ((c : Thread nD τ).loc main_arg3)))
            (Cert.Spec.at2 (m ((c : Thread nD τ).loc main_arg4))) d (i 2).val)
          (Cert.Spec.at1 (m ((c : Thread nD τ).loc main_arg2)) (i 2).val) := by
  have h0 : (i 0).val < 4 := (i 0).isLt
  have h1 : (i 1).val < 4096 := (i 1).isLt
  have h2 : (i 2).val < 4096 := (i 2).isLt
  rw [W4_out m c, unrows, linArr_at _ _ _ _ _ (by omega) h2, V2_x m c, V2_b m c, V2_w m c, at2_biasrow]
  unfold Cert.Spec.kern
  refine congrArg (fun s : EReal => (0 + s) + Cert.Spec.at1 (m ((c : Thread nD τ).loc main_arg2)) (i 2).val) ?_
  refine Finset.sum_congr rfl fun s hs => Finset.sum_congr rfl fun j hj => ?_
  have hs8 : s < 8 := Finset.mem_range.mp hs
  have hj512 : j < 512 := Finset.mem_range.mp hj
  beta_reduce
  rw [at2_rows _ _ _ _ _ h0 h1, weffArr_at _ _ _ _ _ (by omega) h2]

end Cert.KernelIdeal.Result

end
-- ==== Proof.RefValue.lean ====
/-
  The reference program read at one entry of its result, on the extended reals.

  Entry (b, s, e) of the reference's result is (Σ_d x (b, s, d) · W (d, e) + bias e) plus the scaled low-rank term
  (Σ_r (Σ_d x (b, s, d) · A (d, r)) · B (r, e)) · 2: each stage of the straight-line program is read at an index
  through the stage-by-stage reading lemmas, the contraction indices are rewritten as natural coordinates, and the
  sums over a finite index type become sums over a range of naturals.
-/
import proofs.«164843_j86371792322948_2_alg».proof.Proof.Gen.ReferenceIdeal.Read
import proofs.«164843_j86371792322948_2_alg».proof.Proof.Spec

noncomputable section

open scoped BigOperators

namespace Cert.RefValue

open Idealize.ShloMosaic Idealize.ShloMosaic.ValueIdx
open Cert.ReferenceIdeal Cert.ReferenceIdeal.Read Cert.Spec

/-- The reference's result at entry `i` is `refr` of the row of x, the column of W, the factors A and B's column,
    and the bias entry that `i` selects. -/
theorem ref_apply (x : (⟨S4x4096x4096, .f32⟩ : BufTy).Contents (Elt Ideal)) (W : (⟨S4096x4096, .f32⟩ : BufTy).Contents (Elt Ideal))
    (bias : (⟨S4096, .f32⟩ : BufTy).Contents (Elt Ideal)) (A : (⟨S4096x16, .f32⟩ : BufTy).Contents (Elt Ideal))
    (B : (⟨S16x4096, .f32⟩ : BufTy).Contents (Elt Ideal)) (i : S4x4096x4096.Idx) :
    val_main_v8 (F := Ideal) x W bias A B i
      = refr (fun d => at3 x (i 0).val (i 1).val d) (fun d => at2 W d (i 2).val) (fun d r => at2 A d r)
          (fun r => at2 B r (i 2).val) (at1 bias (i 2).val) := by
  rw [val_main_v8_apply, val_main_v3_apply, val_main_v7_apply, val_main_v0_apply, val_main_v2_apply, val_main_v1_apply,
    val_main_v5_apply, val_main_v6_apply, val_main_cst_apply]
  simp only [val_main_v4_apply]
  unfold refr two
  have h0 : ∀ k : Fin 4096, x (lidx_main_v0 i k) * W (ridx_main_v0 i k)
      = (fun d => at3 x (i 0).val (i 1).val d * at2 W d (i 2).val) k.val := fun k =>
    congrArg₂ (fun a b : EReal => a * b) (at3_idx x (lidx_main_v0 i k)).symm (at2_idx W (ridx_main_v0 i k)).symm
  have h4 : ∀ (r : Fin 16) (k : Fin 4096), x (lidx_main_v4 (lidx_main_v5 i r) k) * A (ridx_main_v4 (lidx_main_v5 i r) k)
      = (fun d => at3 x (i 0).val (i 1).val d * at2 A d r.val) k.val := fun r k =>
    congrArg₂ (fun a b : EReal => a * b) (at3_idx x (lidx_main_v4 (lidx_main_v5 i r) k)).symm
      (at2_idx A (ridx_main_v4 (lidx_main_v5 i r) k)).symm
  have h5 : ∀ r : Fin 16, (∑ k : Fin 4096, x (lidx_main_v4 (lidx_main_v5 i r) k) * A (ridx_main_v4 (lidx_main_v5 i r) k))
        * B (ridx_main_v5 i r)
      = (fun r => (∑ d ∈ Finset.range 4096, at3 x (i 0).val (i 1).val d * at2 A d r) * at2 B r (i 2).val) r.val := fun r => by
    rw [Finset.sum_congr rfl (fun k _ => h4 r k),
      Fin.sum_univ_eq_sum_range (fun d => at3 x (i 0).val (i 1).val d * at2 A d r.val) 4096]
    exact congrArg _ (at2_idx B (ridx_main_v5 i r)).symm
  rw [Finset.sum_congr rfl (fun k _ => h0 k),
    Fin.sum_univ_eq_sum_range (fun d => at3 x (i 0).val (i 1).val d * at2 W d (i 2).val) 4096,
    Finset.sum_congr rfl (fun r _ => h5 r),
    Fin.sum_univ_eq_sum_range (fun r => (∑ d ∈ Finset.range 4096, at3 x (i 0).val (i 1).val d * at2 A d r) * at2 B r (i 2).val) 16]
  exact congrArg₂ (fun a b : EReal => a + b)
    (congrArg (fun t : EReal => (∑ d ∈ Finset.range 4096, at3 x (i 0).val (i 1).val d * at2 W d (i 2).val) + t)
      (at1_idx bias (idx_main_v1 (idx_main_v2 i))).symm) rfl

end Cert.RefValue

end
-- ==== Proof.Finite.lean ====
/-
  What the precondition says at the ideal instance, where a float is an extended real.

  The predicate takes, for each of the five argument arrays, the entrywise absolute value, compares it
  strictly below the constant whose pattern is sign 0, exponent all ones, fraction 0 — that is `⊤` —,
  and folds the resulting bits by `and` over every axis, starting from 1; the five bits are then joined
  by `and`.  The absolute value of an extended real `x` is `max x (-x)`, which is `⊤` at both `⊥` and `⊤`,
  so `max x (-x) < ⊤` holds exactly when `x` is a real number.  A conjunction that is 1 has every conjunct 1,
  and a fold by `and` that is 1 met only 1s.  Hence the predicate being 1 gives: every entry of every
  argument is a real number.
-/
import proofs.«164843_j86371792322948_2_alg».proof.Pre_finite_inputs
import proofs.«164843_j86371792322948_2_alg».proof.Proof.Spec
import Idealize.ShloMosaic.Lib.ReduceAll
import Idealize.ShloMosaic.PureOps.Ideal.Laws
import Idealize.ShloMosaic.Lib.ValueIdx

noncomputable section

namespace Cert.Finite

open Idealize.ShloMosaic Cert.Spec

/-- An extended real whose absolute value, `max x (-x)`, lies strictly below `⊤` is a real number:
    at `⊥` and at `⊤` that maximum is `⊤` itself. -/
theorem real_of_abs_lt_top (x : EReal) (h : max x (-x) < ⊤) : ∃ r : ℝ, x = (r : EReal) := by
  induction x using EReal.rec with
  | bot => simp at h
  | coe r => exact ⟨r, rfl⟩
  | top => simp at h

/-- The pattern `0x7F800000` (sign 0, exponent all ones, fraction 0) denotes `⊤`. -/
theorem inf_pattern : Ideal.ofBits .f32 0x7F800000#32 = (⊤ : EReal) := by
  simp [Ideal.ofBits, Ideal.ieee]

/-- The shape with no axes has exactly one index. -/
instance : Subsingleton Cert.Pre_finite_inputs.S_.Idx := ⟨fun a b => funext fun d => d.elim0⟩

/-- One entry: the comparison `|x i| < ⊤` coming out 1 says that `x i` is a real number.  The right-hand
    side is the constant spread over the whole shape, so at every index it reads the same pattern. -/
theorem real_of_lt_inf {s : Shape} {dims : Fin Cert.Pre_finite_inputs.S_.rank → Fin s.rank}
    (hb : Cert.Pre_finite_inputs.S_.BroadcastsInDim s dims) (x : FVec Ideal s .f32) (i : s.Idx)
    (h : cmpf .olt (Host.absf x)
          (broadcastInDim s dims hb (constant Cert.Pre_finite_inputs.S_ .f32 0x7F800000#32)) i = 1#1) :
    ∃ r : ℝ, x i = (r : EReal) := by
  apply real_of_abs_lt_top
  simp only [cmpf, Host.absf, broadcastInDim, constant] at h
  change Ideal.cmp .olt (max (x i) (-(x i))) (Ideal.ofBits .f32 0x7F800000#32) = 1#1 at h
  rw [inf_pattern] at h
  by_contra hn
  simp [Ideal.cmp, hn] at h

/-- One array: the bits `|x i| < ⊤` folded by `and` over every axis coming out 1 says that every entry
    of `x` is a real number. -/
theorem isReal_of_all {s : Shape} {dims : Fin Cert.Pre_finite_inputs.S_.rank → Fin s.rank} {axes : List (Fin s.rank)}
    (hb : Cert.Pre_finite_inputs.S_.BroadcastsInDim s dims) (hr : s.ReducesTo axes Cert.Pre_finite_inputs.S_)
    (hu : 0 < Cert.Pre_finite_inputs.S_.numel) (x : FVec Ideal s .f32) (init : IVec Cert.Pre_finite_inputs.S_ 1)
    (h : Host.reduce IntOp.andi
          (cmpf .olt (Host.absf x) (broadcastInDim s dims hb (constant Cert.Pre_finite_inputs.S_ .f32 0x7F800000#32)))
          init hr hu ValueIdx.ix0 = 1#1) :
    IsReal x :=
  fun i => real_of_lt_inf hb x i (Host.reduce_andi_all _ init hr hu _ h i)

/-- The precondition holding (its one bit is 1) makes every entry of each of the five arguments a real number:
    the bit is `((((a0 ∧ a1) ∧ a2) ∧ a3) ∧ a4)` with `ak` the fold for the k-th argument. -/
theorem real_of_pre [Cert.Pre_finite_inputs.Facts]
    (x0 : FVec Ideal Cert.Pre_finite_inputs.S4x4096x4096 .f32) (x1 : FVec Ideal Cert.Pre_finite_inputs.S4096x4096 .f32)
    (x2 : FVec Ideal Cert.Pre_finite_inputs.S4096 .f32) (x3 : FVec Ideal Cert.Pre_finite_inputs.S4096x16 .f32)
    (x4 : FVec Ideal Cert.Pre_finite_inputs.S16x4096 .f32)
    (h : Cert.Pre_finite_inputs.fn (F := Ideal) x0 x1 x2 x3 x4 = fun _ => 1#1) :
    IsReal x0 ∧ IsReal x1 ∧ IsReal x2 ∧ IsReal x3 ∧ IsReal x4 := by
  have hbit := congrFun h ValueIdx.ix0
  dsimp only [Cert.Pre_finite_inputs.fn, Cert.Pre_finite_inputs.fn_part1, andi] at hbit
  obtain ⟨h0123, h4⟩ := IntOp.andi_eq_one.1 hbit
  obtain ⟨h012, h3⟩ := IntOp.andi_eq_one.1 h0123
  obtain ⟨h01, h2⟩ := IntOp.andi_eq_one.1 h012
  obtain ⟨h0, h1⟩ := IntOp.andi_eq_one.1 h01
  exact ⟨isReal_of_all _ _ _ x0 _ h0, isReal_of_all _ _ _ x1 _ h1, isReal_of_all _ _ _ x2 _ h2,
    isReal_of_all _ _ _ x3 _ h3, isReal_of_all _ _ _ x4 _ h4⟩

end Cert.Finite
-- ==== Proof.lean ====
/-
  The certificate: a Pallas kernel for a linear layer with a rank-16 adapter folded into its weight, against the
  plain jnp reference.

  The kernel program runs two regions.  The first forms the effective weight Weff = W + 2 · (A · B), block by block.
  The second multiplies the rows of x by Weff with the contraction axis cut into eight blocks of 512, accumulating
  in a scratch buffer that is zeroed at the first block and read out, with the bias added, after the last.  The
  reference computes (x · W + bias) + ((x · A) · B) · 2.  On the extended reals a change of float format is the
  identity, so both are sums of products of the same entries; they are equal because every entry is a real number
  (the precondition), where a product distributes over a sum, finite sums exchange, and a sum taken in eight
  consecutive blocks is the whole sum.

  The three frame claims (the program terminates, nothing faults, the argument arrays end unchanged) come from
  one run of each program: the two kernel programs' runs name every unscoped buffer's final contents, the
  reference's run is its straight line of host operations.  The idealization rewrote nothing, so the kernel and
  its idealization are the same text and there is nothing to preserve.
-/
import proofs.«164843_j86371792322948_2_alg».proof.Defs
import proofs.«164843_j86371792322948_2_alg».proof.Proof.Gen.Kernel
import proofs.«164843_j86371792322948_2_alg».proof.Proof.Gen.KernelIdeal
import proofs.«164843_j86371792322948_2_alg».proof.Proof.Gen.ReferenceIdeal
import proofs.«164843_j86371792322948_2_alg».proof.Proof.Gen.ReferenceIdeal.Run
import proofs.«164843_j86371792322948_2_alg».proof.Proof.Gen.ReferenceIdeal.Read
import proofs.«164843_j86371792322948_2_alg».proof.Proof.Gen.Pre_finite_inputs
import proofs.«164843_j86371792322948_2_alg».proof.Proof.K.Run
import proofs.«164843_j86371792322948_2_alg».proof.Proof.KI.Run
import proofs.«164843_j86371792322948_2_alg».proof.Proof.KI.Result
import proofs.«164843_j86371792322948_2_alg».proof.Proof.RefValue
import proofs.«164843_j86371792322948_2_alg».proof.Proof.Finite
import proofs.«164843_j86371792322948_2_alg».proof.Proof.Spec

noncomputable section

namespace Cert.Proof

open Idealize.ShloMosaic Idealize.ShloMosaic.TcCoe Idealize.SL.Sem

/-- The kernel program as printed: its run, the result dropped. -/
theorem frame_k : Cert.frame_Kernel := fun m ρ _ =>
  (θ_run Cert.Kernel.defs _ _).mono (fun _ h c => (h c).2) (Cert.Kernel.Run.run_named (F := Bits) m ρ)

/-- The idealized kernel program: the same. -/
theorem frame_ki : Cert.frame_KernelIdeal := fun m ρ _ =>
  (θ_run Cert.KernelIdeal.defs _ _).mono (fun _ h c => (h c).2) (Cert.KernelIdeal.Run.run_named (F := Ideal) m ρ)

/-- The idealized reference: its straight-line run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization pass rewrote no operation. -/
theorem preserves : Cert.preserves_Kernel_KernelIdeal := trivial

/-- With real entries, the reference's result is the kernel's at every entry: both are read at an entry as sums over
    natural coordinates, and the law of Spec.lean joins them. -/
theorem result_eq (m : (ℓ : Loc Cert.KernelIdeal.nD Cert.KernelIdeal.τ Cert.KernelIdeal.sig) → Buf (Elt Ideal) ℓ)
    (c : Dev Cert.KernelIdeal.nD)
    (hpre : Cert.Pre_finite_inputs.fn (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) = fun _ => 1#1) :
    Cert.ReferenceIdeal.Read.val_main_v8 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
      = Cert.KernelIdeal.Run.W4 m c (Proc.devRef .tc Cert.KernelIdeal.main_v4) := by
  obtain ⟨hx, hW, hb, hA, hB⟩ := Cert.Finite.real_of_pre _ _ _ _ _ hpre
  funext i
  rw [Cert.RefValue.ref_apply]
  refine Eq.trans ?_ (Cert.KernelIdeal.Result.out_apply m c i).symm
  exact (Cert.Spec.kern_eq_refr _ _ _ _ _ (fun d => Cert.Spec.at3_real hx _ _ d) (fun d => Cert.Spec.at2_real hW d _)
    (fun d r => Cert.Spec.at2_real hA d r) (fun r => Cert.Spec.at2_real hB r _) (Cert.Spec.at1_real hb _)).symm

/-- At the ideal instance, from memories that agree on the arguments, both programs run, the arguments end unchanged
    and the two results are equal. -/
theorem algebraic : Cert.algebraic_KernelIdeal_ReferenceIdeal := by
  intro m ρ m' ρ' hpre hagree
  refine ⟨fun c => Cert.KernelIdeal.Run.W4 m c (Proc.devRef .tc Cert.KernelIdeal.main_v4),
    Cert.KernelIdeal.Run.run_named (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact (Cert.ReferenceIdeal.Read.val_main_v8_eq _ _ _ _ _).trans (result_eq m c (hpre c))

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
